-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S4096x1024 : Shape := ⟨2, ![4096, 1024]⟩
abbrev S1024x1024 : Shape := ⟨2, ![1024, 1024]⟩
abbrev S8x256 : Shape := ⟨2, ![8, 256]⟩
abbrev S1024 : Shape := ⟨1, ![1024]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8x256 : S_.BroadcastsInDim S8x256 (![] : Fin 0 → Fin S8x256.rank)
  reducesTo_S8x256_S_d0_1 : S8x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S256x64x1024 .f32) (main_arg1 : FVec F S4096x1024 .f32) (main_arg2 : FVec F S1024x1024 .f32) (main_arg3 : FVec F S8x256 .f32) (main_arg4 : FVec F S1024 .f32) (main_arg5 : FVec F S1024 .f32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_arg5 main_v13 main_v16
-- ==== Kernel.lean ====
abbrev S256x64x1024 : Shape := ⟨3, ![256, 64, 1024]⟩
abbrev S4096x1024 : Shape := ⟨2, ![4096, 1024]⟩
abbrev S1024x1024 : Shape := ⟨2, ![1024, 1024]⟩
abbrev S8x256 : Shape := ⟨2, ![8, 256]⟩
abbrev S1024 : Shape := ⟨1, ![1024]⟩
abbrev S1024x4096 : Shape := ⟨2, ![1024, 4096]⟩
abbrev S8x256x1 : Shape := ⟨3, ![8, 256, 1]⟩
abbrev S256x8x1024 : Shape := ⟨3, ![256, 8, 1024]⟩
abbrev S1024x512 : Shape := ⟨2, ![1024, 512]⟩
abbrev S128x1024 : Shape := ⟨2, ![128, 1024]⟩
abbrev S1x256x1 : Shape := ⟨3, ![1, 256, 1]⟩
abbrev S256x256 : Shape := ⟨2, ![256, 256]⟩
abbrev S256x1 : Shape := ⟨2, ![256, 1]⟩
abbrev S256x1x1024 : Shape := ⟨3, ![256, 1, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S128x256 : Shape := ⟨2, ![128, 256]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S256x64x1024, .f32⟩
  | .hbm, ⟨1, _⟩ => ⟨S4096x1024, .f32⟩
  | .hbm, ⟨2, _⟩ => ⟨S1024x1024, .f32⟩
  | .hbm, ⟨3, _⟩ => ⟨S8x256, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S1024x4096, .bf16⟩
  | .hbm, ⟨8, _⟩ => ⟨S1024x1024, .f32⟩
  | .hbm, ⟨9, _⟩ => ⟨S1024x1024, .bf16⟩
  | .hbm, ⟨10, _⟩ => ⟨S8x256x1, .f32⟩
  | .hbm, ⟨11, _⟩ => ⟨S256x64x1024, .f32⟩
  | .local _ .vmem, ⟨0, _⟩ => ⟨S256x8x1024, .f32⟩
  | .local _ .vmem, ⟨1, _⟩ => ⟨S256x8x1024, .f32⟩
  | .local _ .vmem, ⟨2, _⟩ => ⟨S1024x512, .bf16⟩
  | .local _ .vmem, ⟨3, _⟩ => ⟨S1024x512, .bf16⟩
  | .local _ .vmem, ⟨4, _⟩ => ⟨S128x1024, .bf16⟩
  | .local _ .vmem, ⟨5, _⟩ => ⟨S128x1024, .bf16⟩
  | .local _ .vmem, ⟨6, _⟩ => ⟨S1x256x1, .f32⟩
  | .local _ .vmem, ⟨7, _⟩ => ⟨S1x256x1, .f32⟩
  | .local _ .vmem, ⟨8, _⟩ => ⟨S1024, .f32⟩
  | .local _ .vmem, ⟨9, _⟩ => ⟨S1024, .f32⟩
  | .local _ .vmem, ⟨10, _⟩ => ⟨S256x8x1024, .f32⟩
  | .local _ .vmem, ⟨11, _⟩ => ⟨S256x8x1024, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S4096x1024_S1024x4096_1_0 : S4096x1024.Transposes [1, 0] S1024x4096
  bitsLt_bf16_f32 : FTy.bits .bf16 < FTy.bits .f32
  transposes_S1024x1024_S1024x1024_1_0 : S1024x1024.Transposes [1, 0] S1024x1024
  bcast_S8x256_S8x256x1_0_1 : S8x256.BroadcastsInDim S8x256x1 (![0, 1] : Fin 2 → Fin S8x256x1.rank)
  inb_S256x8x1024_S256x8x1024_0_0_0 : ∀ a, (![0, 0, 0] : Fin 3 → Nat) a + S256x8x1024.size a ≤ S256x8x1024.size a
  h_S256x8x1024 : 0 < S256x8x1024.numel
  iota_S256x256_d0_w32 : S256x256.Iotas .tc 32 [0]
  iota_S256x256_d1_w32 : S256x256.Iotas .tc 32 [1]
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S256x8x1024_S256x1x1024_0_0_0 : ∀ a, (![0, 0, 0] : Fin 3 → Nat) a + S256x1x1024.size a ≤ S256x8x1024.size a
  h_S256x1x1024 : 0 < S256x1x1024.numel
  shapeCasts_S256x1x1024_S256x1024 : S256x1x1024.ShapeCasts S256x1024
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  reduces_S256x128_S256 : S256x128.Reduces [1] S256
  shapeCasts_S256_S256x1 : S256.ShapeCasts S256x1
  broadcasts_S256x1_S256x128 : S256x1.Broadcasts S256x128
  transposes_S256x128_p1_0_S128x256 : S256x128.Transposes [1, 0] S128x256
  shapeCasts_S256x1024_S256x1x1024 : S256x1024.ShapeCasts S256x1x1024
  inb_S256x8x1024_S256x1x1024_0_1_0 : ∀ a, (![0, 1, 0] : Fin 3 → Nat) a + S256x1x1024.size a ≤ S256x8x1024.size a
  inb_S256x8x1024_S256x1x1024_0_2_0 : ∀ a, (![0, 2, 0] : Fin 3 → Nat) a + S256x1x1024.size a ≤ S256x8x1024.size a
  inb_S256x8x1024_S256x1x1024_0_3_0 : ∀ a, (![0, 3, 0] : Fin 3 → Nat) a + S256x1x1024.size a ≤ S256x8x1024.size a
  inb_S256x8x1024_S256x1x1024_0_4_0 : ∀ a, (![0, 4, 0] : Fin 3 → Nat) a + S256x1x1024.size a ≤ S256x8x1024.size a
  inb_S256x8x1024_S256x1x1024_0_5_0 : ∀ a, (![0, 5, 0] : Fin 3 → Nat) a + S256x1x1024.size a ≤ S256x8x1024.size a
  inb_S256x8x1024_S256x1x1024_0_6_0 : ∀ a, (![0, 6, 0] : Fin 3 → Nat) a + S256x1x1024.size a ≤ S256x8x1024.size a
  inb_S256x8x1024_S256x1x1024_0_7_0 : ∀ a, (![0, 7, 0] : Fin 3 → Nat) a + S256x1x1024.size a ≤ S256x8x1024.size a
  reduces_S256x1024_S256 : S256x1024.Reduces [1] S256
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x1024_S1024x512_S256x512_1_0_0_1_n_n_wf : DotDims.WF S256x1024 S1024x512 S256x512 [1] [0] [0] [1] [] []
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x1024.size a ≤ S256x64x1024.size a
  hwx0_0 : ∀ i : grid0.Coords, EltTy.bits .f32 = 32 ∨ (Rect.block (s := S256x64x1024) S256x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .bf16 = 32 ∨ (Rect.block (s := S1024x1024) S128x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x256x1.size a
  hwx0_3 : ∀ i : grid0.Coords, EltTy.bits .f32 = 32 ∨ (Rect.block (s := S8x256x1) S1x256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8x1024.size a ≤ S256x64x1024.size a
  hwx0_6 : ∀ i : grid0.Coords, EltTy.bits .f32 = 32 ∨ (Rect.block (s := S256x64x1024) S256x8x1024.size (cc0_transform_6 i) (hinb0_6 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_arg0) S256x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x8x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x64x1024 : Shape := ⟨3, ![256, 64, 1024]⟩
abbrev S4096x1024 : Shape := ⟨2, ![4096, 1024]⟩
abbrev S1024x1024 : Shape := ⟨2, ![1024, 1024]⟩
abbrev S8x256 : Shape := ⟨2, ![8, 256]⟩
abbrev S1024 : Shape := ⟨1, ![1024]⟩
abbrev S256x64x4096 : Shape := ⟨3, ![256, 64, 4096]⟩
abbrev S256x64x8x512 : Shape := ⟨4, ![256, 64, 8, 512]⟩
abbrev S256x64x8x128 : Shape := ⟨4, ![256, 64, 8, 128]⟩
abbrev S64x8x256x128 : Shape := ⟨4, ![64, 8, 256, 128]⟩
abbrev S_ : Shape := ⟨0, ![]⟩
abbrev S64x8x256 : Shape := ⟨3, ![64, 8, 256]⟩
abbrev S64x8x256x1 : Shape := ⟨4, ![64, 8, 256, 1]⟩
abbrev S64x8x256x256 : Shape := ⟨4, ![64, 8, 256, 256]⟩
abbrev S256x256 : Shape := ⟨2, ![256, 256]⟩
abbrev S1x8x256x1 : Shape := ⟨4, ![1, 8, 256, 1]⟩
abbrev S256x64 : Shape := ⟨2, ![256, 64]⟩
abbrev S256x64x1 : Shape := ⟨3, ![256, 64, 1]⟩
abbrev S1x1x1024 : Shape := ⟨3, ![1, 1, 1024]⟩

abbrev nBuf : Space → Nat
  | .hbm => 172
  | .vmem => 0
  | .smem => 0
  | _ => 0

abbrev hbmTy0_0 (i : Nat) : BufTy := match i % 128 with
  | 0 => ⟨S256x64x1024, .f32⟩
  | 1 => ⟨S4096x1024, .f32⟩
  | 2 => ⟨S1024x1024, .f32⟩
  | 3 => ⟨S8x256, .f32⟩
  | 4 => ⟨S1024, .f32⟩
  | 5 => ⟨S1024, .f32⟩
  | 6 => ⟨S256x64x4096, .f32⟩
  | 7 => ⟨S256x64x8x512, .f32⟩
  | 8 => ⟨S256x64x8x128, .f32⟩
  | 9 => ⟨S256x64x8x128, .f32⟩
  | 10 => ⟨S256x64x8x128, .f32⟩
  | 11 => ⟨S256x64x8x128, .f32⟩
  | 12 => ⟨S64x8x256x128, .f32⟩
  | 13 => ⟨S_, .f32⟩
  | 14 => ⟨S64x8x256x128, .f32⟩
  | 15 => ⟨S64x8x256x128, .i1⟩
  | 16 => ⟨S_, .f32⟩
  | 17 => ⟨S64x8x256x128, .f32⟩
  | 18 => ⟨S64x8x256x128, .i1⟩
  | 19 => ⟨S_, .f32⟩
  | 20 => ⟨S_, .f32⟩
  | 21 => ⟨S64x8x256x128, .f32⟩
  | 22 => ⟨S64x8x256x128, .f32⟩
  | 23 => ⟨S64x8x256x128, .f32⟩
  | 24 => ⟨S_, .f32⟩
  | 25 => ⟨S64x8x256x128, .f32⟩
  | 26 => ⟨S64x8x256x128, .f32⟩
  | 27 => ⟨S64x8x256x128, .f32⟩
  | 28 => ⟨S_, .f32⟩
  | 29 => ⟨S64x8x256x128, .f32⟩
  | 30 => ⟨S64x8x256x128, .f32⟩
  | 31 => ⟨S_, .f32⟩
  | 32 => ⟨S64x8x256, .f32⟩
  | 33 => ⟨S64x8x256x1, .f32⟩
  | 34 => ⟨S64x8x256x128, .f32⟩
  | 35 => ⟨S64x8x256x128, .f32⟩
  | 36 => ⟨S64x8x256x128, .f32⟩
  | 37 => ⟨S_, .f32⟩
  | 38 => ⟨S64x8x256x128, .f32⟩
  | 39 => ⟨S64x8x256x128, .i1⟩
  | 40 => ⟨S_, .f32⟩
  | 41 => ⟨S64x8x256x128, .f32⟩
  | 42 => ⟨S64x8x256x128, .i1⟩
  | 43 => ⟨S_, .f32⟩
  | 44 => ⟨S_, .f32⟩
  | 45 => ⟨S64x8x256x128, .f32⟩
  | 46 => ⟨S64x8x256x128, .f32⟩
  | 47 => ⟨S64x8x256x128, .f32⟩
  | 48 => ⟨S_, .f32⟩
  | 49 => ⟨S64x8x256x128, .f32⟩
  | 50 => ⟨S64x8x256x128, .f32⟩
  | 51 => ⟨S64x8x256x128, .f32⟩
  | 52 => ⟨S_, .f32⟩
  | 53 => ⟨S64x8x256x128, .f32⟩
  | 54 => ⟨S64x8x256x128, .f32⟩
  | 55 => ⟨S_, .f32⟩
  | 56 => ⟨S64x8x256, .f32⟩
  | 57 => ⟨S64x8x256x1, .f32⟩
  | 58 => ⟨S64x8x256x128, .f32⟩
  | 59 => ⟨S64x8x256x128, .f32⟩
  | 60 => ⟨S64x8x256x128, .f32⟩
  | 61 => ⟨S_, .f32⟩
  | 62 => ⟨S64x8x256x128, .f32⟩
  | 63 => ⟨S64x8x256x128, .i1⟩
  | 64 => ⟨S_, .f32⟩
  | 65 => ⟨S64x8x256x128, .f32⟩
  | 66 => ⟨S64x8x256x128, .i1⟩
  | 67 => ⟨S_, .f32⟩
  | 68 => ⟨S_, .f32⟩
  | 69 => ⟨S64x8x256x128, .f32⟩
  | 70 => ⟨S64x8x256x128, .f32⟩
  | 71 => ⟨S64x8x256x128, .f32⟩
  | 72 => ⟨S_, .f32⟩
  | 73 => ⟨S64x8x256x128, .f32⟩
  | 74 => ⟨S64x8x256x128, .f32⟩
  | 75 => ⟨S64x8x256x128, .f32⟩
  | 76 => ⟨S_, .f32⟩
  | 77 => ⟨S64x8x256x128, .f32⟩
  | 78 => ⟨S64x8x256x128, .f32⟩
  | 79 => ⟨S_, .f32⟩
  | 80 => ⟨S64x8x256, .f32⟩
  | 81 => ⟨S64x8x256x1, .f32⟩
  | 82 => ⟨S64x8x256x128, .f32⟩
  | 83 => ⟨S64x8x256x128, .f32⟩
  | 84 => ⟨S64x8x256x128, .f32⟩
  | 85 => ⟨S64x8x256x256, .f32⟩
  | 86 => ⟨S_, .i1⟩
  | 87 => ⟨S256x256, .i1⟩
  | 88 => ⟨S256x256, .i32⟩
  | 89 => ⟨S_, .i32⟩
  | 90 => ⟨S256x256, .i32⟩
  | 91 => ⟨S256x256, .i32⟩
  | 92 => ⟨S256x256, .i32⟩
  | 93 => ⟨S256x256, .i1⟩
  | 94 => ⟨S_, .i1⟩
  | 95 => ⟨S256x256, .i1⟩
  | 96 => ⟨S256x256, .i1⟩
  | 97 => ⟨S_, .f32⟩
  | 98 => ⟨S64x8x256x256, .i1⟩
  | 99 => ⟨S64x8x256x256, .f32⟩
  | 100 => ⟨S64x8x256x256, .f32⟩
  | 101 => ⟨S64x8x256x128, .f32⟩
  | 102 => ⟨S64x8x256x256, .f32⟩
  | 103 => ⟨S_, .i1⟩
  | 104 => ⟨S256x256, .i1⟩
  | 105 => ⟨S256x256, .i32⟩
  | 106 => ⟨S_, .i32⟩
  | 107 => ⟨S256x256, .i32⟩
  | 108 => ⟨S256x256, .i32⟩
  | 109 => ⟨S256x256, .i32⟩
  | 110 => ⟨S256x256, .i1⟩
  | 111 => ⟨S_, .i1⟩
  | 112 => ⟨S256x256, .i1⟩
  | 113 => ⟨S256x256, .i1⟩
  | 114 => ⟨S_, .f32⟩
  | 115 => ⟨S64x8x256x256, .i1⟩
  | 116 => ⟨S64x8x256x256, .f32⟩
  | 117 => ⟨S64x8x256x256, .f32⟩
  | 118 => ⟨S64x8x256x128, .f32⟩
  | 119 => ⟨S_, .f32⟩
  | 120 => ⟨S_, .f32⟩
  | 121 => ⟨S_, .f32⟩
  | 122 => ⟨S8x256, .f32⟩
  | 123 => ⟨S8x256, .f32⟩
  | 124 => ⟨S_, .f32⟩
  | 125 => ⟨S8x256, .f32⟩
  | 126 => ⟨S8x256, .f32⟩
  | 127 => ⟨S1x8x256x1, .f32⟩
  | _ => ⟨S256x64x1024, .f32⟩

abbrev hbmTy0_1 (i : Nat) : BufTy := match i % 128 with
  | 0 => ⟨S64x8x256x128, .f32⟩
  | 1 => ⟨S64x8x256x128, .f32⟩
  | 2 => ⟨S_, .f32⟩
  | 3 => ⟨S1x8x256x1, .f32⟩
  | 4 => ⟨S1x8x256x1, .f32⟩
  | 5 => ⟨S64x8x256x128, .f32⟩
  | 6 => ⟨S64x8x256x128, .f32⟩
  | 7 => ⟨S64x8x256x128, .f32⟩
  | 8 => ⟨S_, .f32⟩
  | 9 => ⟨S64x8x256x128, .f32⟩
  | 10 => ⟨S64x8x256x128, .f32⟩
  | 11 => ⟨S256x64x8x128, .f32⟩
  | 12 => ⟨S256x64x1024, .f32⟩
  | 13 => ⟨S256x64x1024, .f32⟩
  | 14 => ⟨S256x64x1024, .f32⟩
  | 15 => ⟨S_, .f32⟩
  | 16 => ⟨S256x64, .f32⟩
  | 17 => ⟨S256x64x1, .f32⟩
  | 18 => ⟨S_, .f32⟩
  | 19 => ⟨S256x64x1, .f32⟩
  | 20 => ⟨S256x64x1, .f32⟩
  | 21 => ⟨S256x64x1024, .f32⟩
  | 22 => ⟨S256x64x1024, .f32⟩
  | 23 => ⟨S256x64x1024, .f32⟩
  | 24 => ⟨S_, .f32⟩
  | 25 => ⟨S256x64, .f32⟩
  | 26 => ⟨S256x64x1, .f32⟩
  | 27 => ⟨S_, .f32⟩
  | 28 => ⟨S256x64x1, .f32⟩
  | 29 => ⟨S256x64x1, .f32⟩
  | 30 => ⟨S256x64x1024, .f32⟩
  | 31 => ⟨S256x64x1024, .f32⟩
  | 32 => ⟨S1x1x1024, .f32⟩
  | 33 => ⟨S256x64x1024, .f32⟩
  | 34 => ⟨S256x64x1024, .f32⟩
  | 35 => ⟨S_, .f32⟩
  | 36 => ⟨S256x64x1, .f32⟩
  | 37 => ⟨S256x64x1, .f32⟩
  | 38 => ⟨S256x64x1, .f32⟩
  | 39 => ⟨S256x64x1024, .f32⟩
  | 40 => ⟨S256x64x1024, .f32⟩
  | 41 => ⟨S1x1x1024, .f32⟩
  | 42 => ⟨S256x64x1024, .f32⟩
  | 43 => ⟨S256x64x1024, .f32⟩
  | _ => ⟨S256x64x1024, .f32⟩

abbrev hbmTy (i : Nat) : BufTy := match i / 128 with
  | 0 => hbmTy0_0 i
  | 1 => hbmTy0_1 i
  | _ => ⟨S256x64x1024, .f32⟩

abbrev bufTy : (tb : Table) → Fin (tcTables nBuf tb) → BufTy
  | .hbm, ⟨i, _⟩ => hbmTy i
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_cst_1 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_v4 : Ref sig .tc := ⟨.hbm, 22, rfl⟩
abbrev main_call0_v5 : Ref sig .tc := ⟨.hbm, 23, rfl⟩
abbrev main_call0_cst_2 : Ref sig .tc := ⟨.hbm, 24, rfl⟩
abbrev main_call0_v6 : Ref sig .tc := ⟨.hbm, 25, rfl⟩
abbrev main_call0_v7 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_v17 : Ref sig .tc := ⟨.hbm, 54, rfl⟩
abbrev main_cst_2 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_cst_1 : Ref sig .tc := ⟨.hbm, 67, rfl⟩
abbrev main_call2_call0_v0 : Ref sig .tc := ⟨.hbm, 68, rfl⟩
abbrev main_call2_call0_v1 : Ref sig .tc := ⟨.hbm, 69, rfl⟩
abbrev main_call2_v4 : Ref sig .tc := ⟨.hbm, 70, rfl⟩
abbrev main_call2_v5 : Ref sig .tc := ⟨.hbm, 71, rfl⟩
abbrev main_call2_cst_2 : Ref sig .tc := ⟨.hbm, 72, rfl⟩
abbrev main_call2_v6 : Ref sig .tc := ⟨.hbm, 73, rfl⟩
abbrev main_call2_v7 : Ref sig .tc := ⟨.hbm, 74, rfl⟩
abbrev main_v23 : Ref sig .tc := ⟨.hbm, 75, rfl⟩
abbrev main_cst_3 : Ref sig .tc := ⟨.hbm, 76, rfl⟩
abbrev main_v24 : Ref sig .tc := ⟨.hbm, 77, rfl⟩
abbrev main_v25 : Ref sig .tc := ⟨.hbm, 78, rfl⟩
abbrev main_cst_4 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_c : Ref sig .tc := ⟨.hbm, 86, rfl⟩
abbrev main_v32 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_c_0 : Ref sig .tc := ⟨.hbm, 94, rfl⟩
abbrev main_call3_v5 : Ref sig .tc := ⟨.hbm, 95, rfl⟩
abbrev main_v33 : Ref sig .tc := ⟨.hbm, 96, rfl⟩
abbrev main_cst_5 : Ref sig .tc := ⟨.hbm, 97, rfl⟩
abbrev main_call4_v0 : Ref sig .tc := ⟨.hbm, 98, rfl⟩
abbrev main_call4_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_c_6 : Ref sig .tc := ⟨.hbm, 103, rfl⟩
abbrev main_v37 : Ref sig .tc := ⟨.hbm, 104, rfl⟩
abbrev main_call5_v0 : Ref sig .tc := ⟨.hbm, 105, rfl⟩
abbrev main_call5_c : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_c_0 : Ref sig .tc := ⟨.hbm, 111, rfl⟩
abbrev main_call5_v5 : Ref sig .tc := ⟨.hbm, 112, rfl⟩
abbrev main_v38 : Ref sig .tc := ⟨.hbm, 113, rfl⟩
abbrev main_cst_7 : Ref sig .tc := ⟨.hbm, 114, rfl⟩
abbrev main_call6_v0 : Ref sig .tc := ⟨.hbm, 115, rfl⟩
abbrev main_call6_v1 : Ref sig .tc := ⟨.hbm, 116, rfl⟩
abbrev main_v39 : Ref sig .tc := ⟨.hbm, 117, rfl⟩
abbrev main_v40 : Ref sig .tc := ⟨.hbm, 118, rfl⟩
abbrev main_cst_8 : Ref sig .tc := ⟨.hbm, 119, rfl⟩
abbrev main_cst_9 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_cst_10 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_cst_11 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_cst_12 : Ref sig .tc := ⟨.hbm, 143, rfl⟩
abbrev main_v56 : Ref sig .tc := ⟨.hbm, 144, rfl⟩
abbrev main_v57 : Ref sig .tc := ⟨.hbm, 145, rfl⟩
abbrev main_cst_13 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_cst_14 : Ref sig .tc := ⟨.hbm, 152, rfl⟩
abbrev main_v63 : Ref sig .tc := ⟨.hbm, 153, rfl⟩
abbrev main_v64 : Ref sig .tc := ⟨.hbm, 154, rfl⟩
abbrev main_cst_15 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_cst_16 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩

abbrev nD : Nat := 1
abbrev τ : Topo := Topo.v7x

variable {F : FTy → Type} [FloatOps F]

class Facts₀ : Prop where
  shapeCasts_S256x64x4096_S256x64x8x512 : S256x64x4096.ShapeCasts S256x64x8x512
  slices_S256x64x8x512_S256x64x8x128_0_0_0_0 : S256x64x8x512.Slices ![0, 0, 0, 0] S256x64x8x128
  slices_S256x64x8x512_S256x64x8x128_0_0_0_128 : S256x64x8x512.Slices ![0, 0, 0, 128] S256x64x8x128
  slices_S256x64x8x512_S256x64x8x128_0_0_0_256 : S256x64x8x512.Slices ![0, 0, 0, 256] S256x64x8x128
  slices_S256x64x8x512_S256x64x8x128_0_0_0_384 : S256x64x8x512.Slices ![0, 0, 0, 384] S256x64x8x128
  transposes_S256x64x8x128_S64x8x256x128_1_2_0_3 : S256x64x8x128.Transposes [1, 2, 0, 3] S64x8x256x128
  bcast_S_S64x8x256x128 : S_.BroadcastsInDim S64x8x256x128 (![] : Fin 0 → Fin S64x8x256x128.rank)
  reducesTo_S64x8x256x128_S64x8x256_d3 : S64x8x256x128.ReducesTo [3] S64x8x256
  h_S_ : 0 < S_.numel
  bcast_S64x8x256_S64x8x256x1_0_1_2 : S64x8x256.BroadcastsInDim S64x8x256x1 (![0, 1, 2] : Fin 3 → Fin S64x8x256x1.rank)
  bcast_S64x8x256x1_S64x8x256x128_0_1_2_3 : S64x8x256x1.BroadcastsInDim S64x8x256x128 (![0, 1, 2, 3] : Fin 4 → Fin S64x8x256x128.rank)
  bcast_S_S256x256 : S_.BroadcastsInDim S256x256 (![] : Fin 0 → Fin S256x256.rank)
  bcast_S256x256_S64x8x256x256_2_3 : S256x256.BroadcastsInDim S64x8x256x256 (![2, 3] : Fin 2 → Fin S64x8x256x256.rank)
  bcast_S_S64x8x256x256 : S_.BroadcastsInDim S64x8x256x256 (![] : Fin 0 → Fin S64x8x256x256.rank)
  bcast_S_S8x256 : S_.BroadcastsInDim S8x256 (![] : Fin 0 → Fin S8x256.rank)
  bcast_S8x256_S1x8x256x1_1_2 : S8x256.BroadcastsInDim S1x8x256x1 (![1, 2] : Fin 2 → Fin S1x8x256x1.rank)
  bcast_S1x8x256x1_S64x8x256x128_0_1_2_3 : S1x8x256x1.BroadcastsInDim S64x8x256x128 (![0, 1, 2, 3] : Fin 4 → Fin S64x8x256x128.rank)
  bcast_S_S1x8x256x1 : S_.BroadcastsInDim S1x8x256x1 (![] : Fin 0 → Fin S1x8x256x1.rank)
  transposes_S64x8x256x128_S256x64x8x128_2_0_1_3 : S64x8x256x128.Transposes [2, 0, 1, 3] S256x64x8x128
  shapeCasts_S256x64x8x128_S256x64x1024 : S256x64x8x128.ShapeCasts S256x64x1024
  reducesTo_S256x64x1024_S256x64_d2 : S256x64x1024.ReducesTo [2] S256x64
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x1024_0_1_2 : S256x64x1.BroadcastsInDim S256x64x1024 (![0, 1, 2] : Fin 3 → Fin S256x64x1024.rank)
  bcast_S1024_S1x1x1024_2 : S1024.BroadcastsInDim S1x1x1024 (![2] : Fin 1 → Fin S1x1x1024.rank)
  bcast_S1x1x1024_S256x64x1024_0_1_2 : S1x1x1024.BroadcastsInDim S256x64x1024 (![0, 1, 2] : Fin 3 → Fin S256x64x1024.rank)
  dot_S256x64x1024_S4096x1024_S256x64x4096_2_1_01_0_n_n_wf : DotDims.WF S256x64x1024 S4096x1024 S256x64x4096 [2] [1] [0, 1] [0] [] []
  dot_S64x8x256x128_S64x8x256x128_S64x8x256x256_3_3_2_2_01_01_wf : DotDims.WF S64x8x256x128 S64x8x256x128 S64x8x256x256 [3] [3] [2] [2] [0, 1] [0, 1]
  dot_S64x8x256x256_S64x8x256x128_S64x8x256x128_3_2_2_3_01_01_wf : DotDims.WF S64x8x256x256 S64x8x256x128 S64x8x256x128 [3] [2] [2] [3] [0, 1] [0, 1]
  dot_S256x64x1024_S1024x1024_S256x64x1024_2_1_01_0_n_n_wf : DotDims.WF S256x64x1024 S1024x1024 S256x64x1024 [2] [1] [0, 1] [0] [] []

variable [Facts₀]

def dot_S256x64x1024_S4096x1024_S256x64x4096_2_1_01_0_n_n : DotDims S256x64x1024 S4096x1024 S256x64x4096 where
  lhsContracting := [2]
  rhsContracting := [1]
  lhsNonContracting := [0, 1]
  rhsNonContracting := [0]
  lhsBatch := []
  rhsBatch := []
  wf := dot_S256x64x1024_S4096x1024_S256x64x4096_2_1_01_0_n_n_wf
def dot_S64x8x256x128_S64x8x256x128_S64x8x256x256_3_3_2_2_01_01 : DotDims S64x8x256x128 S64x8x256x128 S64x8x256x256 where
  lhsContracting := [3]
  rhsContracting := [3]
  lhsNonContracting := [2]
  rhsNonContracting := [2]
  lhsBatch := [0, 1]
  rhsBatch := [0, 1]
  wf := dot_S64x8x256x128_S64x8x256x128_S64x8x256x256_3_3_2_2_01_01_wf
def dot_S64x8x256x256_S64x8x256x128_S64x8x256x128_3_2_2_3_01_01 : DotDims S64x8x256x256 S64x8x256x128 S64x8x256x128 where
  lhsContracting := [3]
  rhsContracting := [2]
  lhsNonContracting := [2]
  rhsNonContracting := [3]
  lhsBatch := [0, 1]
  rhsBatch := [0, 1]
  wf := dot_S64x8x256x256_S64x8x256x128_S64x8x256x128_3_2_2_3_01_01_wf
def dot_S256x64x1024_S1024x1024_S256x64x1024_2_1_01_0_n_n : DotDims S256x64x1024 S1024x1024 S256x64x1024 where
  lhsContracting := [2]
  rhsContracting := [1]
  lhsNonContracting := [0, 1]
  rhsNonContracting := [0]
  lhsBatch := []
  rhsBatch := []
  wf := dot_S256x64x1024_S1024x1024_S256x64x1024_2_1_01_0_n_n_wf

class Facts : Prop extends Facts₀ where

variable [Facts]
-- ==== Proof.RefRun.lean ====
import proofs.«168379_j15891378995467_2_alg».proof.Proof.Gen.ReferenceIdeal
import Idealize.ShloMosaic.Lib.StableHlo.Run

/-!
# The reference as a straight line of host operations, and its run

The reference program computes, from the six argument arrays, the post-LayerNorm output of a two-key causal
linear-attention layer.  Its functions (the ELU feature map, the lower-triangular mask, the masked select and the
clip of the mixing weights) are written out at their call sites, so that the whole program is ONE list of
operations, each writing a buffer of its own.  Every buffer's final contents is then a pure function of the six
arguments: `res_<buffer>` below, one definition per operation, each over the definitions of its operands.
`run` states that every weakly fair execution ends with the result buffer at `res_main_v79` of the launch
contents of the arguments, and the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each function's body in place of its call. -/
abbrev ops : List (HloOp τ sig (Elt F)) :=
  [ StableHlo.binary main_arg0 main_arg1 main_v0 ((fun l r => Host.dotGeneral dot_S256x64x1024_S4096x1024_S256x64x4096_2_1_01_0_n_n none l r) : (⟨S256x64x1024, .f32⟩ : BufTy).Contents (Elt F) → (⟨S4096x1024, .f32⟩ : BufTy).Contents (Elt F) → (⟨S256x64x4096, .f32⟩ : BufTy).Contents (Elt F)),
    StableHlo.reshape main_v0 main_v1 rfl shapeCasts_S256x64x4096_S256x64x8x512,
    StableHlo.unary main_v1 main_v2 ((extractStridedSlice S256x64x8x128 ![0, 0, 0, 0] · slices_S256x64x8x512_S256x64x8x128_0_0_0_0) : (⟨S256x64x8x512, .f32⟩ : BufTy).Contents (Elt F) → (⟨S256x64x8x128, .f32⟩ : BufTy).Contents (Elt F)),
    StableHlo.unary main_v1 main_v3 ((extractStridedSlice S256x64x8x128 ![0, 0, 0, 128] · slices_S256x64x8x512_S256x64x8x128_0_0_0_128) : (⟨S256x64x8x512, .f32⟩ : BufTy).Contents (Elt F) → (⟨S256x64x8x128, .f32⟩ : BufTy).Contents (Elt F)),
    StableHlo.unary main_v1 main_v4 ((extractStridedSlice S256x64x8x128 ![0, 0, 0, 256] · slices_S256x64x8x512_S256x64x8x128_0_0_0_256) : (⟨S256x64x8x512, .f32⟩ : BufTy).Contents (Elt F) → (⟨S256x64x8x128, .f32⟩ : BufTy).Contents (Elt F)),
    StableHlo.unary main_v1 main_v5 ((extractStridedSlice S256x64x8x128 ![0, 0, 0, 384] · slices_S256x64x8x512_S256x64x8x128_0_0_0_384) : (⟨S256x64x8x512, .f32⟩ : BufTy).Contents (Elt F) → (⟨S256x64x8x128, .f32⟩ : BufTy).Contents (Elt F)),
    StableHlo.unary main_v2 main_v6 ((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F)),
    StableHlo.TRef.nullary main_call0.cst (constant S_ .f32 0x00000000#32),
    StableHlo.TRef.unary main_call0.cst main_call0.v0 (broadcastInDim S64x8x256x128 ![] bcast_S_S64x8x256x128),
    StableHlo.TRef.binary (.of main_v6 : StableHlo.TRef sig ⟨S64x8x256x128, .f32⟩) main_call0.v0 main_call0.v1 (cmpf .ogt),
    StableHlo.TRef.nullary main_call0.cst_0 (constant S_ .f32 0x00000000#32),
    StableHlo.TRef.unary main_call0.cst_0 main_call0.v2 (broadcastInDim S64x8x256x128 ![] bcast_S_S64x8x256x128),
    StableHlo.TRef.binary (.of main_v6 : StableHlo.TRef sig ⟨S64x8x256x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S64x8x256x128 ![] bcast_S_S64x8x256x128),
    StableHlo.TRef.ternary main_call0.v3 main_call0.call0.v1 (.of main_v6 : StableHlo.TRef sig ⟨S64x8x256x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S64x8x256x128 ![] bcast_S_S64x8x256x128),
    StableHlo.TRef.binary main_call0.v6 main_call0.v5 main_call0.v7 mulf,
    StableHlo.TRef.ternary main_call0.v1 (.of main_v6 : StableHlo.TRef sig ⟨S64x8x256x128, .f32⟩) main_call0.v7 main_call0.call1.v0 select,
    StableHlo.nullary main_cst (constant S_ .f32 0x3F800000#32),
    StableHlo.unary main_cst main_v8 (broadcastInDim S64x8x256x128 ![] bcast_S_S64x8x256x128 : (⟨S_, .f32⟩ : BufTy).Contents (Elt F) → (⟨S64x8x256x128, .f32⟩ : BufTy).Contents (Elt F)),
    StableHlo.binary main_v7 main_v8 main_v9 (addf : (⟨S64x8x256x128, .f32⟩ : BufTy).Contents (Elt F) → (⟨S64x8x256x128, .f32⟩ : BufTy).Contents (Elt F) → (⟨S64x8x256x128, .f32⟩ : BufTy).Contents (Elt F)),
    StableHlo.nullary main_cst_0 (constant S_ .f32 0x00000000#32),
    StableHlo.binary main_v9 main_cst_0 main_v10 ((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F)),
    StableHlo.unary main_v10 main_v11 (broadcastInDim S64x8x256x1 ![0, 1, 2] bcast_S64x8x256_S64x8x256x1_0_1_2 : (⟨S64x8x256, .f32⟩ : BufTy).Contents (Elt F) → (⟨S64x8x256x1, .f32⟩ : BufTy).Contents (Elt F)),
    StableHlo.unary main_v11 main_v12 (broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F)),
    StableHlo.binary main_v9 main_v12 main_v13 (Host.divf : (⟨S64x8x256x128, .f32⟩ : BufTy).Contents (Elt F) → (⟨S64x8x256x128, .f32⟩ : BufTy).Contents (Elt F) → (⟨S64x8x256x128, .f32⟩ : BufTy).Contents (Elt F)),
    StableHlo.unary main_v3 main_v14 ((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F)),
    StableHlo.TRef.nullary main_call1.cst (constant S_ .f32 0x00000000#32),
    StableHlo.TRef.unary main_call1.cst main_call1.v0 (broadcastInDim S64x8x256x128 ![] bcast_S_S64x8x256x128),
    StableHlo.TRef.binary (.of main_v14 : StableHlo.TRef sig ⟨S64x8x256x128, .f32⟩) main_call1.v0 main_call1.v1 (cmpf .ogt),
    StableHlo.TRef.nullary main_call1.cst_0 (constant S_ .f32 0x00000000#32),
    StableHlo.TRef.unary main_call1.cst_0 main_call1.v2 (broadcastInDim S64x8x256x128 ![] bcast_S_S64x8x256x128),
    StableHlo.TRef.binary (.of main_v14 : StableHlo.TRef sig ⟨S64x8x256x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S64x8x256x128 ![] bcast_S_S64x8x256x128),
    StableHlo.TRef.ternary main_call1.v3 main_call1.call0.v1 (.of main_v14 : StableHlo.TRef sig ⟨S64x8x256x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S64x8x256x128 ![] bcast_S_S64x8x256x128),
    StableHlo.TRef.binary main_call1.v6 main_call1.v5 main_call1.v7 mulf,
    StableHlo.TRef.ternary main_call1.v1 (.of main_v14 : StableHlo.TRef sig ⟨S64x8x256x128, .f32⟩) main_call1.v7 main_call1.call1.v0 select,
    StableHlo.nullary main_cst_1 (constant S_ .f32 0x3F800000#32),
    StableHlo.unary main_cst_1 main_v16 (broadcastInDim S64x8x256x128 ![] bcast_S_S64x8x256x128 : (⟨S_, .f32⟩ : BufTy).Contents (Elt F) → (⟨S64x8x256x128, .f32⟩ : BufTy).Contents (Elt F)),
    StableHlo.binary main_v15 main_v16 main_v17 (addf : (⟨S64x8x256x128, .f32⟩ : BufTy).Contents (Elt F) → (⟨S64x8x256x128, .f32⟩ : BufTy).Contents (Elt F) → (⟨S64x8x256x128, .f32⟩ : BufTy).Contents (Elt F)),
    StableHlo.nullary main_cst_2 (constant S_ .f32 0x00000000#32),
    StableHlo.binary main_v17 main_cst_2 main_v18 ((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F)),
    StableHlo.unary main_v18 main_v19 (broadcastInDim S64x8x256x1 ![0, 1, 2] bcast_S64x8x256_S64x8x256x1_0_1_2 : (⟨S64x8x256, .f32⟩ : BufTy).Contents (Elt F) → (⟨S64x8x256x1, .f32⟩ : BufTy).Contents (Elt F)),
    StableHlo.unary main_v19 main_v20 (broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F)),
    StableHlo.binary main_v17 main_v20 main_v21 (Host.divf : (⟨S64x8x256x128, .f32⟩ : BufTy).Contents (Elt F) → (⟨S64x8x256x128, .f32⟩ : BufTy).Contents (Elt F) → (⟨S64x8x256x128, .f32⟩ : BufTy).Contents (Elt F)),
    StableHlo.unary main_v4 main_v22 ((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F)),
    StableHlo.TRef.nullary main_call2.cst (constant S_ .f32 0x00000000#32),
    StableHlo.TRef.unary main_call2.cst main_call2.v0 (broadcastInDim S64x8x256x128 ![] bcast_S_S64x8x256x128),
    StableHlo.TRef.binary (.of main_v22 : StableHlo.TRef sig ⟨S64x8x256x128, .f32⟩) main_call2.v0 main_call2.v1 (cmpf .ogt),
    StableHlo.TRef.nullary main_call2.cst_0 (constant S_ .f32 0x00000000#32),
    StableHlo.TRef.unary main_call2.cst_0 main_call2.v2 (broadcastInDim S64x8x256x128 ![] bcast_S_S64x8x256x128),
    StableHlo.TRef.binary (.of main_v22 : StableHlo.TRef sig ⟨S64x8x256x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S64x8x256x128 ![] bcast_S_S64x8x256x128),
    StableHlo.TRef.ternary main_call2.v3 main_call2.call0.v1 (.of main_v22 : StableHlo.TRef sig ⟨S64x8x256x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S64x8x256x128 ![] bcast_S_S64x8x256x128),
    StableHlo.TRef.binary main_call2.v6 main_call2.v5 main_call2.v7 mulf,
    StableHlo.TRef.ternary main_call2.v1 (.of main_v22 : StableHlo.TRef sig ⟨S64x8x256x128, .f32⟩) main_call2.v7 main_call2.call1.v0 select,
    StableHlo.nullary main_cst_3 (constant S_ .f32 0x3F800000#32),
    StableHlo.unary main_cst_3 main_v24 (broadcastInDim S64x8x256x128 ![] bcast_S_S64x8x256x128 : (⟨S_, .f32⟩ : BufTy).Contents (Elt F) → (⟨S64x8x256x128, .f32⟩ : BufTy).Contents (Elt F)),
    StableHlo.binary main_v23 main_v24 main_v25 (addf : (⟨S64x8x256x128, .f32⟩ : BufTy).Contents (Elt F) → (⟨S64x8x256x128, .f32⟩ : BufTy).Contents (Elt F) → (⟨S64x8x256x128, .f32⟩ : BufTy).Contents (Elt F)),
    StableHlo.nullary main_cst_4 (constant S_ .f32 0x00000000#32),
    StableHlo.binary main_v25 main_cst_4 main_v26 ((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F)),
    StableHlo.unary main_v26 main_v27 (broadcastInDim S64x8x256x1 ![0, 1, 2] bcast_S64x8x256_S64x8x256x1_0_1_2 : (⟨S64x8x256, .f32⟩ : BufTy).Contents (Elt F) → (⟨S64x8x256x1, .f32⟩ : BufTy).Contents (Elt F)),
    StableHlo.unary main_v27 main_v28 (broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F)),
    StableHlo.binary main_v25 main_v28 main_v29 (Host.divf : (⟨S64x8x256x128, .f32⟩ : BufTy).Contents (Elt F) → (⟨S64x8x256x128, .f32⟩ : BufTy).Contents (Elt F) → (⟨S64x8x256x128, .f32⟩ : BufTy).Contents (Elt F)),
    StableHlo.unary main_v5 main_v30 ((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F)),
    StableHlo.binary main_v13 main_v21 main_v31 ((fun l r => Host.dotGeneral dot_S64x8x256x128_S64x8x256x128_S64x8x256x256_3_3_2_2_01_01 none l r) : (⟨S64x8x256x128, .f32⟩ : BufTy).Contents (Elt F) → (⟨S64x8x256x128, .f32⟩ : BufTy).Contents (Elt F) → (⟨S64x8x256x256, .f32⟩ : BufTy).Contents (Elt F)),
    StableHlo.nullary main_c (constantI S_ 1 1#1),
    StableHlo.unary main_c main_v32 (broadcastInDim S256x256 ![] bcast_S_S256x256 : (⟨S_, .i1⟩ : BufTy).Contents (Elt F) → (⟨S256x256, .i1⟩ : BufTy).Contents (Elt F)),
    StableHlo.TRef.nullary main_call3.v0 (iotaInDim S256x256 32 0),
    StableHlo.TRef.nullary main_call3.c (constantI S_ 32 0#32),
    StableHlo.TRef.unary main_call3.c main_call3.v1 (broadcastInDim S256x256 ![] bcast_S_S256x256),
    StableHlo.TRef.binary main_call3.v0 main_call3.v1 main_call3.v2 addi,
    StableHlo.TRef.nullary main_call3.v3 (iotaInDim S256x256 32 1),
    StableHlo.TRef.binary main_call3.v2 main_call3.v3 main_call3.v4 (cmpi .sge),
    StableHlo.TRef.nullary main_call3.c_0 (constantI S_ 1 0#1),
    StableHlo.TRef.unary main_call3.c_0 main_call3.v5 (broadcastInDim S256x256 ![] bcast_S_S256x256),
    StableHlo.TRef.ternary main_call3.v4 (.of main_v32 : StableHlo.TRef sig ⟨S256x256, .i1⟩) main_call3.v5 main_call3.v6 select,
    StableHlo.nullary main_cst_5 (constant S_ .f32 0x00000000#32),
    StableHlo.TRef.unary (.of main_v33 : StableHlo.TRef sig ⟨S256x256, .i1⟩) main_call4.v0 (broadcastInDim S64x8x256x256 ![2, 3] bcast_S256x256_S64x8x256x256_2_3),
    StableHlo.TRef.unary (.of main_cst_5 : StableHlo.TRef sig ⟨S_, .f32⟩) main_call4.v1 (broadcastInDim S64x8x256x256 ![] bcast_S_S64x8x256x256),
    StableHlo.TRef.ternary main_call4.v0 (.of main_v31 : StableHlo.TRef sig ⟨S64x8x256x256, .f32⟩) main_call4.v1 main_call4.v2 select,
    StableHlo.binary main_v34 main_v30 main_v35 ((fun l r => Host.dotGeneral dot_S64x8x256x256_S64x8x256x128_S64x8x256x128_3_2_2_3_01_01 none l r) : (⟨S64x8x256x256, .f32⟩ : BufTy).Contents (Elt F) → (⟨S64x8x256x128, .f32⟩ : BufTy).Contents (Elt F) → (⟨S64x8x256x128, .f32⟩ : BufTy).Contents (Elt F)),
    StableHlo.binary main_v13 main_v29 main_v36 ((fun l r => Host.dotGeneral dot_S64x8x256x128_S64x8x256x128_S64x8x256x256_3_3_2_2_01_01 none l r) : (⟨S64x8x256x128, .f32⟩ : BufTy).Contents (Elt F) → (⟨S64x8x256x128, .f32⟩ : BufTy).Contents (Elt F) → (⟨S64x8x256x256, .f32⟩ : BufTy).Contents (Elt F)),
    StableHlo.nullary main_c_6 (constantI S_ 1 1#1),
    StableHlo.unary main_c_6 main_v37 (broadcastInDim S256x256 ![] bcast_S_S256x256 : (⟨S_, .i1⟩ : BufTy).Contents (Elt F) → (⟨S256x256, .i1⟩ : BufTy).Contents (Elt F)),
    StableHlo.TRef.nullary main_call5.v0 (iotaInDim S256x256 32 0),
    StableHlo.TRef.nullary main_call5.c (constantI S_ 32 0#32),
    StableHlo.TRef.unary main_call5.c main_call5.v1 (broadcastInDim S256x256 ![] bcast_S_S256x256),
    StableHlo.TRef.binary main_call5.v0 main_call5.v1 main_call5.v2 addi,
    StableHlo.TRef.nullary main_call5.v3 (iotaInDim S256x256 32 1),
    StableHlo.TRef.binary main_call5.v2 main_call5.v3 main_call5.v4 (cmpi .sge),
    StableHlo.TRef.nullary main_call5.c_0 (constantI S_ 1 0#1),
    StableHlo.TRef.unary main_call5.c_0 main_call5.v5 (broadcastInDim S256x256 ![] bcast_S_S256x256),
    StableHlo.TRef.ternary main_call5.v4 (.of main_v37 : StableHlo.TRef sig ⟨S256x256, .i1⟩) main_call5.v5 main_call5.v6 select,
    StableHlo.nullary main_cst_7 (constant S_ .f32 0x00000000#32),
    StableHlo.TRef.unary (.of main_v38 : StableHlo.TRef sig ⟨S256x256, .i1⟩) main_call6.v0 (broadcastInDim S64x8x256x256 ![2, 3] bcast_S256x256_S64x8x256x256_2_3),
    StableHlo.TRef.unary (.of main_cst_7 : StableHlo.TRef sig ⟨S_, .f32⟩) main_call6.v1 (broadcastInDim S64x8x256x256 ![] bcast_S_S64x8x256x256),
    StableHlo.TRef.ternary main_call6.v0 (.of main_v36 : StableHlo.TRef sig ⟨S64x8x256x256, .f32⟩) main_call6.v1 main_call6.v2 select,
    StableHlo.binary main_v39 main_v30 main_v40 ((fun l r => Host.dotGeneral dot_S64x8x256x256_S64x8x256x128_S64x8x256x128_3_2_2_3_01_01 none l r) : (⟨S64x8x256x256, .f32⟩ : BufTy).Contents (Elt F) → (⟨S64x8x256x128, .f32⟩ : BufTy).Contents (Elt F) → (⟨S64x8x256x128, .f32⟩ : BufTy).Contents (Elt F)),
    StableHlo.nullary main_cst_8 (constant S_ .f32 0x00000000#32),
    StableHlo.nullary main_cst_9 (constant S_ .f32 0x3F800000#32),
    StableHlo.TRef.unary (.of main_cst_8 : StableHlo.TRef sig ⟨S_, .f32⟩) main_call7.v0 id,
    StableHlo.TRef.unary main_call7.v0 main_call7.v1 (broadcastInDim S8x256 ![] bcast_S_S8x256),
    StableHlo.TRef.binary main_call7.v1 (.of main_arg3 : StableHlo.TRef sig ⟨S8x256, .f32⟩) main_call7.v2 maximumf,
    StableHlo.TRef.unary (.of main_cst_9 : StableHlo.TRef sig ⟨S_, .f32⟩) main_call7.v3 id,
    StableHlo.TRef.unary main_call7.v3 main_call7.v4 (broadcastInDim S8x256 ![] bcast_S_S8x256),
    StableHlo.TRef.binary main_call7.v4 main_call7.v2 main_call7.v5 minimumf,
    StableHlo.unary main_v41 main_v42 (broadcastInDim S1x8x256x1 ![1, 2] bcast_S8x256_S1x8x256x1_1_2 : (⟨S8x256, .f32⟩ : BufTy).Contents (Elt F) → (⟨S1x8x256x1, .f32⟩ : BufTy).Contents (Elt F)),
    StableHlo.unary main_v42 main_v43 (broadcastInDim S64x8x256x128 ![0, 1, 2, 3] bcast_S1x8x256x1_S64x8x256x128_0_1_2_3 : (⟨S1x8x256x1, .f32⟩ : BufTy).Contents (Elt F) → (⟨S64x8x256x128, .f32⟩ : BufTy).Contents (Elt F)),
    StableHlo.binary main_v35 main_v43 main_v44 (mulf : (⟨S64x8x256x128, .f32⟩ : BufTy).Contents (Elt F) → (⟨S64x8x256x128, .f32⟩ : BufTy).Contents (Elt F) → (⟨S64x8x256x128, .f32⟩ : BufTy).Contents (Elt F)),
    StableHlo.nullary main_cst_10 (constant S_ .f32 0x3F800000#32),
    StableHlo.unary main_cst_10 main_v45 (broadcastInDim S1x8x256x1 ![] bcast_S_S1x8x256x1 : (⟨S_, .f32⟩ : BufTy).Contents (Elt F) → (⟨S1x8x256x1, .f32⟩ : BufTy).Contents (Elt F)),
    StableHlo.binary main_v45 main_v42 main_v46 (subf : (⟨S1x8x256x1, .f32⟩ : BufTy).Contents (Elt F) → (⟨S1x8x256x1, .f32⟩ : BufTy).Contents (Elt F) → (⟨S1x8x256x1, .f32⟩ : BufTy).Contents (Elt F)),
    StableHlo.unary main_v46 main_v47 (broadcastInDim S64x8x256x128 ![0, 1, 2, 3] bcast_S1x8x256x1_S64x8x256x128_0_1_2_3 : (⟨S1x8x256x1, .f32⟩ : BufTy).Contents (Elt F) → (⟨S64x8x256x128, .f32⟩ : BufTy).Contents (Elt F)),
    StableHlo.binary main_v40 main_v47 main_v48 (mulf : (⟨S64x8x256x128, .f32⟩ : BufTy).Contents (Elt F) → (⟨S64x8x256x128, .f32⟩ : BufTy).Contents (Elt F) → (⟨S64x8x256x128, .f32⟩ : BufTy).Contents (Elt F)),
    StableHlo.binary main_v44 main_v48 main_v49 (addf : (⟨S64x8x256x128, .f32⟩ : BufTy).Contents (Elt F) → (⟨S64x8x256x128, .f32⟩ : BufTy).Contents (Elt F) → (⟨S64x8x256x128, .f32⟩ : BufTy).Contents (Elt F)),
    StableHlo.nullary main_cst_11 (constant S_ .f32 0x3DB504F3#32),
    StableHlo.unary main_cst_11 main_v50 (broadcastInDim S64x8x256x128 ![] bcast_S_S64x8x256x128 : (⟨S_, .f32⟩ : BufTy).Contents (Elt F) → (⟨S64x8x256x128, .f32⟩ : BufTy).Contents (Elt F)),
    StableHlo.binary main_v50 main_v49 main_v51 (mulf : (⟨S64x8x256x128, .f32⟩ : BufTy).Contents (Elt F) → (⟨S64x8x256x128, .f32⟩ : BufTy).Contents (Elt F) → (⟨S64x8x256x128, .f32⟩ : BufTy).Contents (Elt F)),
    StableHlo.unary main_v51 main_v52 ((transpose S256x64x8x128 [2, 0, 1, 3] · transposes_S64x8x256x128_S256x64x8x128_2_0_1_3) : (⟨S64x8x256x128, .f32⟩ : BufTy).Contents (Elt F) → (⟨S256x64x8x128, .f32⟩ : BufTy).Contents (Elt F)),
    StableHlo.reshape main_v52 main_v53 rfl shapeCasts_S256x64x8x128_S256x64x1024,
    StableHlo.binary main_v53 main_arg2 main_v54 ((fun l r => Host.dotGeneral dot_S256x64x1024_S1024x1024_S256x64x1024_2_1_01_0_n_n none l r) : (⟨S256x64x1024, .f32⟩ : BufTy).Contents (Elt F) → (⟨S1024x1024, .f32⟩ : BufTy).Contents (Elt F) → (⟨S256x64x1024, .f32⟩ : BufTy).Contents (Elt F)),
    StableHlo.binary main_arg0 main_v54 main_v55 (addf : (⟨S256x64x1024, .f32⟩ : BufTy).Contents (Elt F) → (⟨S256x64x1024, .f32⟩ : BufTy).Contents (Elt F) → (⟨S256x64x1024, .f32⟩ : BufTy).Contents (Elt F)),
    StableHlo.nullary main_cst_12 (constant S_ .f32 0x00000000#32),
    StableHlo.binary main_v55 main_cst_12 main_v56 ((fun x v => Host.reduceAdd x v reducesTo_S256x64x1024_S256x64_d2 h_S_) : (⟨S256x64x1024, .f32⟩ : BufTy).Contents (Elt F) → (⟨S_, .f32⟩ : BufTy).Contents (Elt F) → (⟨S256x64, .f32⟩ : BufTy).Contents (Elt F)),
    StableHlo.unary main_v56 main_v57 (broadcastInDim S256x64x1 ![0, 1] bcast_S256x64_S256x64x1_0_1 : (⟨S256x64, .f32⟩ : BufTy).Contents (Elt F) → (⟨S256x64x1, .f32⟩ : BufTy).Contents (Elt F)),
    StableHlo.nullary main_cst_13 (constant S_ .f32 0x44800000#32),
    StableHlo.unary main_cst_13 main_v58 (broadcastInDim S256x64x1 ![] bcast_S_S256x64x1 : (⟨S_, .f32⟩ : BufTy).Contents (Elt F) → (⟨S256x64x1, .f32⟩ : BufTy).Contents (Elt F)),
    StableHlo.binary main_v57 main_v58 main_v59 (Host.divf : (⟨S256x64x1, .f32⟩ : BufTy).Contents (Elt F) → (⟨S256x64x1, .f32⟩ : BufTy).Contents (Elt F) → (⟨S256x64x1, .f32⟩ : BufTy).Contents (Elt F)),
    StableHlo.unary main_v59 main_v60 (broadcastInDim S256x64x1024 ![0, 1, 2] bcast_S256x64x1_S256x64x1024_0_1_2 : (⟨S256x64x1, .f32⟩ : BufTy).Contents (Elt F) → (⟨S256x64x1024, .f32⟩ : BufTy).Contents (Elt F)),
    StableHlo.binary main_v55 main_v60 main_v61 (subf : (⟨S256x64x1024, .f32⟩ : BufTy).Contents (Elt F) → (⟨S256x64x1024, .f32⟩ : BufTy).Contents (Elt F) → (⟨S256x64x1024, .f32⟩ : BufTy).Contents (Elt F)),
    StableHlo.binary main_v61 main_v61 main_v62 (mulf : (⟨S256x64x1024, .f32⟩ : BufTy).Contents (Elt F) → (⟨S256x64x1024, .f32⟩ : BufTy).Contents (Elt F) → (⟨S256x64x1024, .f32⟩ : BufTy).Contents (Elt F)),
    StableHlo.nullary main_cst_14 (constant S_ .f32 0x00000000#32),
    StableHlo.binary main_v62 main_cst_14 main_v63 ((fun x v => Host.reduceAdd x v reducesTo_S256x64x1024_S256x64_d2 h_S_) : (⟨S256x64x1024, .f32⟩ : BufTy).Contents (Elt F) → (⟨S_, .f32⟩ : BufTy).Contents (Elt F) → (⟨S256x64, .f32⟩ : BufTy).Contents (Elt F)),
    StableHlo.unary main_v63 main_v64 (broadcastInDim S256x64x1 ![0, 1] bcast_S256x64_S256x64x1_0_1 : (⟨S256x64, .f32⟩ : BufTy).Contents (Elt F) → (⟨S256x64x1, .f32⟩ : BufTy).Contents (Elt F)),
    StableHlo.nullary main_cst_15 (constant S_ .f32 0x44800000#32),
    StableHlo.unary main_cst_15 main_v65 (broadcastInDim S256x64x1 ![] bcast_S_S256x64x1 : (⟨S_, .f32⟩ : BufTy).Contents (Elt F) → (⟨S256x64x1, .f32⟩ : BufTy).Contents (Elt F)),
    StableHlo.binary main_v64 main_v65 main_v66 (Host.divf : (⟨S256x64x1, .f32⟩ : BufTy).Contents (Elt F) → (⟨S256x64x1, .f32⟩ : BufTy).Contents (Elt F) → (⟨S256x64x1, .f32⟩ : BufTy).Contents (Elt F)),
    StableHlo.unary main_v59 main_v67 (broadcastInDim S256x64x1024 ![0, 1, 2] bcast_S256x64x1_S256x64x1024_0_1_2 : (⟨S256x64x1, .f32⟩ : BufTy).Contents (Elt F) → (⟨S256x64x1024, .f32⟩ : BufTy).Contents (Elt F)),
    StableHlo.binary main_v55 main_v67 main_v68 (subf : (⟨S256x64x1024, .f32⟩ : BufTy).Contents (Elt F) → (⟨S256x64x1024, .f32⟩ : BufTy).Contents (Elt F) → (⟨S256x64x1024, .f32⟩ : BufTy).Contents (Elt F)),
    StableHlo.unary main_arg4 main_v69 (broadcastInDim S1x1x1024 ![2] bcast_S1024_S1x1x1024_2 : (⟨S1024, .f32⟩ : BufTy).Contents (Elt F) → (⟨S1x1x1024, .f32⟩ : BufTy).Contents (Elt F)),
    StableHlo.unary main_v69 main_v70 (broadcastInDim S256x64x1024 ![0, 1, 2] bcast_S1x1x1024_S256x64x1024_0_1_2 : (⟨S1x1x1024, .f32⟩ : BufTy).Contents (Elt F) → (⟨S256x64x1024, .f32⟩ : BufTy).Contents (Elt F)),
    StableHlo.binary main_v70 main_v68 main_v71 (mulf : (⟨S256x64x1024, .f32⟩ : BufTy).Contents (Elt F) → (⟨S256x64x1024, .f32⟩ : BufTy).Contents (Elt F) → (⟨S256x64x1024, .f32⟩ : BufTy).Contents (Elt F)),
    StableHlo.nullary main_cst_16 (constant S_ .f32 0x3727C5AC#32),
    StableHlo.unary main_cst_16 main_v72 (broadcastInDim S256x64x1 ![] bcast_S_S256x64x1 : (⟨S_, .f32⟩ : BufTy).Contents (Elt F) → (⟨S256x64x1, .f32⟩ : BufTy).Contents (Elt F)),
    StableHlo.binary main_v66 main_v72 main_v73 (addf : (⟨S256x64x1, .f32⟩ : BufTy).Contents (Elt F) → (⟨S256x64x1, .f32⟩ : BufTy).Contents (Elt F) → (⟨S256x64x1, .f32⟩ : BufTy).Contents (Elt F)),
    StableHlo.unary main_v73 main_v74 (Host.sqrt : (⟨S256x64x1, .f32⟩ : BufTy).Contents (Elt F) → (⟨S256x64x1, .f32⟩ : BufTy).Contents (Elt F)),
    StableHlo.unary main_v74 main_v75 (broadcastInDim S256x64x1024 ![0, 1, 2] bcast_S256x64x1_S256x64x1024_0_1_2 : (⟨S256x64x1, .f32⟩ : BufTy).Contents (Elt F) → (⟨S256x64x1024, .f32⟩ : BufTy).Contents (Elt F)),
    StableHlo.binary main_v71 main_v75 main_v76 (Host.divf : (⟨S256x64x1024, .f32⟩ : BufTy).Contents (Elt F) → (⟨S256x64x1024, .f32⟩ : BufTy).Contents (Elt F) → (⟨S256x64x1024, .f32⟩ : BufTy).Contents (Elt F)),
    StableHlo.unary main_arg5 main_v77 (broadcastInDim S1x1x1024 ![2] bcast_S1024_S1x1x1024_2 : (⟨S1024, .f32⟩ : BufTy).Contents (Elt F) → (⟨S1x1x1024, .f32⟩ : BufTy).Contents (Elt F)),
    StableHlo.unary main_v77 main_v78 (broadcastInDim S256x64x1024 ![0, 1, 2] bcast_S1x1x1024_S256x64x1024_0_1_2 : (⟨S1x1x1024, .f32⟩ : BufTy).Contents (Elt F) → (⟨S256x64x1024, .f32⟩ : BufTy).Contents (Elt F)),
    StableHlo.binary main_v76 main_v78 main_v79 (addf : (⟨S256x64x1024, .f32⟩ : BufTy).Contents (Elt F) → (⟨S256x64x1024, .f32⟩ : BufTy).Contents (Elt F) → (⟨S256x64x1024, .f32⟩ : BufTy).Contents (Elt F)) ]

/-- The contents of `main_v0` as a function of the arguments. -/
def res_main_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x4096, .f32⟩ : BufTy).Contents (Elt F) :=
  (((fun l r => Host.dotGeneral dot_S256x64x1024_S4096x1024_S256x64x4096_2_1_01_0_n_n none l r) : (⟨S256x64x1024, .f32⟩ : BufTy).Contents (Elt F) → (⟨S4096x1024, .f32⟩ : BufTy).Contents (Elt F) → (⟨S256x64x4096, .f32⟩ : BufTy).Contents (Elt F))) a0 a1

/-- The contents of `main_v1` as a function of the arguments. -/
def res_main_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x512, .f32⟩ : BufTy).Contents (Elt F) :=
  shapeCast S256x64x8x512 (res_main_v0 a0 a1 a2 a3 a4 a5) shapeCasts_S256x64x4096_S256x64x8x512

/-- The contents of `main_v2` as a function of the arguments. -/
def res_main_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x128, .f32⟩ : BufTy).Contents (Elt F) :=
  (((extractStridedSlice S256x64x8x128 ![0, 0, 0, 0] · slices_S256x64x8x512_S256x64x8x128_0_0_0_0) : (⟨S256x64x8x512, .f32⟩ : BufTy).Contents (Elt F) → (⟨S256x64x8x128, .f32⟩ : BufTy).Contents (Elt F))) (res_main_v1 a0 a1 a2 a3 a4 a5)

/-- The contents of `main_v3` as a function of the arguments. -/
def res_main_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x128, .f32⟩ : BufTy).Contents (Elt F) :=
  (((extractStridedSlice S256x64x8x128 ![0, 0, 0, 128] · slices_S256x64x8x512_S256x64x8x128_0_0_0_128) : (⟨S256x64x8x512, .f32⟩ : BufTy).Contents (Elt F) → (⟨S256x64x8x128, .f32⟩ : BufTy).Contents (Elt F))) (res_main_v1 a0 a1 a2 a3 a4 a5)

/-- The contents of `main_v4` as a function of the arguments. -/
def res_main_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x128, .f32⟩ : BufTy).Contents (Elt F) :=
  (((extractStridedSlice S256x64x8x128 ![0, 0, 0, 256] · slices_S256x64x8x512_S256x64x8x128_0_0_0_256) : (⟨S256x64x8x512, .f32⟩ : BufTy).Contents (Elt F) → (⟨S256x64x8x128, .f32⟩ : BufTy).Contents (Elt F))) (res_main_v1 a0 a1 a2 a3 a4 a5)

/-- The contents of `main_v5` as a function of the arguments. -/
def res_main_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x128, .f32⟩ : BufTy).Contents (Elt F) :=
  (((extractStridedSlice S256x64x8x128 ![0, 0, 0, 384] · slices_S256x64x8x512_S256x64x8x128_0_0_0_384) : (⟨S256x64x8x512, .f32⟩ : BufTy).Contents (Elt F) → (⟨S256x64x8x128, .f32⟩ : BufTy).Contents (Elt F))) (res_main_v1 a0 a1 a2 a3 a4 a5)

/-- The contents of `main_v6` as a function of the arguments. -/
def res_main_v6 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F))) (res_main_v2 a0 a1 a2 a3 a4 a5)

/-- The contents of `main_call0_cst` as a function of the arguments. -/
def res_main_call0_cst (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call0_v0` as a function of the arguments. -/
def res_main_call0_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call0_cst a0 a1 a2 a3 a4 a5)

/-- The contents of `main_call0_v1` as a function of the arguments. -/
def res_main_call0_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v6 a0 a1 a2 a3 a4 a5) (res_main_call0_v0 a0 a1 a2 a3 a4 a5)

/-- The contents of `main_call0_cst_0` as a function of the arguments. -/
def res_main_call0_cst_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call0_v2` as a function of the arguments. -/
def res_main_call0_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call0_cst_0 a0 a1 a2 a3 a4 a5)

/-- The contents of `main_call0_v3` as a function of the arguments. -/
def res_main_call0_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v6 a0 a1 a2 a3 a4 a5) (res_main_call0_v2 a0 a1 a2 a3 a4 a5)

/-- The contents of `main_call0_cst_1` as a function of the arguments. -/
def res_main_call0_cst_1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call0_call0_v0` as a function of the arguments. -/
def res_main_call0_call0_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (id) (res_main_call0_cst_1 a0 a1 a2 a3 a4 a5)

/-- The contents of `main_call0_call0_v1` as a function of the arguments. -/
def res_main_call0_call0_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call0_call0_v0 a0 a1 a2 a3 a4 a5)

/-- The contents of `main_call0_v4` as a function of the arguments. -/
def res_main_call0_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call0_v3 a0 a1 a2 a3 a4 a5) (res_main_call0_call0_v1 a0 a1 a2 a3 a4 a5) (res_main_v6 a0 a1 a2 a3 a4 a5)

/-- The contents of `main_call0_v5` as a function of the arguments. -/
def res_main_call0_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (Host.expm1) (res_main_call0_v4 a0 a1 a2 a3 a4 a5)

/-- The contents of `main_call0_cst_2` as a function of the arguments. -/
def res_main_call0_cst_2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_call0_v6` as a function of the arguments. -/
def res_main_call0_v6 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call0_cst_2 a0 a1 a2 a3 a4 a5)

/-- The contents of `main_call0_v7` as a function of the arguments. -/
def res_main_call0_v7 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (mulf) (res_main_call0_v6 a0 a1 a2 a3 a4 a5) (res_main_call0_v5 a0 a1 a2 a3 a4 a5)

/-- The contents of `main_v7` as a function of the arguments. -/
def res_main_v7 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call0_v1 a0 a1 a2 a3 a4 a5) (res_main_v6 a0 a1 a2 a3 a4 a5) (res_main_call0_v7 a0 a1 a2 a3 a4 a5)

/-- The contents of `main_cst` as a function of the arguments. -/
def res_main_cst (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_v8` as a function of the arguments. -/
def res_main_v8 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128 : (⟨S_, .f32⟩ : BufTy).Contents (Elt F) → (⟨S64x8x256x128, .f32⟩ : BufTy).Contents (Elt F))) (res_main_cst a0 a1 a2 a3 a4 a5)

/-- The contents of `main_v9` as a function of the arguments. -/
def res_main_v9 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((addf : (⟨S64x8x256x128, .f32⟩ : BufTy).Contents (Elt F) → (⟨S64x8x256x128, .f32⟩ : BufTy).Contents (Elt F) → (⟨S64x8x256x128, .f32⟩ : BufTy).Contents (Elt F))) (res_main_v7 a0 a1 a2 a3 a4 a5) (res_main_v8 a0 a1 a2 a3 a4 a5)

/-- The contents of `main_cst_0` as a function of the arguments. -/
def res_main_cst_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_v10` as a function of the arguments. -/
def res_main_v10 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256, .f32⟩ : BufTy).Contents (Elt F) :=
  (((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F))) (res_main_v9 a0 a1 a2 a3 a4 a5) (res_main_cst_0 a0 a1 a2 a3 a4 a5)

/-- The contents of `main_v11` as a function of the arguments. -/
def res_main_v11 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x1, .f32⟩ : BufTy).Contents (Elt F) :=
  ((broadcastInDim S64x8x256x1 ![0, 1, 2] bcast_S64x8x256_S64x8x256x1_0_1_2 : (⟨S64x8x256, .f32⟩ : BufTy).Contents (Elt F) → (⟨S64x8x256x1, .f32⟩ : BufTy).Contents (Elt F))) (res_main_v10 a0 a1 a2 a3 a4 a5)

/-- The contents of `main_v12` as a function of the arguments. -/
def res_main_v12 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F))) (res_main_v11 a0 a1 a2 a3 a4 a5)

/-- The contents of `main_v13` as a function of the arguments. -/
def res_main_v13 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((Host.divf : (⟨S64x8x256x128, .f32⟩ : BufTy).Contents (Elt F) → (⟨S64x8x256x128, .f32⟩ : BufTy).Contents (Elt F) → (⟨S64x8x256x128, .f32⟩ : BufTy).Contents (Elt F))) (res_main_v9 a0 a1 a2 a3 a4 a5) (res_main_v12 a0 a1 a2 a3 a4 a5)

/-- The contents of `main_v14` as a function of the arguments. -/
def res_main_v14 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F))) (res_main_v3 a0 a1 a2 a3 a4 a5)

/-- The contents of `main_call1_cst` as a function of the arguments. -/
def res_main_call1_cst (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call1_v0` as a function of the arguments. -/
def res_main_call1_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call1_cst a0 a1 a2 a3 a4 a5)

/-- The contents of `main_call1_v1` as a function of the arguments. -/
def res_main_call1_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v14 a0 a1 a2 a3 a4 a5) (res_main_call1_v0 a0 a1 a2 a3 a4 a5)

/-- The contents of `main_call1_cst_0` as a function of the arguments. -/
def res_main_call1_cst_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call1_v2` as a function of the arguments. -/
def res_main_call1_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call1_cst_0 a0 a1 a2 a3 a4 a5)

/-- The contents of `main_call1_v3` as a function of the arguments. -/
def res_main_call1_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v14 a0 a1 a2 a3 a4 a5) (res_main_call1_v2 a0 a1 a2 a3 a4 a5)

/-- The contents of `main_call1_cst_1` as a function of the arguments. -/
def res_main_call1_cst_1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call1_call0_v0` as a function of the arguments. -/
def res_main_call1_call0_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (id) (res_main_call1_cst_1 a0 a1 a2 a3 a4 a5)

/-- The contents of `main_call1_call0_v1` as a function of the arguments. -/
def res_main_call1_call0_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call1_call0_v0 a0 a1 a2 a3 a4 a5)

/-- The contents of `main_call1_v4` as a function of the arguments. -/
def res_main_call1_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call1_v3 a0 a1 a2 a3 a4 a5) (res_main_call1_call0_v1 a0 a1 a2 a3 a4 a5) (res_main_v14 a0 a1 a2 a3 a4 a5)

/-- The contents of `main_call1_v5` as a function of the arguments. -/
def res_main_call1_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (Host.expm1) (res_main_call1_v4 a0 a1 a2 a3 a4 a5)

/-- The contents of `main_call1_cst_2` as a function of the arguments. -/
def res_main_call1_cst_2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_call1_v6` as a function of the arguments. -/
def res_main_call1_v6 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call1_cst_2 a0 a1 a2 a3 a4 a5)

/-- The contents of `main_call1_v7` as a function of the arguments. -/
def res_main_call1_v7 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (mulf) (res_main_call1_v6 a0 a1 a2 a3 a4 a5) (res_main_call1_v5 a0 a1 a2 a3 a4 a5)

/-- The contents of `main_v15` as a function of the arguments. -/
def res_main_v15 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call1_v1 a0 a1 a2 a3 a4 a5) (res_main_v14 a0 a1 a2 a3 a4 a5) (res_main_call1_v7 a0 a1 a2 a3 a4 a5)

/-- The contents of `main_cst_1` as a function of the arguments. -/
def res_main_cst_1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_v16` as a function of the arguments. -/
def res_main_v16 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128 : (⟨S_, .f32⟩ : BufTy).Contents (Elt F) → (⟨S64x8x256x128, .f32⟩ : BufTy).Contents (Elt F))) (res_main_cst_1 a0 a1 a2 a3 a4 a5)

/-- The contents of `main_v17` as a function of the arguments. -/
def res_main_v17 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((addf : (⟨S64x8x256x128, .f32⟩ : BufTy).Contents (Elt F) → (⟨S64x8x256x128, .f32⟩ : BufTy).Contents (Elt F) → (⟨S64x8x256x128, .f32⟩ : BufTy).Contents (Elt F))) (res_main_v15 a0 a1 a2 a3 a4 a5) (res_main_v16 a0 a1 a2 a3 a4 a5)

/-- The contents of `main_cst_2` as a function of the arguments. -/
def res_main_cst_2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_v18` as a function of the arguments. -/
def res_main_v18 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256, .f32⟩ : BufTy).Contents (Elt F) :=
  (((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F))) (res_main_v17 a0 a1 a2 a3 a4 a5) (res_main_cst_2 a0 a1 a2 a3 a4 a5)

/-- The contents of `main_v19` as a function of the arguments. -/
def res_main_v19 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x1, .f32⟩ : BufTy).Contents (Elt F) :=
  ((broadcastInDim S64x8x256x1 ![0, 1, 2] bcast_S64x8x256_S64x8x256x1_0_1_2 : (⟨S64x8x256, .f32⟩ : BufTy).Contents (Elt F) → (⟨S64x8x256x1, .f32⟩ : BufTy).Contents (Elt F))) (res_main_v18 a0 a1 a2 a3 a4 a5)

/-- The contents of `main_v20` as a function of the arguments. -/
def res_main_v20 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F))) (res_main_v19 a0 a1 a2 a3 a4 a5)

/-- The contents of `main_v21` as a function of the arguments. -/
def res_main_v21 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((Host.divf : (⟨S64x8x256x128, .f32⟩ : BufTy).Contents (Elt F) → (⟨S64x8x256x128, .f32⟩ : BufTy).Contents (Elt F) → (⟨S64x8x256x128, .f32⟩ : BufTy).Contents (Elt F))) (res_main_v17 a0 a1 a2 a3 a4 a5) (res_main_v20 a0 a1 a2 a3 a4 a5)

/-- The contents of `main_v22` as a function of the arguments. -/
def res_main_v22 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F))) (res_main_v4 a0 a1 a2 a3 a4 a5)

/-- The contents of `main_call2_cst` as a function of the arguments. -/
def res_main_call2_cst (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call2_v0` as a function of the arguments. -/
def res_main_call2_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call2_cst a0 a1 a2 a3 a4 a5)

/-- The contents of `main_call2_v1` as a function of the arguments. -/
def res_main_call2_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v22 a0 a1 a2 a3 a4 a5) (res_main_call2_v0 a0 a1 a2 a3 a4 a5)

/-- The contents of `main_call2_cst_0` as a function of the arguments. -/
def res_main_call2_cst_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call2_v2` as a function of the arguments. -/
def res_main_call2_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call2_cst_0 a0 a1 a2 a3 a4 a5)

/-- The contents of `main_call2_v3` as a function of the arguments. -/
def res_main_call2_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .i1⟩ : BufTy).Contents (Elt F) :=
  ((cmpf .ogt)) (res_main_v22 a0 a1 a2 a3 a4 a5) (res_main_call2_v2 a0 a1 a2 a3 a4 a5)

/-- The contents of `main_call2_cst_1` as a function of the arguments. -/
def res_main_call2_cst_1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call2_call0_v0` as a function of the arguments. -/
def res_main_call2_call0_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (id) (res_main_call2_cst_1 a0 a1 a2 a3 a4 a5)

/-- The contents of `main_call2_call0_v1` as a function of the arguments. -/
def res_main_call2_call0_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call2_call0_v0 a0 a1 a2 a3 a4 a5)

/-- The contents of `main_call2_v4` as a function of the arguments. -/
def res_main_call2_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call2_v3 a0 a1 a2 a3 a4 a5) (res_main_call2_call0_v1 a0 a1 a2 a3 a4 a5) (res_main_v22 a0 a1 a2 a3 a4 a5)

/-- The contents of `main_call2_v5` as a function of the arguments. -/
def res_main_call2_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (Host.expm1) (res_main_call2_v4 a0 a1 a2 a3 a4 a5)

/-- The contents of `main_call2_cst_2` as a function of the arguments. -/
def res_main_call2_cst_2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_call2_v6` as a function of the arguments. -/
def res_main_call2_v6 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128)) (res_main_call2_cst_2 a0 a1 a2 a3 a4 a5)

/-- The contents of `main_call2_v7` as a function of the arguments. -/
def res_main_call2_v7 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (mulf) (res_main_call2_v6 a0 a1 a2 a3 a4 a5) (res_main_call2_v5 a0 a1 a2 a3 a4 a5)

/-- The contents of `main_v23` as a function of the arguments. -/
def res_main_v23 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (select) (res_main_call2_v1 a0 a1 a2 a3 a4 a5) (res_main_v22 a0 a1 a2 a3 a4 a5) (res_main_call2_v7 a0 a1 a2 a3 a4 a5)

/-- The contents of `main_cst_3` as a function of the arguments. -/
def res_main_cst_3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_v24` as a function of the arguments. -/
def res_main_v24 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128 : (⟨S_, .f32⟩ : BufTy).Contents (Elt F) → (⟨S64x8x256x128, .f32⟩ : BufTy).Contents (Elt F))) (res_main_cst_3 a0 a1 a2 a3 a4 a5)

/-- The contents of `main_v25` as a function of the arguments. -/
def res_main_v25 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((addf : (⟨S64x8x256x128, .f32⟩ : BufTy).Contents (Elt F) → (⟨S64x8x256x128, .f32⟩ : BufTy).Contents (Elt F) → (⟨S64x8x256x128, .f32⟩ : BufTy).Contents (Elt F))) (res_main_v23 a0 a1 a2 a3 a4 a5) (res_main_v24 a0 a1 a2 a3 a4 a5)

/-- The contents of `main_cst_4` as a function of the arguments. -/
def res_main_cst_4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_v26` as a function of the arguments. -/
def res_main_v26 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256, .f32⟩ : BufTy).Contents (Elt F) :=
  (((fun x v => Host.reduceAdd x v reducesTo_S64x8x256x128_S64x8x256_d3 h_S_) : (⟨S64x8x256x128, .f32⟩ : BufTy).Contents (Elt F) → (⟨S_, .f32⟩ : BufTy).Contents (Elt F) → (⟨S64x8x256, .f32⟩ : BufTy).Contents (Elt F))) (res_main_v25 a0 a1 a2 a3 a4 a5) (res_main_cst_4 a0 a1 a2 a3 a4 a5)

/-- The contents of `main_v27` as a function of the arguments. -/
def res_main_v27 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x1, .f32⟩ : BufTy).Contents (Elt F) :=
  ((broadcastInDim S64x8x256x1 ![0, 1, 2] bcast_S64x8x256_S64x8x256x1_0_1_2 : (⟨S64x8x256, .f32⟩ : BufTy).Contents (Elt F) → (⟨S64x8x256x1, .f32⟩ : BufTy).Contents (Elt F))) (res_main_v26 a0 a1 a2 a3 a4 a5)

/-- The contents of `main_v28` as a function of the arguments. -/
def res_main_v28 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![0, 1, 2, 3] bcast_S64x8x256x1_S64x8x256x128_0_1_2_3 : (⟨S64x8x256x1, .f32⟩ : BufTy).Contents (Elt F) → (⟨S64x8x256x128, .f32⟩ : BufTy).Contents (Elt F))) (res_main_v27 a0 a1 a2 a3 a4 a5)

/-- The contents of `main_v29` as a function of the arguments. -/
def res_main_v29 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((Host.divf : (⟨S64x8x256x128, .f32⟩ : BufTy).Contents (Elt F) → (⟨S64x8x256x128, .f32⟩ : BufTy).Contents (Elt F) → (⟨S64x8x256x128, .f32⟩ : BufTy).Contents (Elt F))) (res_main_v25 a0 a1 a2 a3 a4 a5) (res_main_v28 a0 a1 a2 a3 a4 a5)

/-- The contents of `main_v30` as a function of the arguments. -/
def res_main_v30 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((transpose S64x8x256x128 [1, 2, 0, 3] · transposes_S256x64x8x128_S64x8x256x128_1_2_0_3) : (⟨S256x64x8x128, .f32⟩ : BufTy).Contents (Elt F) → (⟨S64x8x256x128, .f32⟩ : BufTy).Contents (Elt F))) (res_main_v5 a0 a1 a2 a3 a4 a5)

/-- The contents of `main_v31` as a function of the arguments. -/
def res_main_v31 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  (((fun l r => Host.dotGeneral dot_S64x8x256x128_S64x8x256x128_S64x8x256x256_3_3_2_2_01_01 none l r) : (⟨S64x8x256x128, .f32⟩ : BufTy).Contents (Elt F) → (⟨S64x8x256x128, .f32⟩ : BufTy).Contents (Elt F) → (⟨S64x8x256x256, .f32⟩ : BufTy).Contents (Elt F))) (res_main_v13 a0 a1 a2 a3 a4 a5) (res_main_v21 a0 a1 a2 a3 a4 a5)

/-- The contents of `main_c` as a function of the arguments. -/
def res_main_c (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i1⟩ : BufTy).Contents (Elt F) :=
  (constantI S_ 1 1#1)

/-- The contents of `main_v32` as a function of the arguments. -/
def res_main_v32 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((broadcastInDim S256x256 ![] bcast_S_S256x256 : (⟨S_, .i1⟩ : BufTy).Contents (Elt F) → (⟨S256x256, .i1⟩ : BufTy).Contents (Elt F))) (res_main_c a0 a1 a2 a3 a4 a5)

/-- The contents of `main_call3_v0` as a function of the arguments. -/
def res_main_call3_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (iotaInDim S256x256 32 0)

/-- The contents of `main_call3_c` as a function of the arguments. -/
def res_main_call3_c (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i32⟩ : BufTy).Contents (Elt F) :=
  (constantI S_ 32 0#32)

/-- The contents of `main_call3_v1` as a function of the arguments. -/
def res_main_call3_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  ((broadcastInDim S256x256 ![] bcast_S_S256x256)) (res_main_call3_c a0 a1 a2 a3 a4 a5)

/-- The contents of `main_call3_v2` as a function of the arguments. -/
def res_main_call3_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (addi) (res_main_call3_v0 a0 a1 a2 a3 a4 a5) (res_main_call3_v1 a0 a1 a2 a3 a4 a5)

/-- The contents of `main_call3_v3` as a function of the arguments. -/
def res_main_call3_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (iotaInDim S256x256 32 1)

/-- The contents of `main_call3_v4` as a function of the arguments. -/
def res_main_call3_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((cmpi .sge)) (res_main_call3_v2 a0 a1 a2 a3 a4 a5) (res_main_call3_v3 a0 a1 a2 a3 a4 a5)

/-- The contents of `main_call3_c_0` as a function of the arguments. -/
def res_main_call3_c_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i1⟩ : BufTy).Contents (Elt F) :=
  (constantI S_ 1 0#1)

/-- The contents of `main_call3_v5` as a function of the arguments. -/
def res_main_call3_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((broadcastInDim S256x256 ![] bcast_S_S256x256)) (res_main_call3_c_0 a0 a1 a2 a3 a4 a5)

/-- The contents of `main_v33` as a function of the arguments. -/
def res_main_v33 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  (select) (res_main_call3_v4 a0 a1 a2 a3 a4 a5) (res_main_v32 a0 a1 a2 a3 a4 a5) (res_main_call3_v5 a0 a1 a2 a3 a4 a5)

/-- The contents of `main_cst_5` as a function of the arguments. -/
def res_main_cst_5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call4_v0` as a function of the arguments. -/
def res_main_call4_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .i1⟩ : BufTy).Contents (Elt F) :=
  ((broadcastInDim S64x8x256x256 ![2, 3] bcast_S256x256_S64x8x256x256_2_3)) (res_main_v33 a0 a1 a2 a3 a4 a5)

/-- The contents of `main_call4_v1` as a function of the arguments. -/
def res_main_call4_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  ((broadcastInDim S64x8x256x256 ![] bcast_S_S64x8x256x256)) (res_main_cst_5 a0 a1 a2 a3 a4 a5)

/-- The contents of `main_v34` as a function of the arguments. -/
def res_main_v34 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  (select) (res_main_call4_v0 a0 a1 a2 a3 a4 a5) (res_main_v31 a0 a1 a2 a3 a4 a5) (res_main_call4_v1 a0 a1 a2 a3 a4 a5)

/-- The contents of `main_v35` as a function of the arguments. -/
def res_main_v35 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((fun l r => Host.dotGeneral dot_S64x8x256x256_S64x8x256x128_S64x8x256x128_3_2_2_3_01_01 none l r) : (⟨S64x8x256x256, .f32⟩ : BufTy).Contents (Elt F) → (⟨S64x8x256x128, .f32⟩ : BufTy).Contents (Elt F) → (⟨S64x8x256x128, .f32⟩ : BufTy).Contents (Elt F))) (res_main_v34 a0 a1 a2 a3 a4 a5) (res_main_v30 a0 a1 a2 a3 a4 a5)

/-- The contents of `main_v36` as a function of the arguments. -/
def res_main_v36 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  (((fun l r => Host.dotGeneral dot_S64x8x256x128_S64x8x256x128_S64x8x256x256_3_3_2_2_01_01 none l r) : (⟨S64x8x256x128, .f32⟩ : BufTy).Contents (Elt F) → (⟨S64x8x256x128, .f32⟩ : BufTy).Contents (Elt F) → (⟨S64x8x256x256, .f32⟩ : BufTy).Contents (Elt F))) (res_main_v13 a0 a1 a2 a3 a4 a5) (res_main_v29 a0 a1 a2 a3 a4 a5)

/-- The contents of `main_c_6` as a function of the arguments. -/
def res_main_c_6 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i1⟩ : BufTy).Contents (Elt F) :=
  (constantI S_ 1 1#1)

/-- The contents of `main_v37` as a function of the arguments. -/
def res_main_v37 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((broadcastInDim S256x256 ![] bcast_S_S256x256 : (⟨S_, .i1⟩ : BufTy).Contents (Elt F) → (⟨S256x256, .i1⟩ : BufTy).Contents (Elt F))) (res_main_c_6 a0 a1 a2 a3 a4 a5)

/-- The contents of `main_call5_v0` as a function of the arguments. -/
def res_main_call5_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (iotaInDim S256x256 32 0)

/-- The contents of `main_call5_c` as a function of the arguments. -/
def res_main_call5_c (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i32⟩ : BufTy).Contents (Elt F) :=
  (constantI S_ 32 0#32)

/-- The contents of `main_call5_v1` as a function of the arguments. -/
def res_main_call5_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  ((broadcastInDim S256x256 ![] bcast_S_S256x256)) (res_main_call5_c a0 a1 a2 a3 a4 a5)

/-- The contents of `main_call5_v2` as a function of the arguments. -/
def res_main_call5_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (addi) (res_main_call5_v0 a0 a1 a2 a3 a4 a5) (res_main_call5_v1 a0 a1 a2 a3 a4 a5)

/-- The contents of `main_call5_v3` as a function of the arguments. -/
def res_main_call5_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i32⟩ : BufTy).Contents (Elt F) :=
  (iotaInDim S256x256 32 1)

/-- The contents of `main_call5_v4` as a function of the arguments. -/
def res_main_call5_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((cmpi .sge)) (res_main_call5_v2 a0 a1 a2 a3 a4 a5) (res_main_call5_v3 a0 a1 a2 a3 a4 a5)

/-- The contents of `main_call5_c_0` as a function of the arguments. -/
def res_main_call5_c_0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .i1⟩ : BufTy).Contents (Elt F) :=
  (constantI S_ 1 0#1)

/-- The contents of `main_call5_v5` as a function of the arguments. -/
def res_main_call5_v5 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  ((broadcastInDim S256x256 ![] bcast_S_S256x256)) (res_main_call5_c_0 a0 a1 a2 a3 a4 a5)

/-- The contents of `main_v38` as a function of the arguments. -/
def res_main_v38 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x256, .i1⟩ : BufTy).Contents (Elt F) :=
  (select) (res_main_call5_v4 a0 a1 a2 a3 a4 a5) (res_main_v37 a0 a1 a2 a3 a4 a5) (res_main_call5_v5 a0 a1 a2 a3 a4 a5)

/-- The contents of `main_cst_7` as a function of the arguments. -/
def res_main_cst_7 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_call6_v0` as a function of the arguments. -/
def res_main_call6_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .i1⟩ : BufTy).Contents (Elt F) :=
  ((broadcastInDim S64x8x256x256 ![2, 3] bcast_S256x256_S64x8x256x256_2_3)) (res_main_v38 a0 a1 a2 a3 a4 a5)

/-- The contents of `main_call6_v1` as a function of the arguments. -/
def res_main_call6_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  ((broadcastInDim S64x8x256x256 ![] bcast_S_S64x8x256x256)) (res_main_cst_7 a0 a1 a2 a3 a4 a5)

/-- The contents of `main_v39` as a function of the arguments. -/
def res_main_v39 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x256, .f32⟩ : BufTy).Contents (Elt F) :=
  (select) (res_main_call6_v0 a0 a1 a2 a3 a4 a5) (res_main_v36 a0 a1 a2 a3 a4 a5) (res_main_call6_v1 a0 a1 a2 a3 a4 a5)

/-- The contents of `main_v40` as a function of the arguments. -/
def res_main_v40 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  (((fun l r => Host.dotGeneral dot_S64x8x256x256_S64x8x256x128_S64x8x256x128_3_2_2_3_01_01 none l r) : (⟨S64x8x256x256, .f32⟩ : BufTy).Contents (Elt F) → (⟨S64x8x256x128, .f32⟩ : BufTy).Contents (Elt F) → (⟨S64x8x256x128, .f32⟩ : BufTy).Contents (Elt F))) (res_main_v39 a0 a1 a2 a3 a4 a5) (res_main_v30 a0 a1 a2 a3 a4 a5)

/-- The contents of `main_cst_8` as a function of the arguments. -/
def res_main_cst_8 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_cst_9` as a function of the arguments. -/
def res_main_cst_9 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_call7_v0` as a function of the arguments. -/
def res_main_call7_v0 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (id) (res_main_cst_8 a0 a1 a2 a3 a4 a5)

/-- The contents of `main_call7_v1` as a function of the arguments. -/
def res_main_call7_v1 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S8x256, .f32⟩ : BufTy).Contents (Elt F) :=
  ((broadcastInDim S8x256 ![] bcast_S_S8x256)) (res_main_call7_v0 a0 a1 a2 a3 a4 a5)

/-- The contents of `main_call7_v2` as a function of the arguments. -/
def res_main_call7_v2 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S8x256, .f32⟩ : BufTy).Contents (Elt F) :=
  (maximumf) (res_main_call7_v1 a0 a1 a2 a3 a4 a5) a3

/-- The contents of `main_call7_v3` as a function of the arguments. -/
def res_main_call7_v3 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (id) (res_main_cst_9 a0 a1 a2 a3 a4 a5)

/-- The contents of `main_call7_v4` as a function of the arguments. -/
def res_main_call7_v4 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S8x256, .f32⟩ : BufTy).Contents (Elt F) :=
  ((broadcastInDim S8x256 ![] bcast_S_S8x256)) (res_main_call7_v3 a0 a1 a2 a3 a4 a5)

/-- The contents of `main_v41` as a function of the arguments. -/
def res_main_v41 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S8x256, .f32⟩ : BufTy).Contents (Elt F) :=
  (minimumf) (res_main_call7_v4 a0 a1 a2 a3 a4 a5) (res_main_call7_v2 a0 a1 a2 a3 a4 a5)

/-- The contents of `main_v42` as a function of the arguments. -/
def res_main_v42 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S1x8x256x1, .f32⟩ : BufTy).Contents (Elt F) :=
  ((broadcastInDim S1x8x256x1 ![1, 2] bcast_S8x256_S1x8x256x1_1_2 : (⟨S8x256, .f32⟩ : BufTy).Contents (Elt F) → (⟨S1x8x256x1, .f32⟩ : BufTy).Contents (Elt F))) (res_main_v41 a0 a1 a2 a3 a4 a5)

/-- The contents of `main_v43` as a function of the arguments. -/
def res_main_v43 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![0, 1, 2, 3] bcast_S1x8x256x1_S64x8x256x128_0_1_2_3 : (⟨S1x8x256x1, .f32⟩ : BufTy).Contents (Elt F) → (⟨S64x8x256x128, .f32⟩ : BufTy).Contents (Elt F))) (res_main_v42 a0 a1 a2 a3 a4 a5)

/-- The contents of `main_v44` as a function of the arguments. -/
def res_main_v44 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((mulf : (⟨S64x8x256x128, .f32⟩ : BufTy).Contents (Elt F) → (⟨S64x8x256x128, .f32⟩ : BufTy).Contents (Elt F) → (⟨S64x8x256x128, .f32⟩ : BufTy).Contents (Elt F))) (res_main_v35 a0 a1 a2 a3 a4 a5) (res_main_v43 a0 a1 a2 a3 a4 a5)

/-- The contents of `main_cst_10` as a function of the arguments. -/
def res_main_cst_10 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3F800000#32)

/-- The contents of `main_v45` as a function of the arguments. -/
def res_main_v45 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S1x8x256x1, .f32⟩ : BufTy).Contents (Elt F) :=
  ((broadcastInDim S1x8x256x1 ![] bcast_S_S1x8x256x1 : (⟨S_, .f32⟩ : BufTy).Contents (Elt F) → (⟨S1x8x256x1, .f32⟩ : BufTy).Contents (Elt F))) (res_main_cst_10 a0 a1 a2 a3 a4 a5)

/-- The contents of `main_v46` as a function of the arguments. -/
def res_main_v46 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S1x8x256x1, .f32⟩ : BufTy).Contents (Elt F) :=
  ((subf : (⟨S1x8x256x1, .f32⟩ : BufTy).Contents (Elt F) → (⟨S1x8x256x1, .f32⟩ : BufTy).Contents (Elt F) → (⟨S1x8x256x1, .f32⟩ : BufTy).Contents (Elt F))) (res_main_v45 a0 a1 a2 a3 a4 a5) (res_main_v42 a0 a1 a2 a3 a4 a5)

/-- The contents of `main_v47` as a function of the arguments. -/
def res_main_v47 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![0, 1, 2, 3] bcast_S1x8x256x1_S64x8x256x128_0_1_2_3 : (⟨S1x8x256x1, .f32⟩ : BufTy).Contents (Elt F) → (⟨S64x8x256x128, .f32⟩ : BufTy).Contents (Elt F))) (res_main_v46 a0 a1 a2 a3 a4 a5)

/-- The contents of `main_v48` as a function of the arguments. -/
def res_main_v48 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((mulf : (⟨S64x8x256x128, .f32⟩ : BufTy).Contents (Elt F) → (⟨S64x8x256x128, .f32⟩ : BufTy).Contents (Elt F) → (⟨S64x8x256x128, .f32⟩ : BufTy).Contents (Elt F))) (res_main_v40 a0 a1 a2 a3 a4 a5) (res_main_v47 a0 a1 a2 a3 a4 a5)

/-- The contents of `main_v49` as a function of the arguments. -/
def res_main_v49 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((addf : (⟨S64x8x256x128, .f32⟩ : BufTy).Contents (Elt F) → (⟨S64x8x256x128, .f32⟩ : BufTy).Contents (Elt F) → (⟨S64x8x256x128, .f32⟩ : BufTy).Contents (Elt F))) (res_main_v44 a0 a1 a2 a3 a4 a5) (res_main_v48 a0 a1 a2 a3 a4 a5)

/-- The contents of `main_cst_11` as a function of the arguments. -/
def res_main_cst_11 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3DB504F3#32)

/-- The contents of `main_v50` as a function of the arguments. -/
def res_main_v50 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((broadcastInDim S64x8x256x128 ![] bcast_S_S64x8x256x128 : (⟨S_, .f32⟩ : BufTy).Contents (Elt F) → (⟨S64x8x256x128, .f32⟩ : BufTy).Contents (Elt F))) (res_main_cst_11 a0 a1 a2 a3 a4 a5)

/-- The contents of `main_v51` as a function of the arguments. -/
def res_main_v51 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S64x8x256x128, .f32⟩ : BufTy).Contents (Elt F) :=
  ((mulf : (⟨S64x8x256x128, .f32⟩ : BufTy).Contents (Elt F) → (⟨S64x8x256x128, .f32⟩ : BufTy).Contents (Elt F) → (⟨S64x8x256x128, .f32⟩ : BufTy).Contents (Elt F))) (res_main_v50 a0 a1 a2 a3 a4 a5) (res_main_v49 a0 a1 a2 a3 a4 a5)

/-- The contents of `main_v52` as a function of the arguments. -/
def res_main_v52 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x8x128, .f32⟩ : BufTy).Contents (Elt F) :=
  (((transpose S256x64x8x128 [2, 0, 1, 3] · transposes_S64x8x256x128_S256x64x8x128_2_0_1_3) : (⟨S64x8x256x128, .f32⟩ : BufTy).Contents (Elt F) → (⟨S256x64x8x128, .f32⟩ : BufTy).Contents (Elt F))) (res_main_v51 a0 a1 a2 a3 a4 a5)

/-- The contents of `main_v53` as a function of the arguments. -/
def res_main_v53 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  shapeCast S256x64x1024 (res_main_v52 a0 a1 a2 a3 a4 a5) shapeCasts_S256x64x8x128_S256x64x1024

/-- The contents of `main_v54` as a function of the arguments. -/
def res_main_v54 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  (((fun l r => Host.dotGeneral dot_S256x64x1024_S1024x1024_S256x64x1024_2_1_01_0_n_n none l r) : (⟨S256x64x1024, .f32⟩ : BufTy).Contents (Elt F) → (⟨S1024x1024, .f32⟩ : BufTy).Contents (Elt F) → (⟨S256x64x1024, .f32⟩ : BufTy).Contents (Elt F))) (res_main_v53 a0 a1 a2 a3 a4 a5) a2

/-- The contents of `main_v55` as a function of the arguments. -/
def res_main_v55 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((addf : (⟨S256x64x1024, .f32⟩ : BufTy).Contents (Elt F) → (⟨S256x64x1024, .f32⟩ : BufTy).Contents (Elt F) → (⟨S256x64x1024, .f32⟩ : BufTy).Contents (Elt F))) a0 (res_main_v54 a0 a1 a2 a3 a4 a5)

/-- The contents of `main_cst_12` as a function of the arguments. -/
def res_main_cst_12 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_v56` as a function of the arguments. -/
def res_main_v56 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64, .f32⟩ : BufTy).Contents (Elt F) :=
  (((fun x v => Host.reduceAdd x v reducesTo_S256x64x1024_S256x64_d2 h_S_) : (⟨S256x64x1024, .f32⟩ : BufTy).Contents (Elt F) → (⟨S_, .f32⟩ : BufTy).Contents (Elt F) → (⟨S256x64, .f32⟩ : BufTy).Contents (Elt F))) (res_main_v55 a0 a1 a2 a3 a4 a5) (res_main_cst_12 a0 a1 a2 a3 a4 a5)

/-- The contents of `main_v57` as a function of the arguments. -/
def res_main_v57 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((broadcastInDim S256x64x1 ![0, 1] bcast_S256x64_S256x64x1_0_1 : (⟨S256x64, .f32⟩ : BufTy).Contents (Elt F) → (⟨S256x64x1, .f32⟩ : BufTy).Contents (Elt F))) (res_main_v56 a0 a1 a2 a3 a4 a5)

/-- The contents of `main_cst_13` as a function of the arguments. -/
def res_main_cst_13 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x44800000#32)

/-- The contents of `main_v58` as a function of the arguments. -/
def res_main_v58 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((broadcastInDim S256x64x1 ![] bcast_S_S256x64x1 : (⟨S_, .f32⟩ : BufTy).Contents (Elt F) → (⟨S256x64x1, .f32⟩ : BufTy).Contents (Elt F))) (res_main_cst_13 a0 a1 a2 a3 a4 a5)

/-- The contents of `main_v59` as a function of the arguments. -/
def res_main_v59 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((Host.divf : (⟨S256x64x1, .f32⟩ : BufTy).Contents (Elt F) → (⟨S256x64x1, .f32⟩ : BufTy).Contents (Elt F) → (⟨S256x64x1, .f32⟩ : BufTy).Contents (Elt F))) (res_main_v57 a0 a1 a2 a3 a4 a5) (res_main_v58 a0 a1 a2 a3 a4 a5)

/-- The contents of `main_v60` as a function of the arguments. -/
def res_main_v60 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((broadcastInDim S256x64x1024 ![0, 1, 2] bcast_S256x64x1_S256x64x1024_0_1_2 : (⟨S256x64x1, .f32⟩ : BufTy).Contents (Elt F) → (⟨S256x64x1024, .f32⟩ : BufTy).Contents (Elt F))) (res_main_v59 a0 a1 a2 a3 a4 a5)

/-- The contents of `main_v61` as a function of the arguments. -/
def res_main_v61 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((subf : (⟨S256x64x1024, .f32⟩ : BufTy).Contents (Elt F) → (⟨S256x64x1024, .f32⟩ : BufTy).Contents (Elt F) → (⟨S256x64x1024, .f32⟩ : BufTy).Contents (Elt F))) (res_main_v55 a0 a1 a2 a3 a4 a5) (res_main_v60 a0 a1 a2 a3 a4 a5)

/-- The contents of `main_v62` as a function of the arguments. -/
def res_main_v62 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((mulf : (⟨S256x64x1024, .f32⟩ : BufTy).Contents (Elt F) → (⟨S256x64x1024, .f32⟩ : BufTy).Contents (Elt F) → (⟨S256x64x1024, .f32⟩ : BufTy).Contents (Elt F))) (res_main_v61 a0 a1 a2 a3 a4 a5) (res_main_v61 a0 a1 a2 a3 a4 a5)

/-- The contents of `main_cst_14` as a function of the arguments. -/
def res_main_cst_14 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x00000000#32)

/-- The contents of `main_v63` as a function of the arguments. -/
def res_main_v63 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64, .f32⟩ : BufTy).Contents (Elt F) :=
  (((fun x v => Host.reduceAdd x v reducesTo_S256x64x1024_S256x64_d2 h_S_) : (⟨S256x64x1024, .f32⟩ : BufTy).Contents (Elt F) → (⟨S_, .f32⟩ : BufTy).Contents (Elt F) → (⟨S256x64, .f32⟩ : BufTy).Contents (Elt F))) (res_main_v62 a0 a1 a2 a3 a4 a5) (res_main_cst_14 a0 a1 a2 a3 a4 a5)

/-- The contents of `main_v64` as a function of the arguments. -/
def res_main_v64 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((broadcastInDim S256x64x1 ![0, 1] bcast_S256x64_S256x64x1_0_1 : (⟨S256x64, .f32⟩ : BufTy).Contents (Elt F) → (⟨S256x64x1, .f32⟩ : BufTy).Contents (Elt F))) (res_main_v63 a0 a1 a2 a3 a4 a5)

/-- The contents of `main_cst_15` as a function of the arguments. -/
def res_main_cst_15 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x44800000#32)

/-- The contents of `main_v65` as a function of the arguments. -/
def res_main_v65 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((broadcastInDim S256x64x1 ![] bcast_S_S256x64x1 : (⟨S_, .f32⟩ : BufTy).Contents (Elt F) → (⟨S256x64x1, .f32⟩ : BufTy).Contents (Elt F))) (res_main_cst_15 a0 a1 a2 a3 a4 a5)

/-- The contents of `main_v66` as a function of the arguments. -/
def res_main_v66 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((Host.divf : (⟨S256x64x1, .f32⟩ : BufTy).Contents (Elt F) → (⟨S256x64x1, .f32⟩ : BufTy).Contents (Elt F) → (⟨S256x64x1, .f32⟩ : BufTy).Contents (Elt F))) (res_main_v64 a0 a1 a2 a3 a4 a5) (res_main_v65 a0 a1 a2 a3 a4 a5)

/-- The contents of `main_v67` as a function of the arguments. -/
def res_main_v67 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((broadcastInDim S256x64x1024 ![0, 1, 2] bcast_S256x64x1_S256x64x1024_0_1_2 : (⟨S256x64x1, .f32⟩ : BufTy).Contents (Elt F) → (⟨S256x64x1024, .f32⟩ : BufTy).Contents (Elt F))) (res_main_v59 a0 a1 a2 a3 a4 a5)

/-- The contents of `main_v68` as a function of the arguments. -/
def res_main_v68 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((subf : (⟨S256x64x1024, .f32⟩ : BufTy).Contents (Elt F) → (⟨S256x64x1024, .f32⟩ : BufTy).Contents (Elt F) → (⟨S256x64x1024, .f32⟩ : BufTy).Contents (Elt F))) (res_main_v55 a0 a1 a2 a3 a4 a5) (res_main_v67 a0 a1 a2 a3 a4 a5)

/-- The contents of `main_v69` as a function of the arguments. -/
def res_main_v69 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S1x1x1024, .f32⟩ : BufTy).Contents (Elt F) :=
  ((broadcastInDim S1x1x1024 ![2] bcast_S1024_S1x1x1024_2 : (⟨S1024, .f32⟩ : BufTy).Contents (Elt F) → (⟨S1x1x1024, .f32⟩ : BufTy).Contents (Elt F))) a4

/-- The contents of `main_v70` as a function of the arguments. -/
def res_main_v70 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((broadcastInDim S256x64x1024 ![0, 1, 2] bcast_S1x1x1024_S256x64x1024_0_1_2 : (⟨S1x1x1024, .f32⟩ : BufTy).Contents (Elt F) → (⟨S256x64x1024, .f32⟩ : BufTy).Contents (Elt F))) (res_main_v69 a0 a1 a2 a3 a4 a5)

/-- The contents of `main_v71` as a function of the arguments. -/
def res_main_v71 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((mulf : (⟨S256x64x1024, .f32⟩ : BufTy).Contents (Elt F) → (⟨S256x64x1024, .f32⟩ : BufTy).Contents (Elt F) → (⟨S256x64x1024, .f32⟩ : BufTy).Contents (Elt F))) (res_main_v70 a0 a1 a2 a3 a4 a5) (res_main_v68 a0 a1 a2 a3 a4 a5)

/-- The contents of `main_cst_16` as a function of the arguments. -/
def res_main_cst_16 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S_, .f32⟩ : BufTy).Contents (Elt F) :=
  (constant S_ .f32 0x3727C5AC#32)

/-- The contents of `main_v72` as a function of the arguments. -/
def res_main_v72 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((broadcastInDim S256x64x1 ![] bcast_S_S256x64x1 : (⟨S_, .f32⟩ : BufTy).Contents (Elt F) → (⟨S256x64x1, .f32⟩ : BufTy).Contents (Elt F))) (res_main_cst_16 a0 a1 a2 a3 a4 a5)

/-- The contents of `main_v73` as a function of the arguments. -/
def res_main_v73 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((addf : (⟨S256x64x1, .f32⟩ : BufTy).Contents (Elt F) → (⟨S256x64x1, .f32⟩ : BufTy).Contents (Elt F) → (⟨S256x64x1, .f32⟩ : BufTy).Contents (Elt F))) (res_main_v66 a0 a1 a2 a3 a4 a5) (res_main_v72 a0 a1 a2 a3 a4 a5)

/-- The contents of `main_v74` as a function of the arguments. -/
def res_main_v74 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1, .f32⟩ : BufTy).Contents (Elt F) :=
  ((Host.sqrt : (⟨S256x64x1, .f32⟩ : BufTy).Contents (Elt F) → (⟨S256x64x1, .f32⟩ : BufTy).Contents (Elt F))) (res_main_v73 a0 a1 a2 a3 a4 a5)

/-- The contents of `main_v75` as a function of the arguments. -/
def res_main_v75 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((broadcastInDim S256x64x1024 ![0, 1, 2] bcast_S256x64x1_S256x64x1024_0_1_2 : (⟨S256x64x1, .f32⟩ : BufTy).Contents (Elt F) → (⟨S256x64x1024, .f32⟩ : BufTy).Contents (Elt F))) (res_main_v74 a0 a1 a2 a3 a4 a5)

/-- The contents of `main_v76` as a function of the arguments. -/
def res_main_v76 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((Host.divf : (⟨S256x64x1024, .f32⟩ : BufTy).Contents (Elt F) → (⟨S256x64x1024, .f32⟩ : BufTy).Contents (Elt F) → (⟨S256x64x1024, .f32⟩ : BufTy).Contents (Elt F))) (res_main_v71 a0 a1 a2 a3 a4 a5) (res_main_v75 a0 a1 a2 a3 a4 a5)

/-- The contents of `main_v77` as a function of the arguments. -/
def res_main_v77 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S1x1x1024, .f32⟩ : BufTy).Contents (Elt F) :=
  ((broadcastInDim S1x1x1024 ![2] bcast_S1024_S1x1x1024_2 : (⟨S1024, .f32⟩ : BufTy).Contents (Elt F) → (⟨S1x1x1024, .f32⟩ : BufTy).Contents (Elt F))) a5

/-- The contents of `main_v78` as a function of the arguments. -/
def res_main_v78 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((broadcastInDim S256x64x1024 ![0, 1, 2] bcast_S1x1x1024_S256x64x1024_0_1_2 : (⟨S1x1x1024, .f32⟩ : BufTy).Contents (Elt F) → (⟨S256x64x1024, .f32⟩ : BufTy).Contents (Elt F))) (res_main_v77 a0 a1 a2 a3 a4 a5)

/-- The contents of `main_v79` as a function of the arguments. -/
def res_main_v79 (a0 : (⟨S256x64x1024, .f32⟩ : BufTy).Contents (Elt F)) (a1 : (⟨S4096x1024, .f32⟩ : BufTy).Contents (Elt F)) (a2 : (⟨S1024x1024, .f32⟩ : BufTy).Contents (Elt F)) (a3 : (⟨S8x256, .f32⟩ : BufTy).Contents (Elt F)) (a4 : (⟨S1024, .f32⟩ : BufTy).Contents (Elt F)) (a5 : (⟨S1024, .f32⟩ : BufTy).Contents (Elt F)) : (⟨S256x64x1024, .f32⟩ : BufTy).Contents (Elt F) :=
  ((addf : (⟨S256x64x1024, .f32⟩ : BufTy).Contents (Elt F) → (⟨S256x64x1024, .f32⟩ : BufTy).Contents (Elt F) → (⟨S256x64x1024, .f32⟩ : BufTy).Contents (Elt F))) (res_main_v76 a0 a1 a2 a3 a4 a5) (res_main_v78 a0 a1 a2 a3 a4 a5)

set_option maxRecDepth 4096 in
/-- The printed program is that straight line: the functions unfolded at their calls, and the sequencing
    re-associated. -/
theorem main_eq (c : Dev nD) : main (F := F) c = seq ops := by
  simp only [main, main_part0, main_part1, fn_elu.body, fn_where.body, fn_where_0.body, fn_tril.body, fn_where_1.body,
    fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., reshape_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., binary_bufs_sub .., unary_bufs_sub .., unary_bufs_sub .., binary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., unary_bufs_sub .., ternary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., unary_bufs_sub .., ternary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., reshape_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 16384 in
set_option maxHeartbeats 4000000 in
/-- After all the operations the result buffer holds `res_main_v79` of the arguments' contents: each operation's
    result is read at its own buffer and passed over at every other. -/
theorem out_eq (V : Valuation τ sig (Elt F)) :
    after ops V (main_v79 : DevRef τ sig)
      = res_main_v79 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

set_option maxRecDepth 16384 in
set_option maxHeartbeats 4000000 in
theorem kept_main_arg0 (V : Valuation τ sig (Elt F)) :
    after ops V (main_arg0 : DevRef τ sig) = V (main_arg0 : DevRef τ sig) := by
  after_results_simp

set_option maxRecDepth 16384 in
set_option maxHeartbeats 4000000 in
theorem kept_main_arg1 (V : Valuation τ sig (Elt F)) :
    after ops V (main_arg1 : DevRef τ sig) = V (main_arg1 : DevRef τ sig) := by
  after_results_simp

set_option maxRecDepth 16384 in
set_option maxHeartbeats 4000000 in
theorem kept_main_arg2 (V : Valuation τ sig (Elt F)) :
    after ops V (main_arg2 : DevRef τ sig) = V (main_arg2 : DevRef τ sig) := by
  after_results_simp

set_option maxRecDepth 16384 in
set_option maxHeartbeats 4000000 in
theorem kept_main_arg3 (V : Valuation τ sig (Elt F)) :
    after ops V (main_arg3 : DevRef τ sig) = V (main_arg3 : DevRef τ sig) := by
  after_results_simp

set_option maxRecDepth 16384 in
set_option maxHeartbeats 4000000 in
theorem kept_main_arg4 (V : Valuation τ sig (Elt F)) :
    after ops V (main_arg4 : DevRef τ sig) = V (main_arg4 : DevRef τ sig) := by
  after_results_simp

set_option maxRecDepth 16384 in
set_option maxHeartbeats 4000000 in
theorem kept_main_arg5 (V : Valuation τ sig (Elt F)) :
    after ops V (main_arg5 : DevRef τ sig) = V (main_arg5 : DevRef τ sig) := by
  after_results_simp

/-- Every weakly fair execution of the reference terminates, with the result buffer at `res_main_v79` of the
    arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = res_main_v79 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v79).trans (out_eq _),
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _)⟩)
    (run_seq scopedRefs_eq scopedSems_eq defs main (fun _ => ops) main_eq (fun _ => ops_sub) m ρ)

end Cert.ReferenceIdeal.RefRun

end
-- ==== Proof.Spec.lean ====
import Idealize.ShloMosaic.PureOps.Ideal

/-!
# The layer as mathematics

One two-key causal linear-attention layer with a post-LayerNorm residual, over the extended reals.
The arguments: the input `h` (256 positions, 64 batch rows, 1024 model features), the fused projection
weights `Wq` (4096 output columns = 8 heads × (query, key₁, key₂, value) × 128 features), the output
projection `Wo`, the per-head per-position mixing weights `p`, and the LayerNorm's scale and shift.

For one batch row and one head: the query and the two keys pass a feature map and are normalised to sum one
over the 128 features; the score of position `l` against position `s ≤ l` is the inner product of the query at
`l` with a key at `s` (zero for `s > l`); each key's scores times the values give an attention; the two
attentions are mixed with the clipped weight, scaled, and projected back to the model features, the eight heads
adding up; the result plus the input is LayerNormed over the model features.

Two spellings are given, which differ in three places: the feature map (`u + 1` or `exp u` against
`elu u + 1`), the sum over the 1024 projected features (head by head from zero, or all at once) and the
LayerNorm's last step (times the reciprocal square root, or divided by the square root).
-/

noncomputable section

open scoped BigOperators

namespace Cert.Spec

open Idealize.ShloMosaic

/-- The float literals of the two programs: 0, 1, the score scale (the f32 nearest 1/√128), the LayerNorm's ε (the f32
    nearest 1e-5) and 1024. -/
def c0 : EReal := Ideal.ofBits .f32 0x00000000#32
def c1 : EReal := Ideal.ofBits .f32 0x3F800000#32
def cs : EReal := Ideal.ofBits .f32 0x3DB504F3#32
def ce : EReal := Ideal.ofBits .f32 0x3727C5AC#32
def cn : EReal := Ideal.ofBits .f32 0x44800000#32

/-- The fused projection's column of head `hd`, part `q` (0 the query, 1 and 2 the keys, 3 the value), feature `d`. -/
def col (hd : Fin 8) (q : Fin 4) (d : Fin 128) : Fin 4096 := ⟨hd.val * 512 + q.val * 128 + d.val, by omega⟩
/-- The output projection's input column of head `hd`, feature `d`. -/
def ocol (hd : Fin 8) (d : Fin 128) : Fin 1024 := ⟨hd.val * 128 + d.val, by omega⟩

/-- The first spelling's feature map: `u + 1` above zero, `exp u` otherwise. -/
def featK (u : EReal) : EReal := if c0 < u then u + c1 else Ideal.exp u
/-- The second spelling's: `elu u + 1`, the ELU's exponential branch taken at zero above zero. -/
def featR (u : EReal) : EReal := (if c0 < u then u else c1 * (Ideal.exp (if c0 < u then c0 else u) - 1)) + c1

section Layer

variable (feat : EReal → EReal)
variable (h : Fin 256 → Fin 64 → Fin 1024 → EReal) (Wq : Fin 4096 → Fin 1024 → EReal)
  (Wo : Fin 1024 → Fin 1024 → EReal) (p : Fin 8 → Fin 256 → EReal) (g bt : Fin 1024 → EReal)

/-- The fused projection. -/
def proj (l : Fin 256) (b : Fin 64) (n : Fin 4096) : EReal := ∑ m : Fin 1024, h l b m * Wq n m

/-- Part `q` of head `hd` through the feature map, normalised over the features. -/
def phiP (q : Fin 4) (l : Fin 256) (b : Fin 64) (hd : Fin 8) (d : Fin 128) : EReal :=
  Ideal.div (feat (proj h Wq l b (col hd q d))) (∑ d' : Fin 128, feat (proj h Wq l b (col hd q d')))

/-- The value part, as projected. -/
def val (l : Fin 256) (b : Fin 64) (hd : Fin 8) (d : Fin 128) : EReal := proj h Wq l b (col hd 3 d)

/-- The score of position `l` against position `s`, for key `q`. -/
def score (q : Fin 4) (b : Fin 64) (hd : Fin 8) (l s : Fin 256) : EReal :=
  ∑ d : Fin 128, phiP feat h Wq 0 l b hd d * phiP feat h Wq q s b hd d

/-- The causal attention for key `q`. -/
def att (q : Fin 4) (l : Fin 256) (b : Fin 64) (hd : Fin 8) (d : Fin 128) : EReal :=
  ∑ s : Fin 256, (if s.val ≤ l.val then score feat h Wq q b hd l s else c0) * val h Wq s b hd d

/-- The mixing weight clipped to [0, 1]. -/
def pic (hd : Fin 8) (l : Fin 256) : EReal := min c1 (max c0 (p hd l))

/-- The head's scaled mix of its two attentions. -/
def lo (l : Fin 256) (b : Fin 64) (hd : Fin 8) (d : Fin 128) : EReal :=
  cs * (att feat h Wq 1 l b hd d * pic p hd l + att feat h Wq 2 l b hd d * (c1 - pic p hd l))

/-- Head `hd`'s part of the output projection (zero past the eighth head). -/
def headc (l : Fin 256) (b : Fin 64) (m : Fin 1024) (hd : ℕ) : EReal :=
  if hh : hd < 8 then ∑ d : Fin 128, lo feat h Wq p l b ⟨hd, hh⟩ d * Wo m (ocol ⟨hd, hh⟩ d) else 0

/-- The heads' parts added one after the other, from zero. -/
def accN (l : Fin 256) (b : Fin 64) (m : Fin 1024) : ℕ → EReal
  | 0 => c0 + headc feat h Wq Wo p l b m 0
  | k + 1 => accN l b m k + headc feat h Wq Wo p l b m (k + 1)

/-- The output projection over all 1024 projected features at once. -/
def attnAll (l : Fin 256) (b : Fin 64) (m : Fin 1024) : EReal :=
  ∑ n : Fin 1024, lo feat h Wq p l b ⟨n.val / 128, by omega⟩ ⟨n.val % 128, Nat.mod_lt _ (by omega)⟩ * Wo m n

end Layer

/-- A row's mean and variance over the 1024 features. -/
def mean (x : Fin 1024 → EReal) : EReal := Ideal.div (∑ m : Fin 1024, x m) cn
def var (x : Fin 1024 → EReal) : EReal := Ideal.div (∑ m : Fin 1024, (x m - mean x) * (x m - mean x)) cn

/-- LayerNorm, first spelling: times the reciprocal square root. -/
def lnK (g bt x : Fin 1024 → EReal) (m : Fin 1024) : EReal :=
  g m * ((x m - mean x) * Ideal.rsqrt (var x + ce)) + bt m
/-- LayerNorm, second spelling: divided by the square root. -/
def lnR (g bt x : Fin 1024 → EReal) (m : Fin 1024) : EReal :=
  Ideal.div (g m * (x m - mean x)) (Ideal.sqrt (var x + ce)) + bt m

/-- The layer, first spelling (the kernel's). -/
def outK (h : Fin 256 → Fin 64 → Fin 1024 → EReal) (Wq : Fin 4096 → Fin 1024 → EReal)
    (Wo : Fin 1024 → Fin 1024 → EReal) (p : Fin 8 → Fin 256 → EReal) (g bt : Fin 1024 → EReal)
    (l : Fin 256) (b : Fin 64) (m : Fin 1024) : EReal :=
  lnK g bt (fun m' => h l b m' + accN featK h Wq Wo p l b m' 7) m

/-- The layer, second spelling (the reference's). -/
def outR (h : Fin 256 → Fin 64 → Fin 1024 → EReal) (Wq : Fin 4096 → Fin 1024 → EReal)
    (Wo : Fin 1024 → Fin 1024 → EReal) (p : Fin 8 → Fin 256 → EReal) (g bt : Fin 1024 → EReal)
    (l : Fin 256) (b : Fin 64) (m : Fin 1024) : EReal :=
  lnR g bt (fun m' => h l b m' + attnAll featR h Wq Wo p l b m') m

end Cert.Spec

end
-- ==== Proof.SpecBridge.lean ====
import proofs.«168379_j15891378995467_2_alg».proof.Proof.Spec

/-!
# The two spellings of the layer agree on finite inputs

The two spellings differ in the feature map, in the order of the sum over the 1024 projected features, and in the
last step of the LayerNorm. The sum is re-ordered in any additive commutative monoid. The other two differences
vanish once the values they act on are reals: the feature maps agree at every real, and the LayerNorm's two last
steps agree once the variance plus ε is a positive real. So the proof carries "is a real" through the layer:
sums, products, differences, minima, maxima of reals are reals, the feature map of a real is a positive real,
and a real divided by a positive real is a real.
-/

noncomputable section

open scoped BigOperators

namespace Cert.Spec

open Idealize.ShloMosaic

/-! ### Reals, non-negative reals and positive reals among the extended reals -/

/-- The extended real is a real. -/
def Fnt (x : EReal) : Prop := ∃ r : ℝ, x = (r : EReal)
/-- The extended real is a non-negative real. -/
def NNg (x : EReal) : Prop := ∃ r : ℝ, 0 ≤ r ∧ x = (r : EReal)
/-- The extended real is a positive real. -/
def Psv (x : EReal) : Prop := ∃ r : ℝ, 0 < r ∧ x = (r : EReal)

theorem Psv.nng {x : EReal} (h : Psv x) : NNg x := by
  obtain ⟨r, hr, e⟩ := h; exact ⟨r, hr.le, e⟩
theorem NNg.fnt {x : EReal} (h : NNg x) : Fnt x := by
  obtain ⟨r, _, e⟩ := h; exact ⟨r, e⟩
theorem Psv.fnt {x : EReal} (h : Psv x) : Fnt x := h.nng.fnt

theorem Fnt.zero : Fnt 0 := ⟨0, EReal.coe_zero.symm⟩
theorem Fnt.one : Fnt 1 := ⟨1, EReal.coe_one.symm⟩
theorem NNg.zero : NNg 0 := ⟨0, le_refl _, EReal.coe_zero.symm⟩

theorem Fnt.add {x y : EReal} (hx : Fnt x) (hy : Fnt y) : Fnt (x + y) := by
  obtain ⟨a, rfl⟩ := hx; obtain ⟨b, rfl⟩ := hy; exact ⟨a + b, (EReal.coe_add a b).symm⟩
theorem Fnt.mul {x y : EReal} (hx : Fnt x) (hy : Fnt y) : Fnt (x * y) := by
  obtain ⟨a, rfl⟩ := hx; obtain ⟨b, rfl⟩ := hy; exact ⟨a * b, (EReal.coe_mul a b).symm⟩
theorem Fnt.sub {x y : EReal} (hx : Fnt x) (hy : Fnt y) : Fnt (x - y) := by
  obtain ⟨a, rfl⟩ := hx; obtain ⟨b, rfl⟩ := hy; exact ⟨a - b, (EReal.coe_sub a b).symm⟩
theorem Fnt.min {x y : EReal} (hx : Fnt x) (hy : Fnt y) : Fnt (min x y) := by
  rcases min_choice x y with e | e <;> rw [e] <;> assumption
theorem Fnt.max {x y : EReal} (hx : Fnt x) (hy : Fnt y) : Fnt (max x y) := by
  rcases max_choice x y with e | e <;> rw [e] <;> assumption
theorem Fnt.ite {c : Prop} [Decidable c] {x y : EReal} (hx : Fnt x) (hy : Fnt y) : Fnt (if c then x else y) := by
  split_ifs <;> assumption

/-- The square of a real is a non-negative real. -/
theorem Fnt.mul_self {x : EReal} (hx : Fnt x) : NNg (x * x) := by
  obtain ⟨a, rfl⟩ := hx; exact ⟨a * a, mul_self_nonneg a, (EReal.coe_mul a a).symm⟩
theorem NNg.add {x y : EReal} (hx : NNg x) (hy : NNg y) : NNg (x + y) := by
  obtain ⟨a, ha, rfl⟩ := hx; obtain ⟨b, hb, rfl⟩ := hy
  exact ⟨a + b, add_nonneg ha hb, (EReal.coe_add a b).symm⟩
theorem NNg.add_psv {x y : EReal} (hx : NNg x) (hy : Psv y) : Psv (x + y) := by
  obtain ⟨a, ha, rfl⟩ := hx; obtain ⟨b, hb, rfl⟩ := hy
  exact ⟨a + b, add_pos_of_nonneg_of_pos ha hb, (EReal.coe_add a b).symm⟩
theorem Psv.add_nng {x y : EReal} (hx : Psv x) (hy : NNg y) : Psv (x + y) := by
  obtain ⟨a, ha, rfl⟩ := hx; obtain ⟨b, hb, rfl⟩ := hy
  exact ⟨a + b, add_pos_of_pos_of_nonneg ha hb, (EReal.coe_add a b).symm⟩

/-- A finite sum of reals is a real. -/
theorem Fnt.sum {ι : Type} (s : Finset ι) (f : ι → EReal) (hf : ∀ i ∈ s, Fnt (f i)) : Fnt (∑ i ∈ s, f i) := by
  classical
  induction s using Finset.induction_on with
  | empty => rw [Finset.sum_empty]; exact Fnt.zero
  | insert a s ha ih =>
    rw [Finset.sum_insert ha]
    exact (hf a (Finset.mem_insert_self a s)).add (ih (fun i hi => hf i (Finset.mem_insert_of_mem hi)))
theorem Fnt.sum_univ {ι : Type} [Fintype ι] (f : ι → EReal) (hf : ∀ i, Fnt (f i)) : Fnt (∑ i, f i) :=
  Fnt.sum _ f (fun i _ => hf i)

/-- A finite sum of non-negative reals is a non-negative real. -/
theorem NNg.sum {ι : Type} (s : Finset ι) (f : ι → EReal) (hf : ∀ i ∈ s, NNg (f i)) : NNg (∑ i ∈ s, f i) := by
  classical
  induction s using Finset.induction_on with
  | empty => rw [Finset.sum_empty]; exact NNg.zero
  | insert a s ha ih =>
    rw [Finset.sum_insert ha]
    exact (hf a (Finset.mem_insert_self a s)).add (ih (fun i hi => hf i (Finset.mem_insert_of_mem hi)))
theorem NNg.sum_univ {ι : Type} [Fintype ι] (f : ι → EReal) (hf : ∀ i, NNg (f i)) : NNg (∑ i, f i) :=
  NNg.sum _ f (fun i _ => hf i)

/-- A sum of positive reals over a non-empty initial segment of the naturals is a positive real: the first term
    is positive, the others non-negative. -/
theorem Psv.sum_fin {n : ℕ} (f : Fin (n + 1) → EReal) (hf : ∀ i, Psv (f i)) : Psv (∑ i, f i) := by
  rw [Fin.sum_univ_succ]
  exact (hf 0).add_nng (NNg.sum_univ _ (fun i => (hf i.succ).nng))

/-- A real divided by a positive real is their quotient. -/
theorem div_coe_pos (a s : ℝ) (hs : 0 < s) : Ideal.div (a : EReal) (s : EReal) = ((a / s : ℝ) : EReal) := by
  rw [Ideal.div_coe hs.ne', ← EReal.coe_mul]; congr 1; ring
theorem Fnt.div_psv {x y : EReal} (hx : Fnt x) (hy : Psv y) : Fnt (Ideal.div x y) := by
  obtain ⟨a, rfl⟩ := hx; obtain ⟨s, hs, rfl⟩ := hy; exact ⟨a / s, div_coe_pos a s hs⟩
theorem NNg.div_psv {x y : EReal} (hx : NNg x) (hy : Psv y) : NNg (Ideal.div x y) := by
  obtain ⟨a, ha, rfl⟩ := hx; obtain ⟨s, hs, rfl⟩ := hy
  exact ⟨a / s, div_nonneg ha hs.le, div_coe_pos a s hs⟩

/-! ### The literals -/

theorem c0_eq : c0 = 0 := by simp [c0, Ideal.ofBits, Ideal.ieee]
theorem c1_eq : c1 = 1 := by simp [c1, Ideal.ofBits, Ideal.ieee, -EReal.coe_mul]; norm_num
theorem cn_eq : cn = ((1024 : ℝ) : EReal) := by simp [cn, Ideal.ofBits, Ideal.ieee, -EReal.coe_mul]; norm_num
theorem cn_psv : Psv cn := ⟨1024, by norm_num, cn_eq⟩
theorem c0_fnt : Fnt c0 := by rw [c0_eq]; exact Fnt.zero
theorem c1_fnt : Fnt c1 := by rw [c1_eq]; exact Fnt.one
/-- The score scale is a real. -/
theorem cs_fnt : Fnt cs := by
  unfold Fnt; simp [cs, Ideal.ofBits, Ideal.ieee, -EReal.coe_mul]
/-- The LayerNorm's ε is a positive real. -/
theorem ce_psv : Psv ce := by
  unfold Psv; simp [ce, Ideal.ofBits, Ideal.ieee, -EReal.coe_mul]

/-! ### The feature maps at a real -/

/-- Above zero both are the argument plus one. -/
theorem featK_coe_pos {r : ℝ} (hr : 0 < r) : featK (r : EReal) = ((r + 1 : ℝ) : EReal) := by
  have h' : (0 : EReal) < (r : EReal) := EReal.coe_pos.mpr hr
  unfold featK; rw [c0_eq, c1_eq, if_pos h', EReal.coe_add, EReal.coe_one]
/-- At or below zero the first is the exponential. -/
theorem featK_coe_nonpos {r : ℝ} (hr : ¬ 0 < r) : featK (r : EReal) = ((Real.exp r : ℝ) : EReal) := by
  have h' : ¬ (0 : EReal) < (r : EReal) := fun h => hr (EReal.coe_pos.mp h)
  unfold featK; rw [c0_eq, if_neg h', Ideal.exp_coe]

theorem featR_coe_pos {r : ℝ} (hr : 0 < r) : featR (r : EReal) = ((r + 1 : ℝ) : EReal) := by
  have h' : (0 : EReal) < (r : EReal) := EReal.coe_pos.mpr hr
  unfold featR; rw [c0_eq, c1_eq, if_pos h', EReal.coe_add, EReal.coe_one]
/-- At or below zero the second is one times the exponential less one, plus one: the exponential again. -/
theorem featR_coe_nonpos {r : ℝ} (hr : ¬ 0 < r) : featR (r : EReal) = ((Real.exp r : ℝ) : EReal) := by
  have h' : ¬ (0 : EReal) < (r : EReal) := fun h => hr (EReal.coe_pos.mp h)
  unfold featR; simp only [c0_eq, c1_eq, if_neg h', Ideal.exp_coe, one_mul]
  rw [← EReal.coe_one, ← EReal.coe_sub, ← EReal.coe_add]; congr 1; ring

theorem featR_eq_featK {u : EReal} (hu : Fnt u) : featR u = featK u := by
  obtain ⟨r, rfl⟩ := hu
  by_cases hr : 0 < r
  · rw [featR_coe_pos hr, featK_coe_pos hr]
  · rw [featR_coe_nonpos hr, featK_coe_nonpos hr]

/-- The feature map of a real is a positive real. -/
theorem featK_psv {u : EReal} (hu : Fnt u) : Psv (featK u) := by
  obtain ⟨r, rfl⟩ := hu
  by_cases hr : 0 < r
  · exact ⟨r + 1, by linarith, featK_coe_pos hr⟩
  · exact ⟨Real.exp r, Real.exp_pos r, featK_coe_nonpos hr⟩

/-! ### The sum over the 1024 projected features, head by head -/

/-- A projected feature is a head and a feature of the head. -/
def hdEquiv : Fin 8 × Fin 128 ≃ Fin 1024 where
  toFun x := ocol x.1 x.2
  invFun n := (⟨n.val / 128, by omega⟩, ⟨n.val % 128, Nat.mod_lt _ (by omega)⟩)
  left_inv x := by
    obtain ⟨⟨a, ha⟩, ⟨d, hd⟩⟩ := x
    simp only [ocol, Prod.mk.injEq, Fin.mk.injEq]
    constructor <;> omega
  right_inv n := by
    obtain ⟨n, hn⟩ := n
    simp only [ocol, Fin.mk.injEq]
    omega

theorem sum_split (F : Fin 1024 → EReal) : ∑ n : Fin 1024, F n = ∑ a : Fin 8, ∑ d : Fin 128, F (ocol a d) := by
  rw [← Fintype.sum_prod_type']
  exact (Fintype.sum_equiv hdEquiv (fun x => F (ocol x.1 x.2)) F (fun _ => rfl)).symm

section Layer

variable (feat : EReal → EReal)
variable (h : Fin 256 → Fin 64 → Fin 1024 → EReal) (Wq : Fin 4096 → Fin 1024 → EReal)
  (Wo : Fin 1024 → Fin 1024 → EReal) (p : Fin 8 → Fin 256 → EReal)

/-- The heads' parts added one after the other from zero are their sum. -/
theorem accN_eq (l : Fin 256) (b : Fin 64) (m : Fin 1024) (k : ℕ) :
    accN feat h Wq Wo p l b m k = ∑ i ∈ Finset.range (k + 1), headc feat h Wq Wo p l b m i := by
  induction k with
  | zero => rw [accN, c0_eq, zero_add, Finset.sum_range_one]
  | succ k ih => rw [accN, ih, Finset.sum_range_succ _ (k + 1)]

theorem accN_seven (l : Fin 256) (b : Fin 64) (m : Fin 1024) :
    accN feat h Wq Wo p l b m 7 = ∑ a : Fin 8, headc feat h Wq Wo p l b m a.val := by
  rw [accN_eq]; exact Finset.sum_range (fun i => headc feat h Wq Wo p l b m i)

/-- The sum over all the projected features at once is the heads' parts added one after the other. -/
theorem attnAll_eq_accN (l : Fin 256) (b : Fin 64) (m : Fin 1024) :
    attnAll feat h Wq Wo p l b m = accN feat h Wq Wo p l b m 7 := by
  rw [accN_seven]
  unfold attnAll
  rw [sum_split]
  refine Finset.sum_congr rfl (fun a _ => ?_)
  rw [headc, dif_pos a.isLt]
  refine Finset.sum_congr rfl (fun d _ => ?_)
  have e1 : (⟨(ocol a d).val / 128, by have := (ocol a d).isLt; omega⟩ : Fin 8) = a := by
    apply Fin.ext; simp only [ocol]; omega
  have e2 : (⟨(ocol a d).val % 128, Nat.mod_lt _ (by omega)⟩ : Fin 128) = d := by
    apply Fin.ext; simp only [ocol]; omega
  rw [e1, e2]

end Layer

/-! ### The layer's values are reals -/

section Finite

variable {h : Fin 256 → Fin 64 → Fin 1024 → EReal} {Wq : Fin 4096 → Fin 1024 → EReal}
  {Wo : Fin 1024 → Fin 1024 → EReal} {p : Fin 8 → Fin 256 → EReal}

theorem proj_fnt (hh : ∀ l b m, Fnt (h l b m)) (hWq : ∀ n m, Fnt (Wq n m)) (l : Fin 256) (b : Fin 64) (n : Fin 4096) :
    Fnt (proj h Wq l b n) :=
  Fnt.sum_univ _ (fun m => (hh l b m).mul (hWq n m))

/-- The two feature maps give the same normalised parts. -/
theorem phiP_R_eq_K (hh : ∀ l b m, Fnt (h l b m)) (hWq : ∀ n m, Fnt (Wq n m))
    (q : Fin 4) (l : Fin 256) (b : Fin 64) (a : Fin 8) (d : Fin 128) :
    phiP featR h Wq q l b a d = phiP featK h Wq q l b a d := by
  have e : ∀ n, featR (proj h Wq l b n) = featK (proj h Wq l b n) := fun n => featR_eq_featK (proj_fnt hh hWq l b n)
  unfold phiP; simp only [e]

theorem phiP_fnt (hh : ∀ l b m, Fnt (h l b m)) (hWq : ∀ n m, Fnt (Wq n m))
    (q : Fin 4) (l : Fin 256) (b : Fin 64) (a : Fin 8) (d : Fin 128) : Fnt (phiP featK h Wq q l b a d) := by
  unfold phiP
  exact (featK_psv (proj_fnt hh hWq l b _)).fnt.div_psv
    (Psv.sum_fin (n := 127) _ (fun d' => featK_psv (proj_fnt hh hWq l b _)))

theorem val_fnt (hh : ∀ l b m, Fnt (h l b m)) (hWq : ∀ n m, Fnt (Wq n m))
    (l : Fin 256) (b : Fin 64) (a : Fin 8) (d : Fin 128) : Fnt (val h Wq l b a d) :=
  proj_fnt hh hWq l b _

theorem score_fnt (hh : ∀ l b m, Fnt (h l b m)) (hWq : ∀ n m, Fnt (Wq n m))
    (q : Fin 4) (b : Fin 64) (a : Fin 8) (l s : Fin 256) : Fnt (score featK h Wq q b a l s) :=
  Fnt.sum_univ _ (fun d => (phiP_fnt hh hWq 0 l b a d).mul (phiP_fnt hh hWq q s b a d))

theorem att_fnt (hh : ∀ l b m, Fnt (h l b m)) (hWq : ∀ n m, Fnt (Wq n m))
    (q : Fin 4) (l : Fin 256) (b : Fin 64) (a : Fin 8) (d : Fin 128) : Fnt (att featK h Wq q l b a d) :=
  Fnt.sum_univ _ (fun s => (Fnt.ite (score_fnt hh hWq q b a l s) c0_fnt).mul (val_fnt hh hWq s b a d))

theorem pic_fnt (hp : ∀ a l, Fnt (p a l)) (a : Fin 8) (l : Fin 256) : Fnt (pic p a l) :=
  c1_fnt.min (c0_fnt.max (hp a l))

theorem lo_fnt (hh : ∀ l b m, Fnt (h l b m)) (hWq : ∀ n m, Fnt (Wq n m)) (hp : ∀ a l, Fnt (p a l))
    (l : Fin 256) (b : Fin 64) (a : Fin 8) (d : Fin 128) : Fnt (lo featK h Wq p l b a d) :=
  cs_fnt.mul (((att_fnt hh hWq 1 l b a d).mul (pic_fnt hp a l)).add
    ((att_fnt hh hWq 2 l b a d).mul (c1_fnt.sub (pic_fnt hp a l))))

theorem headc_fnt (hh : ∀ l b m, Fnt (h l b m)) (hWq : ∀ n m, Fnt (Wq n m)) (hWo : ∀ m n, Fnt (Wo m n))
    (hp : ∀ a l, Fnt (p a l)) (l : Fin 256) (b : Fin 64) (m : Fin 1024) (k : ℕ) :
    Fnt (headc featK h Wq Wo p l b m k) := by
  unfold headc
  split_ifs with hk
  · exact Fnt.sum_univ _ (fun d => (lo_fnt hh hWq hp l b ⟨k, hk⟩ d).mul (hWo m _))
  · exact Fnt.zero

theorem accN_fnt (hh : ∀ l b m, Fnt (h l b m)) (hWq : ∀ n m, Fnt (Wq n m)) (hWo : ∀ m n, Fnt (Wo m n))
    (hp : ∀ a l, Fnt (p a l)) (l : Fin 256) (b : Fin 64) (m : Fin 1024) (k : ℕ) :
    Fnt (accN featK h Wq Wo p l b m k) := by
  rw [accN_eq]; exact Fnt.sum _ _ (fun i _ => headc_fnt hh hWq hWo hp l b m i)

/-- With the normalised parts equal, everything built on them is equal. -/
theorem attnAll_R_eq_K (hh : ∀ l b m, Fnt (h l b m)) (hWq : ∀ n m, Fnt (Wq n m))
    (l : Fin 256) (b : Fin 64) (m : Fin 1024) :
    attnAll featR h Wq Wo p l b m = attnAll featK h Wq Wo p l b m := by
  unfold attnAll lo att score
  simp only [phiP_R_eq_K hh hWq]

end Finite

/-! ### The LayerNorm of a row of reals -/

theorem mean_fnt {x : Fin 1024 → EReal} (hx : ∀ m, Fnt (x m)) : Fnt (mean x) :=
  (Fnt.sum_univ _ hx).div_psv cn_psv

/-- The variance of a row of reals is a non-negative real: a sum of squares over a positive number. -/
theorem var_nng {x : Fin 1024 → EReal} (hx : ∀ m, Fnt (x m)) : NNg (var x) :=
  (NNg.sum_univ _ (fun m => ((hx m).sub (mean_fnt hx)).mul_self)).div_psv cn_psv

/-- Once the variance plus ε is a positive real, its square root is a non-zero real whose reciprocal is the
    reciprocal square root, and dividing by it is multiplying by that reciprocal. -/
theorem ln_eq (g bt x : Fin 1024 → EReal) (hx : ∀ m, Fnt (x m)) (m : Fin 1024) : lnR g bt x m = lnK g bt x m := by
  obtain ⟨w, hw, ew⟩ := (var_nng hx).add_psv ce_psv
  have hs : Real.sqrt w ≠ 0 := (Real.sqrt_pos.mpr hw).ne'
  unfold lnR lnK
  rw [ew, Ideal.sqrt_coe, Ideal.rsqrt_coe, if_neg (not_lt.mpr hw.le), if_neg (not_lt.mpr hw.le), if_neg hw.ne',
    Ideal.div_coe hs, one_div, mul_assoc]

/-! ### The layer -/

theorem outR_eq_outK (h : Fin 256 → Fin 64 → Fin 1024 → EReal) (Wq : Fin 4096 → Fin 1024 → EReal)
    (Wo : Fin 1024 → Fin 1024 → EReal) (p : Fin 8 → Fin 256 → EReal) (g bt : Fin 1024 → EReal)
    (hh : ∀ l b m, ∃ r : ℝ, h l b m = (r : EReal)) (hWq : ∀ n m, ∃ r : ℝ, Wq n m = (r : EReal))
    (hWo : ∀ m n, ∃ r : ℝ, Wo m n = (r : EReal)) (hp : ∀ a l, ∃ r : ℝ, p a l = (r : EReal))
    (hg : ∀ m, ∃ r : ℝ, g m = (r : EReal)) (hbt : ∀ m, ∃ r : ℝ, bt m = (r : EReal))
    (l : Fin 256) (b : Fin 64) (m : Fin 1024) :
    outR h Wq Wo p g bt l b m = outK h Wq Wo p g bt l b m := by
  have hx : ∀ m', Fnt (h l b m' + accN featK h Wq Wo p l b m' 7) :=
    fun m' => Fnt.add (hh l b m') (accN_fnt hh hWq hWo hp l b m' 7)
  have e : (fun m' => h l b m' + attnAll featR h Wq Wo p l b m')
      = (fun m' => h l b m' + accN featK h Wq Wo p l b m' 7) := by
    funext m'; rw [attnAll_R_eq_K hh hWq, attnAll_eq_accN]
  unfold outR outK
  rw [e]; exact ln_eq g bt _ hx m

end Cert.Spec

end
-- ==== Proof.PreFinite.lean ====
/-
  The precondition `finite_inputs`, read back at the ideal instance (a float is an extended real).

  The generated function computes, for each of its six float arguments x, the bit `all(|x| < +∞)`: the
  absolute value `max x (-x)` of every element is compared (ordered, strictly less) against the f32
  pattern 0x7F800000, which denotes ⊤, the comparison bits are reduced by `and` over every axis starting
  from 1, and the six resulting bits are `and`-ed. If the result is 1 then each of the six bits is 1
  (`and` of two one-bit words is 1 only when both are), each element's comparison bit is 1 (a reduction
  by `and` from 1 that is 1 met only 1s), so `max x (-x) < ⊤` for every element x; an extended real with
  that property is neither ⊥ nor ⊤, hence a real number.
-/
import proofs.«168379_j15891378995467_2_alg».proof.Proof.Gen.Pre_finite_inputs
import Idealize.ShloMosaic.Lib.ReduceAll
import Idealize.ShloMosaic.Lib.ValueIdx
import Idealize.ShloMosaic.PureOps.Ideal.Laws

noncomputable section

namespace Cert.Proof.PreFinite

open Idealize.ShloMosaic Cert.Pre_finite_inputs

/-- The rank-0 shape has exactly one index. -/
instance : Subsingleton S_.Idx := ⟨fun a b => funext fun d => d.elim0⟩

/-- An extended real whose absolute value `max x (-x)` is strictly below ⊤ is a real number:
    at ⊥ the maximum is `-⊥ = ⊤`, at ⊤ it is ⊤, and neither is below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, fraction 0) denotes +∞. -/
theorem ofBits_pos_inf : Ideal.ofBits .f32 0x7F800000#32 = (⊤ : EReal) := by
  simp [Ideal.ofBits, Ideal.ieee]

/-- One comparison bit `|x| < +∞` that is 1 says x is a real number. -/
theorem real_of_bit (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [ofBits_pos_inf] at h'
  simp only [Ideal.cmp] at h'
  by_contra hn
  simp [hn] at h'

/-- `all(|x| < +∞) = 1` over an array of any shape says every element is a real number. -/
theorem real_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1) (i : s.Idx) :
    ∃ r : ℝ, a i = (r : EReal) :=
  real_of_bit (a i) (Host.reduce_andi_all _ _ hr hu ValueIdx.ix0 h i)

/-- The precondition `finite_inputs` holding (its result bit is 1) says every element of every one of the six
    arguments is a real number. -/
theorem finite_of_pre (a0 : FVec Ideal Cert.Pre_finite_inputs.S256x64x1024 .f32)
    (a1 : FVec Ideal Cert.Pre_finite_inputs.S4096x1024 .f32) (a2 : FVec Ideal Cert.Pre_finite_inputs.S1024x1024 .f32)
    (a3 : FVec Ideal Cert.Pre_finite_inputs.S8x256 .f32) (a4 a5 : FVec Ideal Cert.Pre_finite_inputs.S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1, andi] at h0
  obtain ⟨h0123, h5⟩ := IntOp.andi_eq_one.1 h0
  obtain ⟨h012, h4⟩ := IntOp.andi_eq_one.1 h0123
  obtain ⟨h01, h3⟩ := IntOp.andi_eq_one.1 h012
  obtain ⟨h0', h2⟩ := IntOp.andi_eq_one.1 h01
  obtain ⟨h0'', h1⟩ := IntOp.andi_eq_one.1 h0'
  exact ⟨real_of_all _ _ _ a0 h0'', real_of_all _ _ _ a1 h1, real_of_all _ _ _ a2 h2,
         real_of_all _ _ _ a3 h3, real_of_all _ _ _ a4 h4, real_of_all _ _ _ a5 h5⟩

end Cert.Proof.PreFinite

end
-- ==== Proof.KernelBody.lean ====
import proofs.«168379_j15891378995467_2_alg».proof.Proof.Gen.KernelIdeal.Skeleton

/-!
# One batch row of one head, as pure functions

At a grid point (batch group, head) the kernel body treats the eight batch rows of its block one after the other,
each in the same way: the row `x` (256 positions by 1024 model features) is projected by the head's
query / key₁ / key₂ / value weights, the three first quarters pass the feature map
`φ(u) = f(u) / Σ_d f(u)`, `f(u) = u + 1` for `u > 0` and `exp u` otherwise, the two causal score matrices
`φ(q) φ(k)ᵀ` are masked below the diagonal and multiplied by the values, the two results are mixed with the
clipped weight `π` and scaled, and the head's output projection of the mix is ADDED to what the output block
holds for that row.  At the last head the row of the output block is then replaced by the LayerNorm of
(input row + accumulated row).  The definitions below are those two steps, operation by operation as the
kernel spells them, over any float instance.
-/

noncomputable section

namespace Cert.KernelIdeal.Body

open Cert.KernelIdeal Cert.KernelIdeal.Gen Idealize.ShloMosaic Idealize.SL.Sem

variable {F : FTy → Type} [FloatOps F]

/-- The causal mask: position `l` sees position `s` when `l ≥ s`. -/
def causal : IVec S256x256 1 :=
  cmpi .sge (iota .tc S256x256 32 [0] iota_S256x256_d0_w32) (iota .tc S256x256 32 [1] iota_S256x256_d1_w32)

/-- The head's mixing weights clipped to `[0, 1]`, one per position. -/
def mixw (p : Vec F S1x256x1 .f32) : FVec F S256x1 .f32 :=
  minimumf (broadcast S256x1 (Scalar.ofBits .f32 0x3F800000#32))
    (maximumf (broadcast S256x1 (Scalar.ofBits .f32 0x00000000#32)) (shapeCast S256x1 p shapeCasts_S1x256x1_S256x1))

/-- The unnormalised feature map `f`. -/
def feat (u : FVec F S256x128 .f32) : FVec F S256x128 .f32 :=
  select (cmpf .ogt u (broadcast S256x128 (Scalar.ofBits .f32 0x00000000#32)))
    (addf u (broadcast S256x128 (Scalar.ofBits .f32 0x3F800000#32))) (exp u)

/-- The feature map `φ`: `f` divided by its sum over the 128 features of the position. -/
def phi (u : FVec F S256x128 .f32) : FVec F S256x128 .f32 :=
  divf (feat u) (broadcastTo S256x128 (shapeCast S256x1
    (multiReduction .add [1] S256 (feat u) 0x00000000#32 reduces_S256x128_S256 (.inl rfl) rfl) shapeCasts_S256_S256x1)
    broadcasts_S256x1_S256x128)

/-- The row's four projections, side by side. -/
def proj (w : FVec F S1024x512 .bf16) (x : Vec F S256x1x1024 .f32) : FVec F S256x512 .f32 :=
  matmul dot_S256x1024_S1024x512_S256x512_1_0_0_1_n_n none
    (truncf .bf16 (shapeCast S256x1024 x shapeCasts_S256x1x1024_S256x1024) bitsLt_bf16_f32) w
    (constant S256x512 .f32 0x00000000#32)

/-- Masked causal scores times values: `(mask ∘ (a bᵀ)) v`. -/
def causalAttn (a b v : FVec F S256x128 .f32) : FVec F S256x128 .f32 :=
  matmul dot_S256x256_S256x128_S256x128_1_0_0_1_n_n none
    (truncf .bf16 (select causal
      (matmul dot_S256x128_S128x256_S256x256_1_0_0_1_n_n none (truncf .bf16 a bitsLt_bf16_f32)
        (transpose S128x256 [1, 0] (truncf .bf16 b bitsLt_bf16_f32) transposes_S256x128_p1_0_S128x256)
        (constant S256x256 .f32 0x00000000#32))
      (broadcast S256x256 (Scalar.ofBits .f32 0x00000000#32))) bitsLt_bf16_f32)
    (truncf .bf16 v bitsLt_bf16_f32) (constant S256x128 .f32 0x00000000#32)

/-- The head's contribution to the row: the output projection of the scaled mix of the two attentions. -/
def contrib (pi : FVec F S256x1 .f32) (w : FVec F S1024x512 .bf16) (wo : FVec F S128x1024 .bf16)
    (x : Vec F S256x1x1024 .f32) : FVec F S256x1024 .f32 :=
  let q := phi (extractStridedSlice S256x128 ![0, 0] (proj w x) slices_S256x512_o0_0_S256x128)
  let k1 := phi (extractStridedSlice S256x128 ![0, 128] (proj w x) slices_S256x512_o0_128_S256x128)
  let k2 := phi (extractStridedSlice S256x128 ![0, 256] (proj w x) slices_S256x512_o0_256_S256x128)
  let v := extractStridedSlice S256x128 ![0, 384] (proj w x) slices_S256x512_o0_384_S256x128
  matmul dot_S256x128_S128x1024_S256x1024_1_0_0_1_n_n none
    (truncf .bf16 (mulf (broadcast S256x128 (Scalar.ofBits .f32 0x3DB504F3#32))
      (addf (mulf (causalAttn q k1 v) (broadcastTo S256x128 pi broadcasts_S256x1_S256x128))
        (mulf (causalAttn q k2 v) (broadcastTo S256x128
          (subf (broadcast S256x1 (Scalar.ofBits .f32 0x3F800000#32)) pi) broadcasts_S256x1_S256x128))))
      bitsLt_bf16_f32)
    wo (constant S256x1024 .f32 0x00000000#32)

/-- What is stored for the row: what the output block held there, plus the contribution. -/
def accum (o : Vec F S256x1x1024 .f32) (cn : FVec F S256x1024 .f32) : FVec F S256x1x1024 .f32 :=
  shapeCast S256x1x1024 (addf (shapeCast S256x1024 o shapeCasts_S256x1x1024_S256x1024) cn)
    shapeCasts_S256x1024_S256x1x1024

/-- The last head's closing step for the row: LayerNorm of (input row + accumulated row) over the 1024 model
    features — mean and variance by sums divided by 1024, the centred row times the reciprocal square root of
    (variance + ε), scaled by `g` and shifted by `b`. -/
def lnorm (g b : Vec F S1024 .f32) (x o : Vec F S256x1x1024 .f32) : FVec F S256x1x1024 .f32 :=
  let s : FVec F S256x1024 .f32 := addf (shapeCast S256x1024 x shapeCasts_S256x1x1024_S256x1024)
    (shapeCast S256x1024 o shapeCasts_S256x1x1024_S256x1024)
  let mu : FVec F S256x1 .f32 := divf (shapeCast S256x1
    (multiReduction .add [1] S256 s 0x00000000#32 reduces_S256x1024_S256 (.inl rfl) rfl) shapeCasts_S256_S256x1)
    (broadcast S256x1 (Scalar.ofBits .f32 0x44800000#32))
  let d : FVec F S256x1024 .f32 := subf s (broadcastTo S256x1024 mu broadcasts_S256x1_S256x1024)
  let var : FVec F S256x1 .f32 := divf (shapeCast S256x1
    (multiReduction .add [1] S256 (mulf d d) 0x00000000#32 reduces_S256x1024_S256 (.inl rfl) rfl) shapeCasts_S256_S256x1)
    (broadcast S256x1 (Scalar.ofBits .f32 0x44800000#32))
  let r : FVec F S256x1 .f32 := rsqrt (addf var (broadcast S256x1 (Scalar.ofBits .f32 0x3727C5AC#32)))
  shapeCast S256x1x1024
    (addf (mulf (broadcastTo S256x1024 (shapeCast S1x1024 g shapeCasts_S1024_S1x1024) broadcasts_S1x1024_S256x1024)
        (mulf d (broadcastTo S256x1024 r broadcasts_S256x1_S256x1024)))
      (broadcastTo S256x1024 (shapeCast S1x1024 b shapeCasts_S1024_S1x1024) broadcasts_S1x1024_S256x1024))
    shapeCasts_S256x1024_S256x1x1024

end Cert.KernelIdeal.Body

end
-- ==== Proof.KernelMatmul.lean ====
import proofs.«168379_j15891378995467_2_alg».proof.Proof.KernelBody
import Idealize.ShloMosaic.PureOps.Ideal.Laws
import Idealize.ShloMosaic.Lib.ValueIdx

/-!
# The kernel's four matrix products, entry by entry

Over the extended reals a matrix product into a zero accumulator is the plain sum over the contracted index of
the products of the two operands' entries, whatever the format of the operands.
-/

noncomputable section

open scoped BigOperators

namespace Cert.KernelIdeal.Read

open Cert.KernelIdeal Cert.KernelIdeal.Gen Cert.KernelIdeal.Body Idealize.ShloMosaic Idealize.ShloMosaic.ValueIdx

theorem mm_proj (lhs : FVec Ideal S256x1024 .bf16) (rhs : FVec Ideal S1024x512 .bf16) (i : Fin 256) (j : Fin 512) :
    matmul dot_S256x1024_S1024x512_S256x512_1_0_0_1_n_n none lhs rhs (constant S256x512 .f32 0x00000000#32) (ix2 i j)
      = ∑ k : Fin 1024, lhs (ix2 i k) * rhs (ix2 k j) := by
  refine (Ideal.matmul_constant_zero_apply dot_S256x1024_S1024x512_S256x512_1_0_0_1_n_n none lhs rhs (ix2 i j)).trans ?_
  rw [← Equiv.sum_comp (contrEquiv1 dot_S256x1024_S1024x512_S256x512_1_0_0_1_n_n 1024 rfl rfl).symm]
  refine Finset.sum_congr rfl fun k _ => ?_
  have hl : (dot_S256x1024_S1024x512_S256x512_1_0_0_1_n_n).lhsIdx (ix2 i j) ((contrEquiv1 dot_S256x1024_S1024x512_S256x512_1_0_0_1_n_n 1024 rfl rfl).symm k) = ix2 i k := by
    funext a; apply Fin.ext
    match a with
    | ⟨0, _⟩ => simp [DotDims.lhsIdx, dot_S256x1024_S1024x512_S256x512_1_0_0_1_n_n]; rfl
    | ⟨1, _⟩ => exact ((dot_S256x1024_S1024x512_S256x512_1_0_0_1_n_n).lhsIdx_val_of_single (cl := 1) rfl _ _).trans (contrEquiv1_symm_val dot_S256x1024_S1024x512_S256x512_1_0_0_1_n_n 1024 rfl rfl k)
  have hr : (dot_S256x1024_S1024x512_S256x512_1_0_0_1_n_n).rhsIdx (ix2 i j) ((contrEquiv1 dot_S256x1024_S1024x512_S256x512_1_0_0_1_n_n 1024 rfl rfl).symm k) = ix2 k j := by
    funext a; apply Fin.ext
    match a with
    | ⟨0, _⟩ => exact ((dot_S256x1024_S1024x512_S256x512_1_0_0_1_n_n).rhsIdx_val_of_single (cr := 0) rfl _ _).trans (contrEquiv1_symm_val dot_S256x1024_S1024x512_S256x512_1_0_0_1_n_n 1024 rfl rfl k)
    | ⟨1, _⟩ => simp [DotDims.rhsIdx, dot_S256x1024_S1024x512_S256x512_1_0_0_1_n_n]; rfl
  rw [hl, hr]

theorem mm_score (lhs : FVec Ideal S256x128 .bf16) (rhs : FVec Ideal S128x256 .bf16) (i : Fin 256) (j : Fin 256) :
    matmul dot_S256x128_S128x256_S256x256_1_0_0_1_n_n none lhs rhs (constant S256x256 .f32 0x00000000#32) (ix2 i j)
      = ∑ k : Fin 128, lhs (ix2 i k) * rhs (ix2 k j) := by
  refine (Ideal.matmul_constant_zero_apply dot_S256x128_S128x256_S256x256_1_0_0_1_n_n none lhs rhs (ix2 i j)).trans ?_
  rw [← Equiv.sum_comp (contrEquiv1 dot_S256x128_S128x256_S256x256_1_0_0_1_n_n 128 rfl rfl).symm]
  refine Finset.sum_congr rfl fun k _ => ?_
  have hl : (dot_S256x128_S128x256_S256x256_1_0_0_1_n_n).lhsIdx (ix2 i j) ((contrEquiv1 dot_S256x128_S128x256_S256x256_1_0_0_1_n_n 128 rfl rfl).symm k) = ix2 i k := by
    funext a; apply Fin.ext
    match a with
    | ⟨0, _⟩ => simp [DotDims.lhsIdx, dot_S256x128_S128x256_S256x256_1_0_0_1_n_n]; rfl
    | ⟨1, _⟩ => exact ((dot_S256x128_S128x256_S256x256_1_0_0_1_n_n).lhsIdx_val_of_single (cl := 1) rfl _ _).trans (contrEquiv1_symm_val dot_S256x128_S128x256_S256x256_1_0_0_1_n_n 128 rfl rfl k)
  have hr : (dot_S256x128_S128x256_S256x256_1_0_0_1_n_n).rhsIdx (ix2 i j) ((contrEquiv1 dot_S256x128_S128x256_S256x256_1_0_0_1_n_n 128 rfl rfl).symm k) = ix2 k j := by
    funext a; apply Fin.ext
    match a with
    | ⟨0, _⟩ => exact ((dot_S256x128_S128x256_S256x256_1_0_0_1_n_n).rhsIdx_val_of_single (cr := 0) rfl _ _).trans (contrEquiv1_symm_val dot_S256x128_S128x256_S256x256_1_0_0_1_n_n 128 rfl rfl k)
    | ⟨1, _⟩ => simp [DotDims.rhsIdx, dot_S256x128_S128x256_S256x256_1_0_0_1_n_n]; rfl
  rw [hl, hr]

theorem mm_att (lhs : FVec Ideal S256x256 .bf16) (rhs : FVec Ideal S256x128 .bf16) (i : Fin 256) (j : Fin 128) :
    matmul dot_S256x256_S256x128_S256x128_1_0_0_1_n_n none lhs rhs (constant S256x128 .f32 0x00000000#32) (ix2 i j)
      = ∑ k : Fin 256, lhs (ix2 i k) * rhs (ix2 k j) := by
  refine (Ideal.matmul_constant_zero_apply dot_S256x256_S256x128_S256x128_1_0_0_1_n_n none lhs rhs (ix2 i j)).trans ?_
  rw [← Equiv.sum_comp (contrEquiv1 dot_S256x256_S256x128_S256x128_1_0_0_1_n_n 256 rfl rfl).symm]
  refine Finset.sum_congr rfl fun k _ => ?_
  have hl : (dot_S256x256_S256x128_S256x128_1_0_0_1_n_n).lhsIdx (ix2 i j) ((contrEquiv1 dot_S256x256_S256x128_S256x128_1_0_0_1_n_n 256 rfl rfl).symm k) = ix2 i k := by
    funext a; apply Fin.ext
    match a with
    | ⟨0, _⟩ => simp [DotDims.lhsIdx, dot_S256x256_S256x128_S256x128_1_0_0_1_n_n]; rfl
    | ⟨1, _⟩ => exact ((dot_S256x256_S256x128_S256x128_1_0_0_1_n_n).lhsIdx_val_of_single (cl := 1) rfl _ _).trans (contrEquiv1_symm_val dot_S256x256_S256x128_S256x128_1_0_0_1_n_n 256 rfl rfl k)
  have hr : (dot_S256x256_S256x128_S256x128_1_0_0_1_n_n).rhsIdx (ix2 i j) ((contrEquiv1 dot_S256x256_S256x128_S256x128_1_0_0_1_n_n 256 rfl rfl).symm k) = ix2 k j := by
    funext a; apply Fin.ext
    match a with
    | ⟨0, _⟩ => exact ((dot_S256x256_S256x128_S256x128_1_0_0_1_n_n).rhsIdx_val_of_single (cr := 0) rfl _ _).trans (contrEquiv1_symm_val dot_S256x256_S256x128_S256x128_1_0_0_1_n_n 256 rfl rfl k)
    | ⟨1, _⟩ => simp [DotDims.rhsIdx, dot_S256x256_S256x128_S256x128_1_0_0_1_n_n]; rfl
  rw [hl, hr]

theorem mm_out (lhs : FVec Ideal S256x128 .bf16) (rhs : FVec Ideal S128x1024 .bf16) (i : Fin 256) (j : Fin 1024) :
    matmul dot_S256x128_S128x1024_S256x1024_1_0_0_1_n_n none lhs rhs (constant S256x1024 .f32 0x00000000#32) (ix2 i j)
      = ∑ k : Fin 128, lhs (ix2 i k) * rhs (ix2 k j) := by
  refine (Ideal.matmul_constant_zero_apply dot_S256x128_S128x1024_S256x1024_1_0_0_1_n_n none lhs rhs (ix2 i j)).trans ?_
  rw [← Equiv.sum_comp (contrEquiv1 dot_S256x128_S128x1024_S256x1024_1_0_0_1_n_n 128 rfl rfl).symm]
  refine Finset.sum_congr rfl fun k _ => ?_
  have hl : (dot_S256x128_S128x1024_S256x1024_1_0_0_1_n_n).lhsIdx (ix2 i j) ((contrEquiv1 dot_S256x128_S128x1024_S256x1024_1_0_0_1_n_n 128 rfl rfl).symm k) = ix2 i k := by
    funext a; apply Fin.ext
    match a with
    | ⟨0, _⟩ => simp [DotDims.lhsIdx, dot_S256x128_S128x1024_S256x1024_1_0_0_1_n_n]; rfl
    | ⟨1, _⟩ => exact ((dot_S256x128_S128x1024_S256x1024_1_0_0_1_n_n).lhsIdx_val_of_single (cl := 1) rfl _ _).trans (contrEquiv1_symm_val dot_S256x128_S128x1024_S256x1024_1_0_0_1_n_n 128 rfl rfl k)
  have hr : (dot_S256x128_S128x1024_S256x1024_1_0_0_1_n_n).rhsIdx (ix2 i j) ((contrEquiv1 dot_S256x128_S128x1024_S256x1024_1_0_0_1_n_n 128 rfl rfl).symm k) = ix2 k j := by
    funext a; apply Fin.ext
    match a with
    | ⟨0, _⟩ => exact ((dot_S256x128_S128x1024_S256x1024_1_0_0_1_n_n).rhsIdx_val_of_single (cr := 0) rfl _ _).trans (contrEquiv1_symm_val dot_S256x128_S128x1024_S256x1024_1_0_0_1_n_n 128 rfl rfl k)
    | ⟨1, _⟩ => simp [DotDims.rhsIdx, dot_S256x128_S128x1024_S256x1024_1_0_0_1_n_n]; rfl
  rw [hl, hr]

end Cert.KernelIdeal.Read

end
-- ==== Proof.KernelRead.lean ====
import proofs.«168379_j15891378995467_2_alg».proof.Proof.KernelMatmul
import proofs.«168379_j15891378995467_2_alg».proof.Proof.Spec
import Idealize.ShloMosaic.Lib.Pipeline.Value
import Idealize.ShloMosaic.Lib.ValueLayout

/-!
# The row's operations, entry by entry, over the extended reals

Each vector operation of the row's treatment is read at one entry: the layout operations move indices, the
arithmetic ones are the extended reals' own, a matrix product is a sum over the contracted index, a lane sum
is a sum over the 128 (or 1024) features of the position.
-/

noncomputable section

open scoped BigOperators

namespace Cert.KernelIdeal.Read

open Cert.KernelIdeal Cert.KernelIdeal.Gen Cert.KernelIdeal.Body Idealize.ShloMosaic Idealize.ShloMosaic.ValueIdx

/-- A row block seen as a matrix. -/
theorem cast_row (x : Vec Ideal S256x1x1024 .f32) (l : Fin 256) (k : Fin 1024) :
    shapeCast S256x1024 x shapeCasts_S256x1x1024_S256x1024 (ix2 l k) = x (ix3 l 0 k) :=
  shapeCast_apply x _ _ _ (by
    rw [Shape.rowMajor_val_three, Shape.rowMajor_val_two]
    show (l.val * 1 + 0) * 1024 + k.val = l.val * 1024 + k.val
    omega)

/-- … and a matrix as a row block. -/
theorem cast_row_back (x : FVec Ideal S256x1024 .f32) (l : Fin 256) (k : Fin 1024) :
    shapeCast S256x1x1024 x shapeCasts_S256x1024_S256x1x1024 (ix3 l 0 k) = x (ix2 l k) :=
  shapeCast_apply x _ _ _ (by
    rw [Shape.rowMajor_val_three, Shape.rowMajor_val_two]
    show l.val * 1024 + k.val = (l.val * 1 + 0) * 1024 + k.val
    omega)

/-- The row's fused projection: position `l`, column `c`. -/
theorem proj_apply (w : FVec Ideal S1024x512 .bf16) (x : Vec Ideal S256x1x1024 .f32) (l : Fin 256) (c : Fin 512) :
    proj w x (ix2 l c) = ∑ k : Fin 1024, x (ix3 l 0 k) * w (ix2 k c) := by
  unfold proj
  refine (mm_proj _ _ l c).trans (Finset.sum_congr rfl fun k _ => ?_)
  exact congrArg (fun z => z * w (ix2 k c)) (cast_row x l k)

/-- A 128-wide slice of the projection. -/
theorem slice_apply (off : ℕ) (v : FVec Ideal S256x512 .f32) (h : S256x512.Slices ![0, off] S256x128)
    (hoff : off + 128 ≤ 512) (l : Fin 256) (d : Fin 128) :
    extractStridedSlice S256x128 ![0, off] v h (ix2 l d) = v (ix2 l ⟨off + d.val, by omega⟩) :=
  extractStridedSlice_apply _ v h _ _ (fun a => match a with
    | ⟨0, _⟩ => by show l.val = 0 + l.val; omega
    | ⟨1, _⟩ => rfl)

/-- A select on "greater than zero" is the case distinction. -/
theorem select_ogt (a x y : EReal) :
    Scalar.select (FloatOps.cmpf (F := Ideal) (φ := .f32) .ogt a Spec.c0) x y = if Spec.c0 < a then x else y := by
  by_cases h : Spec.c0 < a <;> simp [Scalar.select, Ideal.cmpf_def, Ideal.cmp, h]

/-- The feature map at an entry. -/
theorem feat_apply (u : FVec Ideal S256x128 .f32) (i : S256x128.Idx) : feat u i = Spec.featK (u i) :=
  select_ogt (u i) _ _

/-- A position's sum over its 128 features, broadcast back over them. -/
theorem rowsum128 (f : FVec Ideal S256x128 .f32) (l : Fin 256) (d : Fin 128) :
    broadcastTo S256x128 (shapeCast S256x1
      (multiReduction .add [1] S256 f 0x00000000#32 reduces_S256x128_S256 (.inl rfl) rfl) shapeCasts_S256_S256x1)
      broadcasts_S256x1_S256x128 (ix2 l d) = ∑ d' : Fin 128, f (ix2 l d') := by
  refine (broadcastTo_apply _ _ (ix2 l d) (ix2 l (0 : Fin 1)) (fun a => match a with
    | ⟨0, _⟩ => rfl
    | ⟨1, _⟩ => rfl)).trans ?_
  refine (shapeCast_apply _ _ (ix2 l (0 : Fin 1)) (ix1 l) (by
    rw [Shape.rowMajor_val_one, Shape.rowMajor_val_two]
    show l.val = l.val * 1 + 0
    omega)).trans ?_
  refine (Ideal.multiReduction_add_single f 0x00000000#32 reduces_S256x128_S256 (.inl rfl) rfl (ix1 l)).trans ?_
  refine Finset.sum_congr rfl fun k _ => congrArg f ?_
  funext a
  match a with
  | ⟨0, _⟩ => rfl
  | ⟨1, _⟩ => rfl

/-- The normalised feature map at an entry. -/
theorem phi_apply (u : FVec Ideal S256x128 .f32) (l : Fin 256) (d : Fin 128) :
    phi u (ix2 l d) = Ideal.div (Spec.featK (u (ix2 l d))) (∑ d' : Fin 128, Spec.featK (u (ix2 l d'))) := by
  unfold phi
  show Ideal.div (feat u (ix2 l d)) _ = _
  rw [rowsum128 (feat u) l d, feat_apply]
  exact congrArg _ (Finset.sum_congr rfl fun d' _ => feat_apply u _)

/-! ## The causal mask -/

theorem toInt_small (n : ℕ) (h : n < 256) : (BitVec.ofNat 32 n).toInt = (n : ℤ) := by
  rw [BitVec.toInt_eq_toNat_of_lt (by rw [BitVec.toNat_ofNat]; omega), BitVec.toNat_ofNat]
  omega

theorem ofBool_one {b : Bool} : BitVec.ofBool b = 1#1 ↔ b = true := by cases b <;> decide

/-- The mask bit at (l, s) is set exactly when `s ≤ l`. -/
theorem causal_one_iff (l s : Fin 256) : causal (ix2 l s) = 1#1 ↔ s.val ≤ l.val := by
  unfold causal
  show IntOp.cmpi .sge (iota .tc S256x256 32 [0] iota_S256x256_d0_w32 (ix2 l s))
    (iota .tc S256x256 32 [1] iota_S256x256_d1_w32 (ix2 l s)) = 1#1 ↔ _
  rw [iota_single_apply, iota_single_apply]
  show IntOp.cmpi .sge (BitVec.ofNat 32 l.val) (BitVec.ofNat 32 s.val) = 1#1 ↔ _
  simp only [IntOp.cmpi, ofBool_one, BitVec.sle_iff_toInt_le, toInt_small _ l.isLt, toInt_small _ s.isLt]
  omega

theorem select_causal (l s : Fin 256) (x y : EReal) :
    Scalar.select (causal (ix2 l s)) x y = if s.val ≤ l.val then x else y := by
  unfold Scalar.select
  have e : causal (ix2 l s) = 1 ↔ s.val ≤ l.val := causal_one_iff l s
  by_cases h : s.val ≤ l.val
  · rw [if_pos (e.mpr h), if_pos h]
  · rw [if_neg (fun e' => h (e.mp e')), if_neg h]

/-- Masked scores times values, at an entry. -/
theorem causalAttn_apply (a b v : FVec Ideal S256x128 .f32) (l : Fin 256) (d : Fin 128) :
    causalAttn a b v (ix2 l d)
      = ∑ s : Fin 256, (if s.val ≤ l.val then ∑ d' : Fin 128, a (ix2 l d') * b (ix2 s d') else Spec.c0) * v (ix2 s d) := by
  unfold causalAttn
  refine (mm_att _ _ l d).trans (Finset.sum_congr rfl fun s _ => ?_)
  refine congrArg (fun z => z * v (ix2 s d)) ?_
  refine (select_causal l s _ _).trans ?_
  refine if_congr Iff.rfl ?_ rfl
  refine (mm_score _ _ l s).trans (Finset.sum_congr rfl fun d' _ => ?_)
  exact congrArg (fun z => a (ix2 l d') * z) (transpose_ix2_apply _ _ d' s)

/-- A position's column entry broadcast over the features. -/
theorem bcast_col128 (p : FVec Ideal S256x1 .f32) (l : Fin 256) (d : Fin 128) :
    broadcastTo S256x128 p broadcasts_S256x1_S256x128 (ix2 l d) = p (ix2 l (0 : Fin 1)) :=
  broadcastTo_apply _ _ (ix2 l d) (ix2 l (0 : Fin 1)) (fun a => match a with
    | ⟨0, _⟩ => rfl
    | ⟨1, _⟩ => rfl)

/-- The head's contribution to the row at an entry: the output projection of the scaled mix. -/
theorem contrib_apply (pi : FVec Ideal S256x1 .f32) (w : FVec Ideal S1024x512 .bf16) (wo : FVec Ideal S128x1024 .bf16)
    (x : Vec Ideal S256x1x1024 .f32) (l : Fin 256) (mm : Fin 1024) :
    contrib pi w wo x (ix2 l mm)
      = ∑ d : Fin 128,
          (Spec.cs *
            (causalAttn (phi (extractStridedSlice S256x128 ![0, 0] (proj w x) slices_S256x512_o0_0_S256x128))
                (phi (extractStridedSlice S256x128 ![0, 128] (proj w x) slices_S256x512_o0_128_S256x128))
                (extractStridedSlice S256x128 ![0, 384] (proj w x) slices_S256x512_o0_384_S256x128) (ix2 l d)
                * pi (ix2 l (0 : Fin 1))
             + causalAttn (phi (extractStridedSlice S256x128 ![0, 0] (proj w x) slices_S256x512_o0_0_S256x128))
                (phi (extractStridedSlice S256x128 ![0, 256] (proj w x) slices_S256x512_o0_256_S256x128))
                (extractStridedSlice S256x128 ![0, 384] (proj w x) slices_S256x512_o0_384_S256x128) (ix2 l d)
                * (Spec.c1 - pi (ix2 l (0 : Fin 1))))) * wo (ix2 d mm) := by
  unfold contrib
  refine (mm_out _ _ l mm).trans (Finset.sum_congr rfl fun d _ => ?_)
  refine congrArg (fun z => z * wo (ix2 d mm)) ?_
  show Spec.cs * (_ * broadcastTo S256x128 pi broadcasts_S256x1_S256x128 (ix2 l d)
    + _ * broadcastTo S256x128 (subf (broadcast S256x1 (Scalar.ofBits .f32 0x3F800000#32)) pi) broadcasts_S256x1_S256x128 (ix2 l d)) = _
  rw [bcast_col128, bcast_col128]
  rfl

end Cert.KernelIdeal.Read

end
-- ==== Proof.KernelReadLN.lean ====
import proofs.«168379_j15891378995467_2_alg».proof.Proof.KernelRead

/-!
# The mixing weight, the accumulation and the LayerNorm, entry by entry, over the extended reals

The clipped mixing weight of a position is `min 1 (max 0 p)`; the accumulation adds the contribution to what the
row held; the closing LayerNorm of a row `X = x + o` is, at feature `m`,
`g m · ((X m − mean X) · rsqrt (var X + ε)) + b m` with `mean X = (Σ X) / 1024` and
`var X = (Σ (X − mean X)²) / 1024`: the lane sums over the 1024 features are read as finite sums, the layout
operations (casts between a row block and a matrix, a column or a row broadcast over the matrix) move indices only.
-/

noncomputable section

open scoped BigOperators

namespace Cert.KernelIdeal.ReadLN

open Cert.KernelIdeal Cert.KernelIdeal.Gen Cert.KernelIdeal.Body Idealize.ShloMosaic Idealize.ShloMosaic.ValueIdx
open Cert.KernelIdeal.Read

/-- The clipped mixing weight of position `l`. -/
theorem mixw_apply (p : Vec Ideal S1x256x1 .f32) (l : Fin 256) :
    mixw p (ix2 l (0 : Fin 1)) = min Spec.c1 (max Spec.c0 (p (ix3 (0 : Fin 1) l (0 : Fin 1)))) := by
  show min Spec.c1 (max Spec.c0 (shapeCast S256x1 p shapeCasts_S1x256x1_S256x1 (ix2 l (0 : Fin 1)))) = _
  refine congrArg (fun z => min Spec.c1 (max Spec.c0 z)) ?_
  exact shapeCast_apply p _ _ _ (by
    rw [Shape.rowMajor_val_three, Shape.rowMajor_val_two]
    show (0 * 256 + l.val) * 1 + 0 = l.val * 1 + 0
    omega)

/-- The accumulated row at an entry: what the row held plus the contribution. -/
theorem accum_apply (o : Vec Ideal S256x1x1024 .f32) (cn : FVec Ideal S256x1024 .f32) (l : Fin 256) (mm : Fin 1024) :
    accum o cn (ix3 l (0 : Fin 1) mm) = o (ix3 l (0 : Fin 1) mm) + cn (ix2 l mm) := by
  unfold accum
  refine (cast_row_back _ l mm).trans ?_
  show shapeCast S256x1024 o shapeCasts_S256x1x1024_S256x1024 (ix2 l mm) + cn (ix2 l mm) = _
  rw [cast_row]

/-- A position's sum over its 1024 features, in the keep-dims column. -/
theorem rowsum1024 (f : FVec Ideal S256x1024 .f32) (l : Fin 256) :
    shapeCast S256x1 (multiReduction .add [1] S256 f 0x00000000#32 reduces_S256x1024_S256 (.inl rfl) rfl)
      shapeCasts_S256_S256x1 (ix2 l (0 : Fin 1)) = ∑ k : Fin 1024, f (ix2 l k) := by
  refine (shapeCast_apply _ _ (ix2 l (0 : Fin 1)) (ix1 l) (by
    rw [Shape.rowMajor_val_one, Shape.rowMajor_val_two]
    show l.val = l.val * 1 + 0
    omega)).trans ?_
  refine (Ideal.multiReduction_add_single f 0x00000000#32 reduces_S256x1024_S256 (.inl rfl) rfl (ix1 l)).trans ?_
  refine Finset.sum_congr rfl fun k _ => congrArg f ?_
  funext a
  match a with
  | ⟨0, _⟩ => rfl
  | ⟨1, _⟩ => rfl

/-- A column broadcast over the 1024 features reads the column at the position. -/
theorem bcast_col (c : FVec Ideal S256x1 .f32) (l : Fin 256) (k : Fin 1024) :
    broadcastTo S256x1024 c broadcasts_S256x1_S256x1024 (ix2 l k) = c (ix2 l (0 : Fin 1)) :=
  broadcastTo_apply _ _ (ix2 l k) (ix2 l (0 : Fin 1)) (fun a => match a with
    | ⟨0, _⟩ => rfl
    | ⟨1, _⟩ => rfl)

/-- A feature vector seen as one row and broadcast over the 256 positions reads the vector at the feature. -/
theorem bcast_row (v : Vec Ideal S1024 .f32) (l : Fin 256) (k : Fin 1024) :
    broadcastTo S256x1024 (shapeCast S1x1024 v shapeCasts_S1024_S1x1024) broadcasts_S1x1024_S256x1024 (ix2 l k)
      = v (ix1 k) := by
  refine (broadcastTo_apply _ _ (ix2 l k) (ix2 (0 : Fin 1) k) (fun a => match a with
    | ⟨0, _⟩ => rfl
    | ⟨1, _⟩ => rfl)).trans ?_
  exact shapeCast_a_1a_apply v _ (0 : Fin 1) k

/-- The closing LayerNorm of the row at an entry is the LayerNorm of (input row + accumulated row). -/
theorem lnorm_spec (g b : Vec Ideal S1024 .f32) (x o : Vec Ideal S256x1x1024 .f32) (l : Fin 256) (mm : Fin 1024) :
    lnorm g b x o (ix3 l (0 : Fin 1) mm)
      = Spec.lnK (fun k => g (ix1 k)) (fun k => b (ix1 k))
          (fun k => x (ix3 l (0 : Fin 1) k) + o (ix3 l (0 : Fin 1) k)) mm := by
  -- the row X = x + o, as the kernel's matrix `s` holds it
  let s : FVec Ideal S256x1024 .f32 := addf (shapeCast S256x1024 x shapeCasts_S256x1x1024_S256x1024)
    (shapeCast S256x1024 o shapeCasts_S256x1x1024_S256x1024)
  let mu : FVec Ideal S256x1 .f32 := divf (shapeCast S256x1
    (multiReduction .add [1] S256 s 0x00000000#32 reduces_S256x1024_S256 (.inl rfl) rfl) shapeCasts_S256_S256x1)
    (broadcast S256x1 (Scalar.ofBits .f32 0x44800000#32))
  let d : FVec Ideal S256x1024 .f32 := subf s (broadcastTo S256x1024 mu broadcasts_S256x1_S256x1024)
  let var : FVec Ideal S256x1 .f32 := divf (shapeCast S256x1
    (multiReduction .add [1] S256 (mulf d d) 0x00000000#32 reduces_S256x1024_S256 (.inl rfl) rfl) shapeCasts_S256_S256x1)
    (broadcast S256x1 (Scalar.ofBits .f32 0x44800000#32))
  let r : FVec Ideal S256x1 .f32 := rsqrt (addf var (broadcast S256x1 (Scalar.ofBits .f32 0x3727C5AC#32)))
  let X : Fin 1024 → EReal := fun k => x (ix3 l (0 : Fin 1) k) + o (ix3 l (0 : Fin 1) k)
  have hs : ∀ k, s (ix2 l k) = X k := fun k => by
    show shapeCast S256x1024 x shapeCasts_S256x1x1024_S256x1024 (ix2 l k)
      + shapeCast S256x1024 o shapeCasts_S256x1x1024_S256x1024 (ix2 l k) = _
    rw [cast_row, cast_row]
  have hmu : mu (ix2 l (0 : Fin 1)) = Spec.mean X := by
    show Ideal.div (shapeCast S256x1 (multiReduction .add [1] S256 s 0x00000000#32 reduces_S256x1024_S256 (.inl rfl) rfl)
      shapeCasts_S256_S256x1 (ix2 l (0 : Fin 1))) Spec.cn = _
    rw [rowsum1024 s l]
    exact congrArg (fun z => Ideal.div z Spec.cn) (Finset.sum_congr rfl fun k _ => hs k)
  have hd : ∀ k, d (ix2 l k) = X k - Spec.mean X := fun k => by
    show s (ix2 l k) - broadcastTo S256x1024 mu broadcasts_S256x1_S256x1024 (ix2 l k) = _
    rw [bcast_col, hs, hmu]
  have hvar : var (ix2 l (0 : Fin 1)) = Spec.var X := by
    show Ideal.div (shapeCast S256x1 (multiReduction .add [1] S256 (mulf d d) 0x00000000#32 reduces_S256x1024_S256 (.inl rfl) rfl)
      shapeCasts_S256_S256x1 (ix2 l (0 : Fin 1))) Spec.cn = _
    rw [rowsum1024 (mulf d d) l]
    refine congrArg (fun z => Ideal.div z Spec.cn) (Finset.sum_congr rfl fun k _ => ?_)
    show d (ix2 l k) * d (ix2 l k) = _
    rw [hd]
  have hr : r (ix2 l (0 : Fin 1)) = Ideal.rsqrt (Spec.var X + Spec.ce) := by
    show Ideal.rsqrt (var (ix2 l (0 : Fin 1)) + Spec.ce) = _
    rw [hvar]
  show shapeCast S256x1x1024
    (addf (mulf (broadcastTo S256x1024 (shapeCast S1x1024 g shapeCasts_S1024_S1x1024) broadcasts_S1x1024_S256x1024)
        (mulf d (broadcastTo S256x1024 r broadcasts_S256x1_S256x1024)))
      (broadcastTo S256x1024 (shapeCast S1x1024 b shapeCasts_S1024_S1x1024) broadcasts_S1x1024_S256x1024))
    shapeCasts_S256x1024_S256x1x1024 (ix3 l (0 : Fin 1) mm) = _
  refine (cast_row_back _ l mm).trans ?_
  show broadcastTo S256x1024 (shapeCast S1x1024 g shapeCasts_S1024_S1x1024) broadcasts_S1x1024_S256x1024 (ix2 l mm)
      * (d (ix2 l mm) * broadcastTo S256x1024 r broadcasts_S256x1_S256x1024 (ix2 l mm))
    + broadcastTo S256x1024 (shapeCast S1x1024 b shapeCasts_S1024_S1x1024) broadcasts_S1x1024_S256x1024 (ix2 l mm) = _
  rw [bcast_row, bcast_row, bcast_col, hd, hr]
  rfl

end Cert.KernelIdeal.ReadLN

end
-- ==== Proof.KernelSpec.lean ====
import proofs.«168379_j15891378995467_2_alg».proof.Proof.KernelRead
import proofs.«168379_j15891378995467_2_alg».proof.Proof.KernelReadLN

/-!
# The row's treatment is the layer's mathematics

Read at an entry over the extended reals, the head's contribution to a row is the head's part of the output
projection (`Spec.headc`), the accumulation is an addition, and the closing step is the LayerNorm
(`Spec.lnK`) of input row plus accumulated row — given what the row block, the head's weight blocks and the
head's mixing weights hold.
-/

noncomputable section

open scoped BigOperators

namespace Cert.KernelIdeal.Read

open Cert.KernelIdeal Cert.KernelIdeal.Gen Cert.KernelIdeal.Body Idealize.ShloMosaic Idealize.ShloMosaic.ValueIdx

/-- The clipped mixing weight of a position. -/
theorem mixw_apply (p : Vec Ideal S1x256x1 .f32) (l : Fin 256) :
    mixw p (ix2 l (0 : Fin 1)) = min Spec.c1 (max Spec.c0 (p (ix3 (0 : Fin 1) l (0 : Fin 1)))) :=
  ReadLN.mixw_apply p l

/-- The accumulation at an entry: what the row held plus the contribution. -/
theorem accum_apply (o : Vec Ideal S256x1x1024 .f32) (cn : FVec Ideal S256x1024 .f32) (l : Fin 256) (mm : Fin 1024) :
    accum o cn (ix3 l (0 : Fin 1) mm) = o (ix3 l (0 : Fin 1) mm) + cn (ix2 l mm) :=
  ReadLN.accum_apply o cn l mm

section Contribution

variable (H : Fin 256 → Fin 64 → Fin 1024 → EReal) (WQ : Fin 4096 → Fin 1024 → EReal)
  (WO : Fin 1024 → Fin 1024 → EReal) (P : Fin 8 → Fin 256 → EReal) (b : Fin 64) (hd : Fin 8)
  (w : FVec Ideal S1024x512 .bf16) (x : Vec Ideal S256x1x1024 .f32)
  (hx : ∀ (l : Fin 256) (k : Fin 1024), x (ix3 l (0 : Fin 1) k) = H l b k)
  (hw : ∀ (k : Fin 1024) (c : Fin 512), w (ix2 k c) = WQ ⟨hd.val * 512 + c.val, by omega⟩ k)

include hx hw

/-- A 128-wide slice of the row's projection is the layer's projection at the head's column of that part. -/
theorem slice_proj (off : ℕ) (hoff : off + 128 ≤ 512) (h : S256x512.Slices ![0, off] S256x128) (q : Fin 4)
    (hq : q.val * 128 = off) (l : Fin 256) (d : Fin 128) :
    extractStridedSlice S256x128 ![0, off] (proj w x) h (ix2 l d) = Spec.proj H WQ l b (Spec.col hd q d) := by
  rw [slice_apply off _ h hoff l d, proj_apply]
  unfold Spec.proj
  refine Finset.sum_congr rfl fun k _ => ?_
  rw [hx l k, hw k _]
  refine congrArg (fun n => H l b k * WQ n k) (Fin.ext ?_)
  show hd.val * 512 + (off + d.val) = hd.val * 512 + q.val * 128 + d.val
  omega

/-- … and through the feature map, normalised. -/
theorem phi_slice (off : ℕ) (hoff : off + 128 ≤ 512) (h : S256x512.Slices ![0, off] S256x128) (q : Fin 4)
    (hq : q.val * 128 = off) (l : Fin 256) (d : Fin 128) :
    phi (extractStridedSlice S256x128 ![0, off] (proj w x) h) (ix2 l d) = Spec.phiP Spec.featK H WQ q l b hd d := by
  rw [phi_apply]
  unfold Spec.phiP
  rw [slice_proj H WQ b hd w x hx hw off hoff h q hq l d]
  refine congrArg _ (Finset.sum_congr rfl fun d' _ => ?_)
  rw [slice_proj H WQ b hd w x hx hw off hoff h q hq l d']

/-- The causal attention for key part `q`. -/
theorem attn_spec (off : ℕ) (hoff : off + 128 ≤ 512) (h : S256x512.Slices ![0, off] S256x128) (q : Fin 4)
    (hq : q.val * 128 = off) (l : Fin 256) (d : Fin 128) :
    causalAttn (phi (extractStridedSlice S256x128 ![0, 0] (proj w x) slices_S256x512_o0_0_S256x128))
        (phi (extractStridedSlice S256x128 ![0, off] (proj w x) h))
        (extractStridedSlice S256x128 ![0, 384] (proj w x) slices_S256x512_o0_384_S256x128) (ix2 l d)
      = Spec.att Spec.featK H WQ q l b hd d := by
  rw [causalAttn_apply]
  unfold Spec.att Spec.score Spec.val
  refine Finset.sum_congr rfl fun s _ => ?_
  rw [slice_proj H WQ b hd w x hx hw 384 (by omega) _ 3 rfl s d]
  refine congrArg (fun z => z * _) (if_congr Iff.rfl (Finset.sum_congr rfl fun d' _ => ?_) rfl)
  rw [phi_slice H WQ b hd w x hx hw 0 (by omega) _ 0 rfl l d', phi_slice H WQ b hd w x hx hw off hoff h q hq s d']

end Contribution

/-- The head's contribution to batch row `b` at (position `l`, model feature `mm`) is head `hd`'s part of the output
    projection, when the row block holds the input's row `b`, the two weight blocks hold the head's columns of the
    fused projection and of the output projection, and `pi` holds the head's clipped mixing weights. -/
theorem contrib_spec (H : Fin 256 → Fin 64 → Fin 1024 → EReal) (WQ : Fin 4096 → Fin 1024 → EReal)
    (WO : Fin 1024 → Fin 1024 → EReal) (P : Fin 8 → Fin 256 → EReal) (b : Fin 64) (hd : Fin 8)
    (pi : FVec Ideal S256x1 .f32) (w : FVec Ideal S1024x512 .bf16) (wo : FVec Ideal S128x1024 .bf16)
    (x : Vec Ideal S256x1x1024 .f32)
    (hx : ∀ (l : Fin 256) (k : Fin 1024), x (ix3 l (0 : Fin 1) k) = H l b k)
    (hw : ∀ (k : Fin 1024) (c : Fin 512), w (ix2 k c) = WQ ⟨hd.val * 512 + c.val, by omega⟩ k)
    (hwo : ∀ (d : Fin 128) (mm : Fin 1024), wo (ix2 d mm) = WO mm (Spec.ocol hd d))
    (hpi : ∀ l : Fin 256, pi (ix2 l (0 : Fin 1)) = Spec.pic P hd l)
    (l : Fin 256) (mm : Fin 1024) :
    contrib pi w wo x (ix2 l mm) = Spec.headc Spec.featK H WQ WO P l b mm hd.val := by
  rw [contrib_apply]
  unfold Spec.headc
  rw [dif_pos hd.isLt]
  refine Finset.sum_congr rfl fun d _ => ?_
  rw [attn_spec H WQ b hd w x hx hw 128 (by omega) _ 1 rfl l d, attn_spec H WQ b hd w x hx hw 256 (by omega) _ 2 rfl l d,
    hpi l, hwo d mm]
  rfl

/-- The closing step at an entry is the LayerNorm of input row plus accumulated row. -/
theorem lnorm_spec (g b : Vec Ideal S1024 .f32) (x o : Vec Ideal S256x1x1024 .f32) (l : Fin 256) (mm : Fin 1024) :
    lnorm g b x o (ix3 l (0 : Fin 1) mm)
      = Spec.lnK (fun k => g (ix1 k)) (fun k => b (ix1 k))
          (fun k => x (ix3 l (0 : Fin 1) k) + o (ix3 l (0 : Fin 1) k)) mm :=
  ReadLN.lnorm_spec g b x o l mm

end Cert.KernelIdeal.Read

end
-- ==== Proof.KernelRows.lean ====
import proofs.«168379_j15891378995467_2_alg».proof.Proof.Gen.KernelIdeal.Frame
import proofs.«168379_j15891378995467_2_alg».proof.Proof.KernelBody
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Body Idealize.ShloMosaic Idealize.ShloMosaic.TcCoe
open Idealize.ShloMosaic.Tactic Idealize.ShloMosaic.ValueIdx

variable {F : FTy → Type} [FloatOps F]

/-- Row `k` of the output block: all 256 positions, batch row `k`, all 1024 features. -/
theorem rowInb (k : ℕ) (hk : k < 8) : ∀ a, (![0, k, 0] : Fin 3 → ℕ) a + (![256, 1, 1024] : Fin 3 → ℕ) a ≤ S256x8x1024.size a := by
  intro a; match a with
  | ⟨0, _⟩ => exact Nat.le_refl _
  | ⟨1, _⟩ => show k + 1 ≤ 8; omega
  | ⟨2, _⟩ => exact Nat.le_refl _

abbrev rowRect (k : ℕ) (hk : k < 8) : Rect S256x8x1024 := Rect.unit ![0, k, 0] ![256, 1, 1024] (rowInb k hk)

/-- The head's weights and mixing weights as the body reads them from its whole staging buffers. -/
abbrev wq (x1 : Vec F S1024x512 .bf16) : FVec F S1024x512 .bf16 :=
  shapeCast S1024x512 (View.ld x1 (Rect.unit ![0, 0] ![1024, 512] inb_S1024x512_S1024x512_0_0)) shapeCasts_S1024x512_S1024x512
abbrev wout (x2 : Vec F S128x1024 .bf16) : FVec F S128x1024 .bf16 :=
  shapeCast S128x1024 (View.ld x2 (Rect.unit ![0, 0] ![128, 1024] inb_S128x1024_S128x1024_0_0)) shapeCasts_S128x1024_S128x1024
abbrev pw (x3 : Vec F S1x256x1 .f32) : FVec F S256x1 .f32 :=
  mixw (View.ld x3 (Rect.unit ![0, 0, 0] ![1, 256, 1] inb_S1x256x1_S1x256x1_0_0_0))

/-- The pieces the first head's body leaves after treating `k` rows: the block zeroed, then row by row the zero
    read back plus the row's contribution. -/
def listA (x0 : Vec F S256x8x1024 .f32) (x1 : Vec F S1024x512 .bf16) (x2 : Vec F S128x1024 .bf16) (x3 : Vec F S1x256x1 .f32)
    (v : View sig .tc .vmem S256x8x1024 .f32) : ℕ → List (View.Piece (Elt F) S256x8x1024 .f32)
  | 0 => [⟨Rect.unit ![0, 0, 0] ![256, 8, 1024] inb_S256x8x1024_S256x8x1024_0_0_0, k0_pay20⟩]
  | k + 1 => if hk : k < 8 then
      ⟨rowRect k hk, accum (v.readCov (listA x0 x1 x2 x3 v k) (rowRect k hk).toLoadRect)
        (contrib (pw x3) (wq x1) (wout x2) (View.ld x0 (rowRect k hk)))⟩ :: listA x0 x1 x2 x3 v k
    else listA x0 x1 x2 x3 v k

/-- The pieces a middle head's body leaves after treating `k` rows: row by row what the block held plus the row's
    contribution. -/
def listB (x0 : Vec F S256x8x1024 .f32) (x1 : Vec F S1024x512 .bf16) (x2 : Vec F S128x1024 .bf16) (x3 : Vec F S1x256x1 .f32)
    (xo : Vec F S256x8x1024 .f32) : ℕ → List (View.Piece (Elt F) S256x8x1024 .f32)
  | 0 => []
  | k + 1 => if hk : k < 8 then
      ⟨rowRect k hk, accum (View.ld xo (rowRect k hk))
        (contrib (pw x3) (wq x1) (wout x2) (View.ld x0 (rowRect k hk)))⟩ :: listB x0 x1 x2 x3 xo k
    else listB x0 x1 x2 x3 xo k

/-- The pieces the last head's body leaves: the eight accumulated rows, then row by row the LayerNorm of
    (input row + the accumulated row read back). -/
def listC (x0 : Vec F S256x8x1024 .f32) (x1 : Vec F S1024x512 .bf16) (x2 : Vec F S128x1024 .bf16) (x3 : Vec F S1x256x1 .f32)
    (x4 x5 : Vec F S1024 .f32) (xo : Vec F S256x8x1024 .f32)
    (v : View sig .tc .vmem S256x8x1024 .f32) : ℕ → List (View.Piece (Elt F) S256x8x1024 .f32)
  | 0 => listB x0 x1 x2 x3 xo 8
  | k + 1 => if hk : k < 8 then
      ⟨rowRect k hk, lnorm (View.ld x4 (Rect.unit ![0] ![1024] inb_S1024_S1024_0)) (View.ld x5 (Rect.unit ![0] ![1024] inb_S1024_S1024_0))
        (View.ld x0 (rowRect k hk)) (v.readCov (listC x0 x1 x2 x3 x4 x5 xo v k) (rowRect k hk).toLoadRect)⟩
        :: listC x0 x1 x2 x3 x4 x5 xo v k
    else listC x0 x1 x2 x3 x4 x5 xo v k

/-! ## The three control cases' pieces are those lists

Each case's run names the pieces it found; opened, they are the lists above, operation for operation. -/

set_option maxHeartbeats 2000000 in
theorem piecesA (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : cond0_0 i) (hc1 : ¬cond0_1 i) (x0 : Vec F S256x8x1024 .f32) (x1 : Vec F S1024x512 .bf16) (x2 : Vec F S128x1024 .bf16) (x3 : Vec F S1x256x1 .f32) (x4 : Vec F S1024 .f32) (x5 : Vec F S1024 .f32) :
    (kernelRun0_A c i arg2 harg2 arg3 harg3 arg4 harg4 arg5 harg5 arg6 harg6 arg7 harg7 arg8 harg8 hc0 hc1 x0 x1 x2 x3 x4 x5).1 = listA x0 x1 x2 x3 arg8.view 8 := by
  unfold kernelRun0_A
  dsimp only
  sl_unfold_run_names
  simp only [View.readAt_eq_ld, harg2.read_unread, harg3.read_unread, harg4.read_unread, harg5.read_unread]
  rfl

set_option maxHeartbeats 2000000 in
theorem piecesB (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : ¬cond0_0 i) (hc1 : ¬cond0_1 i) (x0 : Vec F S256x8x1024 .f32) (x1 : Vec F S1024x512 .bf16) (x2 : Vec F S128x1024 .bf16) (x3 : Vec F S1x256x1 .f32) (x4 : Vec F S1024 .f32) (x5 : Vec F S1024 .f32) (xo6 : Vec F S256x8x1024 .f32) :
    (kernelRun0_B c i arg2 harg2 arg3 harg3 arg4 harg4 arg5 harg5 arg6 harg6 arg7 harg7 arg8 harg8 hc0 hc1 x0 x1 x2 x3 x4 x5 xo6).1 = listB x0 x1 x2 x3 xo6 8 := by
  unfold kernelRun0_B
  dsimp only
  sl_unfold_run_names
  simp only [View.readAt_eq_ld, harg2.read_unread, harg3.read_unread, harg4.read_unread, harg5.read_unread, harg8.read_unread]
  rfl

set_option maxHeartbeats 2000000 in
theorem piecesC (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : ¬cond0_0 i) (hc1 : cond0_1 i) (x0 : Vec F S256x8x1024 .f32) (x1 : Vec F S1024x512 .bf16) (x2 : Vec F S128x1024 .bf16) (x3 : Vec F S1x256x1 .f32) (x4 : Vec F S1024 .f32) (x5 : Vec F S1024 .f32) (xo6 : Vec F S256x8x1024 .f32) :
    (kernelRun0_C c i arg2 harg2 arg3 harg3 arg4 harg4 arg5 harg5 arg6 harg6 arg7 harg7 arg8 harg8 hc0 hc1 x0 x1 x2 x3 x4 x5 xo6).1 = listC x0 x1 x2 x3 x4 x5 xo6 arg8.view 8 := by
  unfold kernelRun0_C
  dsimp only
  sl_unfold_run_names
  simp only [View.readAt_eq_ld, harg2.read_unread, harg3.read_unread, harg4.read_unread, harg5.read_unread, harg6.read_unread, harg7.read_unread, harg8.read_unread]
  rfl

end Cert.KernelIdeal.Rows

end
-- ==== Proof.KernelCanon.lean ====
import proofs.«168379_j15891378995467_2_alg».proof.Proof.KernelRows

/-!
# What the row lists leave in the output block, index by index

The output block is written one batch row at a time, every row through the rectangle of its own batch
coordinate, so an index of the block is covered by exactly the piece of its batch row.  Reading a list of row
pieces at an index therefore walks past the pieces of the other rows and stops at its own row's piece, where it
reads the piece's value at the index's position and feature (`loc`).  From this the three lists have closed
forms: after the first head every entry is zero plus its row's contribution; after a middle head it is what the
block held plus the contribution; after the last head it is the LayerNorm of the row.
-/

set_option maxRecDepth 16384

noncomputable section

namespace Cert.KernelIdeal.Rows

open Cert.KernelIdeal Cert.KernelIdeal.Gen Cert.KernelIdeal.Body Idealize.ShloMosaic Idealize.ShloMosaic.TcCoe
open Idealize.ShloMosaic.ValueIdx

variable {F : FTy → Type} [FloatOps F]

/-- An index of the block seen inside its own batch row: same position, same feature. -/
def loc (y : S256x8x1024.Idx) : S256x1x1024.Idx := fun d => match d with
  | ⟨0, _⟩ => (⟨(y 0).val, (y 0).isLt⟩ : Fin 256)
  | ⟨1, _⟩ => (⟨0, Nat.one_pos⟩ : Fin 1)
  | ⟨2, _⟩ => (⟨(y 2).val, (y 2).isLt⟩ : Fin 1024)

theorem row_lt (y : S256x8x1024.Idx) : (y 1).val < 8 := (y 1).isLt

/-- An index lies in its own batch row's rectangle, at `loc`. -/
theorem emb_loc (k : ℕ) (hk : k < 8) (y : S256x8x1024.Idx) (h : (y 1).val = k) : (rowRect k hk).emb (loc y) = y := by
  funext a; apply Fin.ext; rw [Rect.emb_apply]
  match a with
  | ⟨0, _⟩ => show 0 + 1 * (y 0).val = (y 0).val; omega
  | ⟨1, _⟩ => show k + 1 * 0 = (y 1).val; omega
  | ⟨2, _⟩ => show 0 + 1 * (y 2).val = (y 2).val; omega

/-- … and in no other row's. -/
theorem not_mem_row (k : ℕ) (hk : k < 8) (y : S256x8x1024.Idx) (h : (y 1).val ≠ k) : y ∉ (rowRect k hk).set := by
  rw [Rect.mem_set_unit]; intro hm
  have h1 : k ≤ (y 1).val ∧ (y 1).val < k + 1 := hm 1
  omega

/-- The batch coordinate of row `k`'s entries is `k`. -/
theorem row_idx_one (k : ℕ) (hk : k < 8) (x : (rowRect k hk).shape.Idx) : ((rowRect k hk).idx x 1).val = k := by
  have h : (x 1).val < 1 := (x 1).isLt
  show k + 1 * (x 1).val = k; omega

/-- `loc` of row `k`'s entry at `x` is `x`. -/
theorem loc_row_idx (k : ℕ) (hk : k < 8) (x : (rowRect k hk).shape.Idx) : loc ((rowRect k hk).idx x) = x := by
  funext a; apply Fin.ext
  match a with
  | ⟨0, _⟩ => show 0 + 1 * (x 0).val = (x 0).val; omega
  | ⟨1, _⟩ => have h : (x 1).val < 1 := (x 1).isLt; show 0 = (x 1).val; omega
  | ⟨2, _⟩ => show 0 + 1 * (x 2).val = (x 2).val; omega

/-- Reading a list headed by a row piece: the piece's value in its own row, the rest of the list elsewhere. -/
theorem canon_row_cons (k : ℕ) (hk : k < 8) (w : (rowRect k hk).shape.Idx → Elt F .f32)
    (L : List (View.Piece (Elt F) S256x8x1024 .f32)) (y : S256x8x1024.Idx) :
    View.canon (⟨rowRect k hk, w⟩ :: L) y = if (y 1).val = k then w (loc y) else View.canon L y := by
  by_cases h : (y 1).val = k
  · rw [if_pos h]
    have e := View.canon_cons_emb (rowRect k hk) w L (loc y)
    rw [emb_loc k hk y h] at e; exact e
  · rw [if_neg h]; exact View.canon_cons_of_not_mem _ L (not_mem_row k hk y h)

/-! ## The closed forms -/

theorem hz3 : (![0, 0, 0] : Fin 3 → ℕ) = fun _ => 0 := by
  funext a; match a with | ⟨0, _⟩ => rfl | ⟨1, _⟩ => rfl | ⟨2, _⟩ => rfl

/-- The zeroing store alone leaves zero everywhere. -/
theorem canon_zero_piece (y : S256x8x1024.Idx) :
    View.canon [(⟨Rect.unit ![0, 0, 0] ![256, 8, 1024] inb_S256x8x1024_S256x8x1024_0_0_0, k0_pay20⟩ :
      View.Piece (Elt F) S256x8x1024 .f32)] y = k0_pay20 y := by
  rw [View.canon_unit_zero hz3]

/-- An all-zero row. -/
def zrow : Vec F S256x1x1024 .f32 := fun _ => (Scalar.ofBits .f32 0x00000000#32 : F .f32)

/-- After a middle head: what the block held, plus the head's contribution to the entry's row. -/
def GB (x0 : Vec F S256x8x1024 .f32) (x1 : Vec F S1024x512 .bf16) (x2 : Vec F S128x1024 .bf16) (x3 : Vec F S1x256x1 .f32)
    (xo : Vec F S256x8x1024 .f32) (y : S256x8x1024.Idx) : Elt F .f32 :=
  accum (View.ld xo (rowRect (y 1).val (row_lt y)))
    (contrib (pw x3) (wq x1) (wout x2) (View.ld x0 (rowRect (y 1).val (row_lt y)))) (loc y)

/-- After the first head: zero plus the head's contribution. -/
def GA (x0 : Vec F S256x8x1024 .f32) (x1 : Vec F S1024x512 .bf16) (x2 : Vec F S128x1024 .bf16) (x3 : Vec F S1x256x1 .f32)
    (y : S256x8x1024.Idx) : Elt F .f32 :=
  accum zrow (contrib (pw x3) (wq x1) (wout x2) (View.ld x0 (rowRect (y 1).val (row_lt y)))) (loc y)

/-- After the last head: the LayerNorm of (input row + accumulated row), the accumulated row being the middle-head
    form once more. -/
def GC (x0 : Vec F S256x8x1024 .f32) (x1 : Vec F S1024x512 .bf16) (x2 : Vec F S128x1024 .bf16) (x3 : Vec F S1x256x1 .f32)
    (x4 x5 : Vec F S1024 .f32) (xo : Vec F S256x8x1024 .f32) (y : S256x8x1024.Idx) : Elt F .f32 :=
  lnorm (View.ld x4 (Rect.unit ![0] ![1024] inb_S1024_S1024_0)) (View.ld x5 (Rect.unit ![0] ![1024] inb_S1024_S1024_0))
    (View.ld x0 (rowRect (y 1).val (row_lt y)))
    (fun x => GB x0 x1 x2 x3 xo ((rowRect (y 1).val (row_lt y)).idx x)) (loc y)

theorem canon_listB (x0 : Vec F S256x8x1024 .f32) (x1 : Vec F S1024x512 .bf16) (x2 : Vec F S128x1024 .bf16)
    (x3 : Vec F S1x256x1 .f32) (xo : Vec F S256x8x1024 .f32) :
    ∀ (k : ℕ), k ≤ 8 → ∀ y : S256x8x1024.Idx, (y 1).val < k →
      View.canon (listB x0 x1 x2 x3 xo k) y = GB x0 x1 x2 x3 xo y
  | 0, _, y, h => absurd h (Nat.not_lt_zero _)
  | k + 1, hk, y, h => by
    have hk' : k < 8 := by omega
    rw [listB, dif_pos hk', canon_row_cons]
    by_cases e : (y 1).val = k
    · rw [if_pos e]; subst e; rfl
    · rw [if_neg e]; exact canon_listB x0 x1 x2 x3 xo k (by omega) y (by omega)

theorem canon_listA (x0 : Vec F S256x8x1024 .f32) (x1 : Vec F S1024x512 .bf16) (x2 : Vec F S128x1024 .bf16)
    (x3 : Vec F S1x256x1 .f32) (v : View sig .tc .vmem S256x8x1024 .f32) :
    ∀ (k : ℕ), k ≤ 8 → ∀ y : S256x8x1024.Idx,
      View.canon (listA x0 x1 x2 x3 v k) y = if (y 1).val < k then GA x0 x1 x2 x3 y else k0_pay20 y
  | 0, _, y => by
    rw [listA, if_neg (Nat.not_lt_zero _)]
    exact canon_zero_piece y
  | k + 1, hk, y => by
    have hk' : k < 8 := by omega
    rw [listA, dif_pos hk', canon_row_cons]
    by_cases e : (y 1).val = k
    · rw [if_pos e, if_pos (by omega)]
      have hz : v.readCov (listA x0 x1 x2 x3 v k) (rowRect k hk').toLoadRect = zrow := by
        rw [View.readCov_eq_canon']; funext x
        rw [canon_listA x0 x1 x2 x3 v k (by omega), if_neg (by rw [row_idx_one]; omega)]; rfl
      rw [hz]; subst e; rfl
    · rw [if_neg e, canon_listA x0 x1 x2 x3 v k (by omega) y]
      by_cases h : (y 1).val < k
      · rw [if_pos h, if_pos (by omega)]
      · rw [if_neg h, if_neg (by omega)]

theorem canon_listC (x0 : Vec F S256x8x1024 .f32) (x1 : Vec F S1024x512 .bf16) (x2 : Vec F S128x1024 .bf16)
    (x3 : Vec F S1x256x1 .f32) (x4 x5 : Vec F S1024 .f32) (xo : Vec F S256x8x1024 .f32)
    (v : View sig .tc .vmem S256x8x1024 .f32) :
    ∀ (k : ℕ), k ≤ 8 → ∀ y : S256x8x1024.Idx,
      View.canon (listC x0 x1 x2 x3 x4 x5 xo v k) y
        = if (y 1).val < k then GC x0 x1 x2 x3 x4 x5 xo y else GB x0 x1 x2 x3 xo y
  | 0, _, y => by
    rw [listC, if_neg (Nat.not_lt_zero _)]
    exact canon_listB x0 x1 x2 x3 xo 8 (Nat.le_refl _) y (row_lt y)
  | k + 1, hk, y => by
    have hk' : k < 8 := by omega
    rw [listC, dif_pos hk', canon_row_cons]
    by_cases e : (y 1).val = k
    · rw [if_pos e, if_pos (by omega)]
      have hz : v.readCov (listC x0 x1 x2 x3 x4 x5 xo v k) (rowRect k hk').toLoadRect
          = fun x => GB x0 x1 x2 x3 xo ((rowRect k hk').idx x) := by
        rw [View.readCov_eq_canon']; funext x
        rw [canon_listC x0 x1 x2 x3 x4 x5 xo v k (by omega), if_neg (by rw [row_idx_one]; omega)]
      rw [hz]; subst e; rfl
    · rw [if_neg e, canon_listC x0 x1 x2 x3 x4 x5 xo v k (by omega) y]
      by_cases h : (y 1).val < k
      · rw [if_pos h, if_pos (by omega)]
      · rw [if_neg h, if_neg (by omega)]

/-! ## What each control case leaves in the output block -/

theorem out0_A_eq (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : cond0_0 i) (hc1 : ¬cond0_1 i) (x0 : Vec F S256x8x1024 .f32) (x1 : Vec F S1024x512 .bf16) (x2 : Vec F S128x1024 .bf16) (x3 : Vec F S1x256x1 .f32) (x4 : Vec F S1024 .f32) (x5 : Vec F S1024 .f32) :
    out0_A_6 c i arg2 harg2 arg3 harg3 arg4 harg4 arg5 harg5 arg6 harg6 arg7 harg7 arg8 harg8 hc0 hc1 x0 x1 x2 x3 x4 x5 = GA x0 x1 x2 x3 := by
  funext y
  unfold out0_A_6
  rw [piecesA, View.read_writes_junk_apply_eq_canon, canon_listA x0 x1 x2 x3 _ 8 (Nat.le_refl _), if_pos (row_lt y)]

theorem out0_B_eq (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : ¬cond0_0 i) (hc1 : ¬cond0_1 i) (x0 : Vec F S256x8x1024 .f32) (x1 : Vec F S1024x512 .bf16) (x2 : Vec F S128x1024 .bf16) (x3 : Vec F S1x256x1 .f32) (x4 : Vec F S1024 .f32) (x5 : Vec F S1024 .f32) (xo6 : Vec F S256x8x1024 .f32) :
    out0_B_6 c i arg2 harg2 arg3 harg3 arg4 harg4 arg5 harg5 arg6 harg6 arg7 harg7 arg8 harg8 hc0 hc1 x0 x1 x2 x3 x4 x5 xo6 = GB x0 x1 x2 x3 xo6 := by
  funext y
  unfold out0_B_6
  rw [piecesB, View.read_writes_junk_apply_eq_canon, canon_listB x0 x1 x2 x3 xo6 8 (Nat.le_refl _) y (row_lt y)]

theorem out0_C_eq (c : Dev nD) (i : grid0.Coords) (arg2 : Memref sig .tc .vmem S256x8x1024 .f32) (harg2 : arg2.IsWhole) (arg3 : Memref sig .tc .vmem S1024x512 .bf16) (harg3 : arg3.IsWhole) (arg4 : Memref sig .tc .vmem S128x1024 .bf16) (harg4 : arg4.IsWhole) (arg5 : Memref sig .tc .vmem S1x256x1 .f32) (harg5 : arg5.IsWhole) (arg6 : Memref sig .tc .vmem S1024 .f32) (harg6 : arg6.IsWhole) (arg7 : Memref sig .tc .vmem S1024 .f32) (harg7 : arg7.IsWhole) (arg8 : Memref sig .tc .vmem S256x8x1024 .f32) (harg8 : arg8.IsWhole) (hc0 : ¬cond0_0 i) (hc1 : cond0_1 i) (x0 : Vec F S256x8x1024 .f32) (x1 : Vec F S1024x512 .bf16) (x2 : Vec F S128x1024 .bf16) (x3 : Vec F S1x256x1 .f32) (x4 : Vec F S1024 .f32) (x5 : Vec F S1024 .f32) (xo6 : Vec F S256x8x1024 .f32) :
    out0_C_6 c i arg2 harg2 arg3 harg3 arg4 harg4 arg5 harg5 arg6 harg6 arg7 harg7 arg8 harg8 hc0 hc1 x0 x1 x2 x3 x4 x5 xo6 = GC x0 x1 x2 x3 x4 x5 xo6 := by
  funext y
  unfold out0_C_6
  rw [piecesC, View.read_writes_junk_apply_eq_canon, canon_listC x0 x1 x2 x3 x4 x5 xo6 _ 8 (Nat.le_refl _), if_pos (row_lt y)]

end Cert.KernelIdeal.Rows

end
-- ==== Proof.KernelFinalA.lean ====
import proofs.«168379_j15891378995467_2_alg».proof.Proof.KernelSpec
import proofs.«168379_j15891378995467_2_alg».proof.Proof.KernelCanon
import proofs.«168379_j15891378995467_2_alg».proof.Proof.Gen.KernelIdeal.Value

set_option maxRecDepth 16384

noncomputable section

/-!
# The blocks the grid points read, as entries of the argument arrays

The projection weights reach the kernel transposed (and cast, which changes nothing over the extended reals), the
mixing weights with a unit axis added.  Point t = 8 * (batch group) + head reads: rows 8 * (t / 8) .. + 7 of the
input; columns 512 * (t % 8) .. of the transposed fused projection; rows 128 * (t % 8) .. of the transposed output
projection; the mixing weights of head t % 8; the whole scale and shift.
-/

namespace Cert.KernelIdeal.Final

open Cert.KernelIdeal Cert.KernelIdeal.Gen Cert.KernelIdeal.Body Cert.KernelIdeal.Rows Cert.KernelIdeal.Read
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-! ## The arrays the host prepares -/

theorem V_v1 (c : Dev nD) : @Eq (FVec Ideal S1024x4096 .bf16) (V m c main_v1)
    (truncf .bf16 (transpose S1024x4096 [1, 0] (m ((c : Thread nD τ).loc main_arg1) : FVec Ideal S4096x1024 .f32)
      transposes_S4096x1024_S1024x4096_1_0) bitsLt_bf16_f32) := by
  dsimp only [Gen.V, Gen.hostOps0]; after_results

theorem V_v3 (c : Dev nD) : @Eq (FVec Ideal S1024x1024 .bf16) (V m c main_v3)
    (truncf .bf16 (transpose S1024x1024 [1, 0] (m ((c : Thread nD τ).loc main_arg2) : FVec Ideal S1024x1024 .f32)
      transposes_S1024x1024_S1024x1024_1_0) bitsLt_bf16_f32) := by
  dsimp only [Gen.V, Gen.hostOps0]; after_results

theorem V_v4 (c : Dev nD) : @Eq (FVec Ideal S8x256x1 .f32) (V m c main_v4)
    (broadcastInDim S8x256x1 ![0, 1] bcast_S8x256_S8x256x1_0_1 (m ((c : Thread nD τ).loc main_arg3) : FVec Ideal S8x256 .f32)) := by
  dsimp only [Gen.V, Gen.hostOps0]; after_results

/-- The transposed fused projection at (model feature, column) is the argument at (column, model feature). -/
theorem V_v1_apply (c : Dev nD) (k : Fin 1024) (n : Fin 4096) :
    (V m c main_v1 : FVec Ideal S1024x4096 .bf16) (ix2 k n) = m ((c : Thread nD τ).loc main_arg1) (ix2 n k) := by
  rw [V_v1, truncf_apply, transpose_ix2_apply]

theorem V_v3_apply (c : Dev nD) (k : Fin 1024) (n : Fin 1024) :
    (V m c main_v3 : FVec Ideal S1024x1024 .bf16) (ix2 k n) = m ((c : Thread nD τ).loc main_arg2) (ix2 n k) := by
  rw [V_v3, truncf_apply, transpose_ix2_apply]

/-- The mixing weights with a unit axis added read the argument at the two leading coordinates. -/
theorem V_v4_apply (c : Dev nD) (a : Fin 8) (l : Fin 256) :
    (V m c main_v4 : FVec Ideal S8x256x1 .f32) (ix3 a l (0 : Fin 1)) = m ((c : Thread nD τ).loc main_arg3) (ix2 a l) := by
  rw [V_v4]
  exact broadcastInDim_apply _ _ _ _ _ (fun b => match b with | ⟨0, _⟩ => rfl | ⟨1, _⟩ => rfl)

/-! ## The windows' block indices over the grid -/

theorem idx_facts : ∀ t : Fin cfg0.N,
    win0_0.index t (0 : Fin 3) = 0 ∧ win0_0.index t (1 : Fin 3) = t.val / 8 ∧ win0_0.index t (2 : Fin 3) = 0
    ∧ win0_1.index t (0 : Fin 2) = 0 ∧ win0_1.index t (1 : Fin 2) = t.val % 8
    ∧ win0_2.index t (0 : Fin 2) = t.val % 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 1) = 0 ∧ win0_5.index t (0 : Fin 1) = 0
    ∧ win0_6.index t (0 : Fin 3) = 0 ∧ win0_6.index t (1 : Fin 3) = t.val / 8 ∧ win0_6.index t (2 : Fin 3) = 0 :=
  (by decide +kernel : ∀ t : Fin grid0.N, _)

/-! ## The blocks, entry by entry -/

/-- The input's block at point t: rows 8 * (t / 8) .. of the batch axis. -/
theorem blk0 (c : Dev nD) (t : Fin cfg0.N) (z : S256x8x1024.Idx) (i : S256x64x1024.Idx)
    (h0 : (i 0).val = (z 0).val) (h1 : (i 1).val = 8 * (t.val / 8) + (z 1).val) (h2 : (i 2).val = (z 2).val) :
    iblk m c 0 t z = m ((c : Thread nD τ).loc main_arg0) i := by
  obtain ⟨e0, e1, e2, -⟩ := idx_facts t
  show V m c main_arg0 (((cfg0.win 0).blk t).view.emb z) = _
  rw [V_main_arg0]
  refine congrArg _ (funext fun a => Fin.ext ?_)
  match a with
  | ⟨0, _⟩ => show win0_0.index t (0 : Fin 3) * 256 + 1 * (z 0).val = (i 0).val; omega
  | ⟨1, _⟩ => show win0_0.index t (1 : Fin 3) * 8 + 1 * (z 1).val = (i 1).val; omega
  | ⟨2, _⟩ => show win0_0.index t (2 : Fin 3) * 1024 + 1 * (z 2).val = (i 2).val; omega

/-- The fused projection's block at point t: columns 512 * (t % 8) .., transposed back. -/
theorem blk1 (c : Dev nD) (t : Fin cfg0.N) (z : S1024x512.Idx) (i : S4096x1024.Idx)
    (h0 : (i 0).val = (t.val % 8) * 512 + (z 1).val) (h1 : (i 1).val = (z 0).val) :
    iblk m c 1 t z = m ((c : Thread nD τ).loc main_arg1) i := by
  obtain ⟨-, -, -, e0, e1, -⟩ := idx_facts t
  have ej : ((cfg0.win 1).blk t).view.emb z
      = (ix2 (⟨(i 1).val, (i 1).isLt⟩ : Fin 1024) (⟨(i 0).val, (i 0).isLt⟩ : Fin 4096) : S1024x4096.Idx) := by
    funext a; apply Fin.ext
    match a with
    | ⟨0, _⟩ => show win0_1.index t (0 : Fin 2) * 1024 + 1 * (z 0).val = (i 1).val; omega
    | ⟨1, _⟩ => show win0_1.index t (1 : Fin 2) * 512 + 1 * (z 1).val = (i 0).val; omega
  have ei : (ix2 (⟨(i 0).val, (i 0).isLt⟩ : Fin 4096) (⟨(i 1).val, (i 1).isLt⟩ : Fin 1024) : S4096x1024.Idx) = i := by
    funext a; match a with | ⟨0, _⟩ => rfl | ⟨1, _⟩ => rfl
  exact (congrArg (V m c main_v1 : FVec Ideal S1024x4096 .bf16) ej).trans
    ((V_v1_apply m c _ _).trans (congrArg (m ((c : Thread nD τ).loc main_arg1)) ei))

/-- The output projection's block at point t: rows 128 * (t % 8) .., transposed back. -/
theorem blk2 (c : Dev nD) (t : Fin cfg0.N) (z : S128x1024.Idx) (i : S1024x1024.Idx)
    (h0 : (i 0).val = (z 1).val) (h1 : (i 1).val = (t.val % 8) * 128 + (z 0).val) :
    iblk m c 2 t z = m ((c : Thread nD τ).loc main_arg2) i := by
  obtain ⟨-, -, -, -, -, e0, e1, -⟩ := idx_facts t
  have ej : ((cfg0.win 2).blk t).view.emb z
      = (ix2 (⟨(i 1).val, (i 1).isLt⟩ : Fin 1024) (⟨(i 0).val, (i 0).isLt⟩ : Fin 1024) : S1024x1024.Idx) := by
    funext a; apply Fin.ext
    match a with
    | ⟨0, _⟩ => show win0_2.index t (0 : Fin 2) * 128 + 1 * (z 0).val = (i 1).val; omega
    | ⟨1, _⟩ => show win0_2.index t (1 : Fin 2) * 1024 + 1 * (z 1).val = (i 0).val; omega
  have ei : (ix2 (⟨(i 0).val, (i 0).isLt⟩ : Fin 1024) (⟨(i 1).val, (i 1).isLt⟩ : Fin 1024) : S1024x1024.Idx) = i := by
    funext a; match a with | ⟨0, _⟩ => rfl | ⟨1, _⟩ => rfl
  exact (congrArg (V m c main_v3 : FVec Ideal S1024x1024 .bf16) ej).trans
    ((V_v3_apply m c _ _).trans (congrArg (m ((c : Thread nD τ).loc main_arg2)) ei))

/-- The mixing weights' block at point t: head t % 8. -/
theorem blk3 (c : Dev nD) (t : Fin cfg0.N) (z : S1x256x1.Idx) (i : S8x256.Idx)
    (h0 : (i 0).val = t.val % 8) (h1 : (i 1).val = (z 1).val) :
    iblk m c 3 t z = m ((c : Thread nD τ).loc main_arg3) i := by
  obtain ⟨-, -, -, -, -, -, -, e0, e1, e2, -⟩ := idx_facts t
  have hz0 : (z 0).val < 1 := (z 0).isLt
  have hz2 : (z 2).val < 1 := (z 2).isLt
  have ej : ((cfg0.win 3).blk t).view.emb z
      = (ix3 (⟨(i 0).val, (i 0).isLt⟩ : Fin 8) (⟨(i 1).val, (i 1).isLt⟩ : Fin 256) (0 : Fin 1) : S8x256x1.Idx) := by
    funext a; apply Fin.ext
    match a with
    | ⟨0, _⟩ => show win0_3.index t (0 : Fin 3) * 1 + 1 * (z 0).val = (i 0).val; omega
    | ⟨1, _⟩ => show win0_3.index t (1 : Fin 3) * 256 + 1 * (z 1).val = (i 1).val; omega
    | ⟨2, _⟩ => show win0_3.index t (2 : Fin 3) * 1 + 1 * (z 2).val = 0; omega
  have ei : (ix2 (⟨(i 0).val, (i 0).isLt⟩ : Fin 8) (⟨(i 1).val, (i 1).isLt⟩ : Fin 256) : S8x256.Idx) = i := by
    funext a; match a with | ⟨0, _⟩ => rfl | ⟨1, _⟩ => rfl
  exact (congrArg (V m c main_v4 : FVec Ideal S8x256x1 .f32) ej).trans
    ((V_v4_apply m c _ _).trans (congrArg (m ((c : Thread nD τ).loc main_arg3)) ei))

/-- The scale's and the shift's blocks are the whole arrays. -/
theorem blk4 (c : Dev nD) (t : Fin cfg0.N) (z : S1024.Idx) :
    iblk m c 4 t z = m ((c : Thread nD τ).loc main_arg4) z := by
  obtain ⟨-, -, -, -, -, -, -, -, -, -, e0, -⟩ := idx_facts t
  show V m c main_arg4 (((cfg0.win 4).blk t).view.emb z) = _
  rw [V_main_arg4]
  refine congrArg _ (funext fun a => Fin.ext ?_)
  match a with
  | ⟨0, _⟩ => show win0_4.index t (0 : Fin 1) * 1024 + 1 * (z 0).val = (z 0).val; omega

theorem blk5 (c : Dev nD) (t : Fin cfg0.N) (z : S1024.Idx) :
    iblk m c 5 t z = m ((c : Thread nD τ).loc main_arg5) z := by
  obtain ⟨-, -, -, -, -, -, -, -, -, -, -, e0, -⟩ := idx_facts t
  show V m c main_arg5 (((cfg0.win 5).blk t).view.emb z) = _
  rw [V_main_arg5]
  refine congrArg _ (funext fun a => Fin.ext ?_)
  match a with
  | ⟨0, _⟩ => show win0_5.index t (0 : Fin 1) * 1024 + 1 * (z 0).val = (z 0).val; omega

end Cert.KernelIdeal.Final

end
-- ==== Proof.KernelFinalB.lean ====
import proofs.«168379_j15891378995467_2_alg».proof.Proof.KernelFinalA
import proofs.«168379_j15891378995467_2_alg».proof.Proof.KernelCanon
import proofs.«168379_j15891378995467_2_alg».proof.Proof.Gen.KernelIdeal.Value

set_option maxRecDepth 16384

noncomputable section

/-!
# The walk over the heads of one batch group

At point t = 8 * (batch group) + head the output block holds, for each of its eight batch rows, the heads' parts of
the output projection added one after the other from zero up to the point's head: the first head stores zero plus
its part, every later head adds its part to what the block held.  At the eighth head the block is then replaced by
the LayerNorm of input row plus accumulated row, which is the layer's first spelling.
-/

namespace Cert.KernelIdeal.Final

open Cert.KernelIdeal Cert.KernelIdeal.Gen Cert.KernelIdeal.Body Cert.KernelIdeal.Rows Cert.KernelIdeal.Read
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-! ## The layer's arguments, read off the launch memory -/

def aH (c : Dev nD) : Fin 256 → Fin 64 → Fin 1024 → EReal := fun l b k => m ((c : Thread nD τ).loc main_arg0) (ix3 l b k)
def aWq (c : Dev nD) : Fin 4096 → Fin 1024 → EReal := fun n k => m ((c : Thread nD τ).loc main_arg1) (ix2 n k)
def aWo (c : Dev nD) : Fin 1024 → Fin 1024 → EReal := fun a n => m ((c : Thread nD τ).loc main_arg2) (ix2 a n)
def aP (c : Dev nD) : Fin 8 → Fin 256 → EReal := fun hd l => m ((c : Thread nD τ).loc main_arg3) (ix2 hd l)
def aG (c : Dev nD) : Fin 1024 → EReal := fun k => m ((c : Thread nD τ).loc main_arg4) (ix1 k)
def aB (c : Dev nD) : Fin 1024 → EReal := fun k => m ((c : Thread nD τ).loc main_arg5) (ix1 k)

/-- The output array the layer's first spelling gives from the launch memory's arguments. -/
def outOf (m : (ℓ : Loc nD τ sig) → Buf (Elt Ideal) ℓ) (c : Dev nD) : S256x64x1024.Idx → EReal := fun i =>
  Spec.outK (fun l b k => m ((c : Thread nD τ).loc main_arg0) (ix3 l b k))
    (fun n k => m ((c : Thread nD τ).loc main_arg1) (ix2 n k))
    (fun a n => m ((c : Thread nD τ).loc main_arg2) (ix2 a n))
    (fun hd l => m ((c : Thread nD τ).loc main_arg3) (ix2 hd l))
    (fun k => m ((c : Thread nD τ).loc main_arg4) (ix1 k))
    (fun k => m ((c : Thread nD τ).loc main_arg5) (ix1 k))
    ⟨(i 0).val, (i 0).isLt⟩ ⟨(i 1).val, (i 1).isLt⟩ ⟨(i 2).val, (i 2).isLt⟩

theorem outOf_apply (c : Dev nD) (i : S256x64x1024.Idx) :
    outOf m c i = Spec.outK (aH m c) (aWq m c) (aWo m c) (aP m c) (aG m c) (aB m c)
      ⟨(i 0).val, (i 0).isLt⟩ ⟨(i 1).val, (i 1).isLt⟩ ⟨(i 2).val, (i 2).isLt⟩ := rfl

/-! ## What the body reads from its staging buffers -/

theorem hz2 : (![0, 0] : Fin 2 → ℕ) = fun _ => 0 := by
  funext a; match a with | ⟨0, _⟩ => rfl | ⟨1, _⟩ => rfl
theorem hz1 : (![0] : Fin 1 → ℕ) = fun _ => 0 := by
  funext a; match a with | ⟨0, _⟩ => rfl

theorem wq_eq (x1 : Vec Ideal S1024x512 .bf16) : wq x1 = x1 :=
  (shapeCast_self (s := S1024x512) (View.ld x1 (Rect.unit ![0, 0] ![1024, 512] inb_S1024x512_S1024x512_0_0))
    shapeCasts_S1024x512_S1024x512).trans (View.ld_unit_zero (S := S1024x512) hz2 _ x1)
theorem wout_eq (x2 : Vec Ideal S128x1024 .bf16) : wout x2 = x2 :=
  (shapeCast_self (s := S128x1024) (View.ld x2 (Rect.unit ![0, 0] ![128, 1024] inb_S128x1024_S128x1024_0_0))
    shapeCasts_S128x1024_S128x1024).trans (View.ld_unit_zero (S := S128x1024) hz2 _ x2)

/-- The LayerNorm depends on its three rows entry by entry. -/
theorem lnK_congr {g g' bt bt' x x' : Fin 1024 → EReal} (hg : ∀ k, g k = g' k) (hb : ∀ k, bt k = bt' k)
    (hx : ∀ k, x k = x' k) (k : Fin 1024) : Spec.lnK g bt x k = Spec.lnK g' bt' x' k := by
  rw [show g = g' from funext hg, show bt = bt' from funext hb, show x = x' from funext hx]
theorem pw_eq (x3 : Vec Ideal S1x256x1 .f32) : pw x3 = mixw x3 := by
  show mixw (View.ld x3 (Rect.unit ![0, 0, 0] ![1, 256, 1] inb_S1x256x1_S1x256x1_0_0_0)) = mixw x3
  rw [View.ld_unit_zero (S := S1x256x1) hz3]
theorem ld1024_eq (x : Vec Ideal S1024 .f32) : View.ld x (Rect.unit ![0] ![1024] inb_S1024_S1024_0) = x :=
  View.ld_unit_zero (S := S1024) hz1 _ x

/-- An index of the block seen inside its batch row, by coordinates. -/
theorem loc_eq (y : S256x8x1024.Idx) (l : Fin 256) (k : Fin 1024) (h0 : (y 0).val = l.val) (h2 : (y 2).val = k.val) :
    loc y = ix3 l (0 : Fin 1) k := by
  funext a
  match a with
  | ⟨0, _⟩ => exact Fin.ext h0
  | ⟨1, _⟩ => rfl
  | ⟨2, _⟩ => exact Fin.ext h2

/-! ## One head's step -/

/-- At point n the head's contribution to batch row r of the block, at (position, feature), is head n % 8's part of the
    output projection for batch row 8 * (n / 8) + r. -/
theorem head_step (c : Dev nD) (n : ℕ) (hn : n < cfg0.N) (r : ℕ) (hr : r < 8) (l : Fin 256) (b : Fin 64) (k : Fin 1024)
    (hd : Fin 8) (hb : b.val = 8 * (n / 8) + r) (hhd : hd.val = n % 8) :
    contrib (pw (iblk m c 3 ⟨n, hn⟩)) (wq (iblk m c 1 ⟨n, hn⟩)) (wout (iblk m c 2 ⟨n, hn⟩))
        (View.ld (iblk m c 0 ⟨n, hn⟩ : Vec Ideal S256x8x1024 .f32) (rowRect r hr)) (ix2 l k)
      = Spec.headc Spec.featK (aH m c) (aWq m c) (aWo m c) (aP m c) l b k (n % 8) := by
  rw [← hhd, wq_eq, wout_eq, pw_eq]
  refine contrib_spec (aH m c) (aWq m c) (aWo m c) (aP m c) b hd _ _ _ _ ?_ ?_ ?_ ?_ l k
  · intro l' k'
    show iblk m c 0 ⟨n, hn⟩ ((rowRect r hr).idx (ix3 l' (0 : Fin 1) k')) = _
    exact blk0 m c ⟨n, hn⟩ _ (ix3 l' b k') (by show l'.val = 0 + 1 * l'.val; omega)
      (by show b.val = 8 * (n / 8) + (r + 1 * 0); omega) (by show k'.val = 0 + 1 * k'.val; omega)
  · intro k' c'
    exact blk1 m c ⟨n, hn⟩ (ix2 k' c') (ix2 _ k') (by show hd.val * 512 + c'.val = n % 8 * 512 + c'.val; rw [hhd]) rfl
  · intro d mm
    exact blk2 m c ⟨n, hn⟩ (ix2 d mm) (ix2 mm (Spec.ocol hd d)) rfl
      (by show hd.val * 128 + d.val = n % 8 * 128 + d.val; rw [hhd])
  · intro l'
    rw [mixw_apply]
    show _ = min Spec.c1 (max Spec.c0 (aP m c hd l'))
    rw [blk3 m c ⟨n, hn⟩ (ix3 (0 : Fin 1) l' (0 : Fin 1)) (ix2 hd l') hhd rfl]
    rfl

/-- A later head adds its part to what the block held. -/
theorem GB_step (c : Dev nD) (n : ℕ) (hn : n < cfg0.N) (xo : Vec Ideal S256x8x1024 .f32) (y : S256x8x1024.Idx)
    (l : Fin 256) (b : Fin 64) (k : Fin 1024) (hd : Fin 8)
    (h0 : (y 0).val = l.val) (h1 : b.val = 8 * (n / 8) + (y 1).val) (h2 : (y 2).val = k.val) (hhd : hd.val = n % 8) :
    GB (iblk m c 0 ⟨n, hn⟩) (iblk m c 1 ⟨n, hn⟩) (iblk m c 2 ⟨n, hn⟩) (iblk m c 3 ⟨n, hn⟩) xo y
      = xo y + Spec.headc Spec.featK (aH m c) (aWq m c) (aWo m c) (aP m c) l b k (n % 8) := by
  have hl := loc_eq y l k h0 h2
  unfold GB
  rw [hl, accum_apply]
  refine congrArg₂ (· + ·) ?_ (head_step m c n hn (y 1).val (row_lt y) l b k hd h1 hhd)
  show xo ((rowRect (y 1).val (row_lt y)).idx (ix3 l (0 : Fin 1) k)) = xo y
  rw [← hl]
  exact congrArg xo (emb_loc _ _ y rfl)

/-- The first head stores zero plus its part. -/
theorem GA_step (c : Dev nD) (n : ℕ) (hn : n < cfg0.N) (y : S256x8x1024.Idx)
    (l : Fin 256) (b : Fin 64) (k : Fin 1024) (hd : Fin 8)
    (h0 : (y 0).val = l.val) (h1 : b.val = 8 * (n / 8) + (y 1).val) (h2 : (y 2).val = k.val) (hhd : hd.val = n % 8) :
    GA (iblk m c 0 ⟨n, hn⟩) (iblk m c 1 ⟨n, hn⟩) (iblk m c 2 ⟨n, hn⟩) (iblk m c 3 ⟨n, hn⟩) y
      = Spec.c0 + Spec.headc Spec.featK (aH m c) (aWq m c) (aWo m c) (aP m c) l b k (n % 8) := by
  have hl := loc_eq y l k h0 h2
  unfold GA
  rw [hl, accum_apply]
  exact congrArg₂ (· + ·) rfl (head_step m c n hn (y 1).val (row_lt y) l b k hd h1 hhd)

/-! ## The block after each head but the last -/

theorem inv (c : Dev nD) : ∀ (n : ℕ) (hn : n < cfg0.N), n % 8 ≠ 7 → ∀ (y : S256x8x1024.Idx)
    (l : Fin 256) (b : Fin 64) (k : Fin 1024),
    (y 0).val = l.val → b.val = 8 * (n / 8) + (y 1).val → (y 2).val = k.val →
    outsAt0 m c n hn y = Spec.accN Spec.featK (aH m c) (aWq m c) (aWo m c) (aP m c) l b k (n % 8) := by
  intro n
  induction n using Nat.strong_induction_on with
  | _ n ih =>
    intro hn h7 y l b k h0 h1 h2
    have hN : n < 64 := lt_of_lt_of_eq hn N_0
    have hdlt : n % 8 < 8 := Nat.mod_lt _ (by omega)
    by_cases hA : n % 8 = 0
    · rw [show outsAt0 m c n hn = _ from outsAt0_A m c ⟨n, hn⟩ hA h7, out0_A_eq,
        GA_step m c n hn y l b k ⟨n % 8, hdlt⟩ h0 h1 h2 rfl, hA]
      rfl
    · obtain ⟨j, hj⟩ : ∃ j, n % 8 = j + 1 := ⟨n % 8 - 1, by omega⟩
      rw [show outsAt0 m c n hn = _ from outsAt0_B m c ⟨n, hn⟩ hA h7, out0_B_eq,
        GB_step m c n hn _ y l b k ⟨n % 8, hdlt⟩ h0 h1 h2 rfl]
      have hp : (n - 1) % 8 = j := by omega
      rw [ih (n - 1) (by omega) _ (by omega) y l b k h0 (by omega) h2, hp, hj]
      rfl

/-! ## The last head -/

/-- At the eighth head of a batch group the block ends at the layer's first spelling. -/
theorem GC_step (c : Dev nD) (n : ℕ) (hn : n < cfg0.N) (h7 : n % 8 = 7) (hn1 : n - 1 < cfg0.N) (y : S256x8x1024.Idx)
    (l : Fin 256) (b : Fin 64) (k : Fin 1024)
    (h0 : (y 0).val = l.val) (h1 : b.val = 8 * (n / 8) + (y 1).val) (h2 : (y 2).val = k.val) :
    GC (iblk m c 0 ⟨n, hn⟩) (iblk m c 1 ⟨n, hn⟩) (iblk m c 2 ⟨n, hn⟩) (iblk m c 3 ⟨n, hn⟩) (iblk m c 4 ⟨n, hn⟩)
        (iblk m c 5 ⟨n, hn⟩) (outsAt0 m c (n - 1) hn1) y
      = Spec.outK (aH m c) (aWq m c) (aWo m c) (aP m c) (aG m c) (aB m c) l b k := by
  have hN : n < 64 := lt_of_lt_of_eq hn N_0
  have hl := loc_eq y l k h0 h2
  unfold GC
  rw [hl, lnorm_spec, ld1024_eq, ld1024_eq]
  unfold Spec.outK
  refine lnK_congr (fun k' => blk4 m c ⟨n, hn⟩ (ix1 k')) (fun k' => blk5 m c ⟨n, hn⟩ (ix1 k')) (fun k' => ?_) k
  have q0 : (((rowRect (y 1).val (row_lt y)).idx (ix3 l (0 : Fin 1) k')) 0).val = l.val := by
    show 0 + 1 * l.val = l.val; omega
  have q1 : (((rowRect (y 1).val (row_lt y)).idx (ix3 l (0 : Fin 1) k')) 1).val = (y 1).val := by
    show (y 1).val + 1 * 0 = (y 1).val; omega
  have q2 : (((rowRect (y 1).val (row_lt y)).idx (ix3 l (0 : Fin 1) k')) 2).val = k'.val := by
    show 0 + 1 * k'.val = k'.val; omega
  beta_reduce
  refine congrArg₂ (· + ·) ?_ ?_
  · exact blk0 m c ⟨n, hn⟩ _ (ix3 l b k') q0.symm (by rw [q1]; exact h1) q2.symm
  · refine (GB_step m c n hn _ _ l b k' ⟨7, by omega⟩ q0 (by rw [q1]; exact h1) q2 h7.symm).trans ?_
    rw [inv m c (n - 1) hn1 (by omega) _ l b k' q0 (by rw [q1]; omega) q2,
      show (n - 1) % 8 = 6 by omega, h7]
    rfl

end Cert.KernelIdeal.Final

end
-- ==== Proof.KernelFinalC.lean ====
import proofs.«168379_j15891378995467_2_alg».proof.Proof.KernelFinalB
import proofs.«168379_j15891378995467_2_alg».proof.Proof.KernelCanon
import proofs.«168379_j15891378995467_2_alg».proof.Proof.Gen.KernelIdeal.Value

set_option maxRecDepth 16384

noncomputable section

/-!
# The output array after the run

The output's block is written back at the eighth head of each batch group, where it holds the layer's first
spelling for the group's eight batch rows; batch row b lies in the block of group b / 8, so the eight write-backs
cover the array, which therefore ends at the layer's first spelling of the launch memory's arguments.
-/

namespace Cert.KernelIdeal.Final

open Cert.KernelIdeal Cert.KernelIdeal.Gen Cert.KernelIdeal.Body Cert.KernelIdeal.Rows Cert.KernelIdeal.Read
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ)

/-- An index of the output array is in point t's block iff each coordinate is in the block's range on its axis. -/
theorem mem_blk6 (t : Fin cfg0.N) (i : S256x64x1024.Idx) :
    i ∈ ((cfg0.win 6).blk t).view.set ↔ ∀ a : Fin 3, win0_6.index t a * S256x8x1024.size a ≤ (i a).val
      ∧ (i a).val < win0_6.index t a * S256x8x1024.size a + S256x8x1024.size a := by
  show i ∈ ((View.whole main_v5).slice (win0_6.rect t)).set ↔ _
  rw [View.set_slice_whole, Rect.mem_set_unit]
  exact Iff.rfl

/-- Every index of the output array is in the block written back at the eighth head of its batch group. -/
theorem cover6 (i : S256x64x1024.Idx) :
    ∃ t : Fin cfg0.N, (cfg0.win 6).flush t = true ∧ i ∈ ((cfg0.win 6).blk t).view.set := by
  have hi0 : (i 0).val < 256 := (i 0).isLt
  have hi1 : (i 1).val < 64 := (i 1).isLt
  have hi2 : (i 2).val < 1024 := (i 2).isLt
  have hlt : 8 * ((i 1).val / 8) + 7 < cfg0.N := lt_of_lt_of_eq (by omega : 8 * ((i 1).val / 8) + 7 < 64) N_0.symm
  refine ⟨⟨8 * ((i 1).val / 8) + 7, hlt⟩, (flush0_6 _).mpr (by show (8 * ((i 1).val / 8) + 7) % 8 = 7; omega), ?_⟩
  obtain ⟨-, -, -, -, -, -, -, -, -, -, -, -, e0, e1, e2⟩ := idx_facts ⟨8 * ((i 1).val / 8) + 7, hlt⟩
  have e1' : win0_6.index ⟨8 * ((i 1).val / 8) + 7, hlt⟩ (1 : Fin 3) = (8 * ((i 1).val / 8) + 7) / 8 := e1
  rw [mem_blk6]
  intro a
  match a with
  | ⟨0, _⟩ =>
    show win0_6.index ⟨8 * ((i 1).val / 8) + 7, hlt⟩ (0 : Fin 3) * 256 ≤ (i 0).val
      ∧ (i 0).val < win0_6.index ⟨8 * ((i 1).val / 8) + 7, hlt⟩ (0 : Fin 3) * 256 + 256
    omega
  | ⟨1, _⟩ =>
    show win0_6.index ⟨8 * ((i 1).val / 8) + 7, hlt⟩ (1 : Fin 3) * 8 ≤ (i 1).val
      ∧ (i 1).val < win0_6.index ⟨8 * ((i 1).val / 8) + 7, hlt⟩ (1 : Fin 3) * 8 + 8
    omega
  | ⟨2, _⟩ =>
    show win0_6.index ⟨8 * ((i 1).val / 8) + 7, hlt⟩ (2 : Fin 3) * 1024 ≤ (i 2).val
      ∧ (i 2).val < win0_6.index ⟨8 * ((i 1).val / 8) + 7, hlt⟩ (2 : Fin 3) * 1024 + 1024
    omega

/-- What a writing-back point writes back is its block of the layer's first spelling. -/
theorem flushed6_eq (c : Dev nD) (t : Fin cfg0.N) (hf : (cfg0.win 6).flush t = true) :
    (dats m 0 c).flushed 6 t = ((cfg0.win 6).blk t).view.read (Elt Ideal) (outOf m c) := by
  have h7 : t.val % 8 = 7 := (flush0_6 t).mp hf
  have h0 : ¬ t.val % 8 = 0 := by omega
  obtain ⟨-, -, -, -, -, -, -, -, -, -, -, -, e0, e1, e2⟩ := idx_facts t
  rw [Value.flushed6_C m c t h0 h7, out0_C_eq]
  funext z
  show GC (iblk m c 0 t) (iblk m c 1 t) (iblk m c 2 t) (iblk m c 3 t) (iblk m c 4 t) (iblk m c 5 t)
      (outsAt0 m c (t.val - 1) (Nat.lt_of_le_of_lt (Nat.sub_le _ _) t.isLt)) z
    = outOf m c (((cfg0.win 6).blk t).view.emb z)
  rw [outOf_apply]
  exact GC_step m c t.val t.isLt h7 _ z _ _ _
    (by show (z 0).val = win0_6.index t (0 : Fin 3) * 256 + 1 * (z 0).val; omega)
    (by show win0_6.index t (1 : Fin 3) * 8 + 1 * (z 1).val = 8 * (t.val / 8) + (z 1).val; omega)
    (by show (z 2).val = win0_6.index t (2 : Fin 3) * 1024 + 1 * (z 2).val; omega)

/-- THE OUTPUT ARRAY after the run is the layer's first spelling of the arguments. -/
theorem final6 (c : Dev nD) : (Gen.dats (F := Ideal) m 0 c).arrAt 6 cfg0.N = outOf m c :=
  (dats m 0 c).arrAt_eq_of_cover 6 (outOf m c) (flushed6_eq m c) cover6

/-- The run, read: the output at the layer's first spelling, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Value.run_blocks m ρ)

end Cert.KernelIdeal.Final

end
-- ==== Proof.RefReadProj.lean ====
import proofs.«168379_j15891378995467_2_alg».proof.Proof.RefRun
import proofs.«168379_j15891378995467_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

/-!
# The reference read at an index, part 1: the fused projection and its four parts

The reference's first operations compute the fused projection `h · Wqᵀ`, view its 4096 columns as 8 heads × 512,
cut each head's 512 columns into four parts of 128 (the query, the two keys, the value) and move the batch row and
the head in front.  Read at one index, each of these is the projection at the column `hd * 512 + q * 128 + d`.
-/

namespace Cert.ReferenceIdeal.RefRead

open Cert.ReferenceIdeal Cert.ReferenceIdeal.Gen Idealize.ShloMosaic Idealize.ShloMosaic.ValueIdx

/-- The six argument arrays as functions of their coordinates. -/
abbrev hF (a0 : (⟨S256x64x1024, .f32⟩ : BufTy).Contents (Elt Ideal)) : Fin 256 → Fin 64 → Fin 1024 → EReal := fun l b m => a0 (ix3 l b m)
abbrev wqF (a1 : (⟨S4096x1024, .f32⟩ : BufTy).Contents (Elt Ideal)) : Fin 4096 → Fin 1024 → EReal := fun n m => a1 (ix2 n m)
abbrev woF (a2 : (⟨S1024x1024, .f32⟩ : BufTy).Contents (Elt Ideal)) : Fin 1024 → Fin 1024 → EReal := fun m n => a2 (ix2 m n)
abbrev pF (a3 : (⟨S8x256, .f32⟩ : BufTy).Contents (Elt Ideal)) : Fin 8 → Fin 256 → EReal := fun hd l => a3 (ix2 hd l)
abbrev gF (a4 : (⟨S1024, .f32⟩ : BufTy).Contents (Elt Ideal)) : Fin 1024 → EReal := fun m => a4 (ix1 m)
abbrev btF (a5 : (⟨S1024, .f32⟩ : BufTy).Contents (Elt Ideal)) : Fin 1024 → EReal := fun m => a5 (ix1 m)

variable (a0 : (⟨S256x64x1024, .f32⟩ : BufTy).Contents (Elt Ideal)) (a1 : (⟨S4096x1024, .f32⟩ : BufTy).Contents (Elt Ideal))
  (a2 : (⟨S1024x1024, .f32⟩ : BufTy).Contents (Elt Ideal)) (a3 : (⟨S8x256, .f32⟩ : BufTy).Contents (Elt Ideal))
  (a4 a5 : (⟨S1024, .f32⟩ : BufTy).Contents (Elt Ideal))

/-- The contraction over the 1024 model features, as the sum over that feature. -/
theorem v0_at (l : Fin 256) (b : Fin 64) (n : Fin 4096) :
    RefRun.res_main_v0 (F := Ideal) a0 a1 a2 a3 a4 a5 (ix3 l b n) = Cert.Spec.proj (hF a0) (wqF a1) l b n := by
  unfold RefRun.res_main_v0
  refine (Ideal.dotGeneral_apply _ none .single a0 a1 (ix3 l b n)).trans ?_
  unfold Cert.Spec.proj
  rw [← Equiv.sum_comp (contrEquiv1 dot_S256x64x1024_S4096x1024_S256x64x4096_2_1_01_0_n_n 1024 rfl rfl).symm]
  refine Finset.sum_congr rfl fun m _ => ?_
  congr 1
  · refine congrArg a0 (funext fun a => Fin.ext ?_)
    match a with
    | ⟨0, _⟩ => rfl
    | ⟨1, _⟩ => rfl
    | ⟨2, _⟩ => exact (DotDims.lhsIdx_val_of_single _ rfl _ _).trans (contrEquiv1_symm_val _ 1024 rfl rfl m)
  · refine congrArg a1 (funext fun a => Fin.ext ?_)
    match a with
    | ⟨0, _⟩ => rfl
    | ⟨1, _⟩ => exact (DotDims.rhsIdx_val_of_single _ rfl _ _).trans (contrEquiv1_symm_val _ 1024 rfl rfl m)

/-- Column `c` of head `hd` is column `hd * 512 + c` of the projection. -/
theorem v1_at (l : Fin 256) (b : Fin 64) (hd : Fin 8) (c : Fin 512) :
    RefRun.res_main_v1 (F := Ideal) a0 a1 a2 a3 a4 a5 (ix4 l b hd c)
      = Cert.Spec.proj (hF a0) (wqF a1) l b ⟨hd.val * 512 + c.val, by omega⟩ := by
  unfold RefRun.res_main_v1
  refine (shapeCast_apply _ _ (ix4 l b hd c) (ix3 l b (⟨hd.val * 512 + c.val, by omega⟩ : Fin 4096)) ?_).trans (v0_at a0 a1 a2 a3 a4 a5 l b _)
  rw [Shape.rowMajor_val_three, Shape.rowMajor_val_four]
  show (l.val * 64 + b.val) * 4096 + (hd.val * 512 + c.val) = ((l.val * 64 + b.val) * 8 + hd.val) * 512 + c.val
  omega

theorem v2_at (l : Fin 256) (b : Fin 64) (hd : Fin 8) (d : Fin 128) :
    RefRun.res_main_v2 (F := Ideal) a0 a1 a2 a3 a4 a5 (ix4 l b hd d) = Cert.Spec.proj (hF a0) (wqF a1) l b (Cert.Spec.col hd 0 d) := by
  unfold RefRun.res_main_v2
  refine (extractStridedSlice_apply _ _ _ (ix4 l b hd d) (ix4 l b hd (⟨0 + d.val, by omega⟩ : Fin 512)) ?_).trans ?_
  · intro a
    match a with
    | ⟨0, _⟩ => show l.val = 0 + l.val; omega
    | ⟨1, _⟩ => show b.val = 0 + b.val; omega
    | ⟨2, _⟩ => show hd.val = 0 + hd.val; omega
    | ⟨3, _⟩ => show 0 + d.val = 0 + d.val; rfl
  · refine (v1_at a0 a1 a2 a3 a4 a5 l b hd _).trans ?_
    refine congrArg (Cert.Spec.proj (hF a0) (wqF a1) l b) (Fin.ext ?_)
    show hd.val * 512 + (0 + d.val) = hd.val * 512 + 0 * 128 + d.val
    omega

theorem v3_at (l : Fin 256) (b : Fin 64) (hd : Fin 8) (d : Fin 128) :
    RefRun.res_main_v3 (F := Ideal) a0 a1 a2 a3 a4 a5 (ix4 l b hd d) = Cert.Spec.proj (hF a0) (wqF a1) l b (Cert.Spec.col hd 1 d) := by
  unfold RefRun.res_main_v3
  refine (extractStridedSlice_apply _ _ _ (ix4 l b hd d) (ix4 l b hd (⟨128 + d.val, by omega⟩ : Fin 512)) ?_).trans ?_
  · intro a
    match a with
    | ⟨0, _⟩ => show l.val = 0 + l.val; omega
    | ⟨1, _⟩ => show b.val = 0 + b.val; omega
    | ⟨2, _⟩ => show hd.val = 0 + hd.val; omega
    | ⟨3, _⟩ => show 128 + d.val = 128 + d.val; rfl
  · refine (v1_at a0 a1 a2 a3 a4 a5 l b hd _).trans ?_
    refine congrArg (Cert.Spec.proj (hF a0) (wqF a1) l b) (Fin.ext ?_)
    show hd.val * 512 + (128 + d.val) = hd.val * 512 + 1 * 128 + d.val
    omega

theorem v4_at (l : Fin 256) (b : Fin 64) (hd : Fin 8) (d : Fin 128) :
    RefRun.res_main_v4 (F := Ideal) a0 a1 a2 a3 a4 a5 (ix4 l b hd d) = Cert.Spec.proj (hF a0) (wqF a1) l b (Cert.Spec.col hd 2 d) := by
  unfold RefRun.res_main_v4
  refine (extractStridedSlice_apply _ _ _ (ix4 l b hd d) (ix4 l b hd (⟨256 + d.val, by omega⟩ : Fin 512)) ?_).trans ?_
  · intro a
    match a with
    | ⟨0, _⟩ => show l.val = 0 + l.val; omega
    | ⟨1, _⟩ => show b.val = 0 + b.val; omega
    | ⟨2, _⟩ => show hd.val = 0 + hd.val; omega
    | ⟨3, _⟩ => show 256 + d.val = 256 + d.val; rfl
  · refine (v1_at a0 a1 a2 a3 a4 a5 l b hd _).trans ?_
    refine congrArg (Cert.Spec.proj (hF a0) (wqF a1) l b) (Fin.ext ?_)
    show hd.val * 512 + (256 + d.val) = hd.val * 512 + 2 * 128 + d.val
    omega

theorem v5_at (l : Fin 256) (b : Fin 64) (hd : Fin 8) (d : Fin 128) :
    RefRun.res_main_v5 (F := Ideal) a0 a1 a2 a3 a4 a5 (ix4 l b hd d) = Cert.Spec.proj (hF a0) (wqF a1) l b (Cert.Spec.col hd 3 d) := by
  unfold RefRun.res_main_v5
  refine (extractStridedSlice_apply _ _ _ (ix4 l b hd d) (ix4 l b hd (⟨384 + d.val, by omega⟩ : Fin 512)) ?_).trans ?_
  · intro a
    match a with
    | ⟨0, _⟩ => show l.val = 0 + l.val; omega
    | ⟨1, _⟩ => show b.val = 0 + b.val; omega
    | ⟨2, _⟩ => show hd.val = 0 + hd.val; omega
    | ⟨3, _⟩ => show 384 + d.val = 384 + d.val; rfl
  · refine (v1_at a0 a1 a2 a3 a4 a5 l b hd _).trans ?_
    refine congrArg (Cert.Spec.proj (hF a0) (wqF a1) l b) (Fin.ext ?_)
    show hd.val * 512 + (384 + d.val) = hd.val * 512 + 3 * 128 + d.val
    omega

theorem v6_at (b : Fin 64) (hd : Fin 8) (l : Fin 256) (d : Fin 128) :
    RefRun.res_main_v6 (F := Ideal) a0 a1 a2 a3 a4 a5 (ix4 b hd l d) = Cert.Spec.proj (hF a0) (wqF a1) l b (Cert.Spec.col hd 0 d) := by
  unfold RefRun.res_main_v6
  refine (transpose_apply _ _ _ (ix4 b hd l d) (ix4 l b hd d) ?_).trans (v2_at a0 a1 a2 a3 a4 a5 l b hd d)
  intro a
  match a with
  | ⟨0, _⟩ => rfl
  | ⟨1, _⟩ => rfl
  | ⟨2, _⟩ => rfl
  | ⟨3, _⟩ => rfl

theorem v14_at (b : Fin 64) (hd : Fin 8) (l : Fin 256) (d : Fin 128) :
    RefRun.res_main_v14 (F := Ideal) a0 a1 a2 a3 a4 a5 (ix4 b hd l d) = Cert.Spec.proj (hF a0) (wqF a1) l b (Cert.Spec.col hd 1 d) := by
  unfold RefRun.res_main_v14
  refine (transpose_apply _ _ _ (ix4 b hd l d) (ix4 l b hd d) ?_).trans (v3_at a0 a1 a2 a3 a4 a5 l b hd d)
  intro a
  match a with
  | ⟨0, _⟩ => rfl
  | ⟨1, _⟩ => rfl
  | ⟨2, _⟩ => rfl
  | ⟨3, _⟩ => rfl

theorem v22_at (b : Fin 64) (hd : Fin 8) (l : Fin 256) (d : Fin 128) :
    RefRun.res_main_v22 (F := Ideal) a0 a1 a2 a3 a4 a5 (ix4 b hd l d) = Cert.Spec.proj (hF a0) (wqF a1) l b (Cert.Spec.col hd 2 d) := by
  unfold RefRun.res_main_v22
  refine (transpose_apply _ _ _ (ix4 b hd l d) (ix4 l b hd d) ?_).trans (v4_at a0 a1 a2 a3 a4 a5 l b hd d)
  intro a
  match a with
  | ⟨0, _⟩ => rfl
  | ⟨1, _⟩ => rfl
  | ⟨2, _⟩ => rfl
  | ⟨3, _⟩ => rfl

theorem v30_at (b : Fin 64) (hd : Fin 8) (l : Fin 256) (d : Fin 128) :
    RefRun.res_main_v30 (F := Ideal) a0 a1 a2 a3 a4 a5 (ix4 b hd l d) = Cert.Spec.proj (hF a0) (wqF a1) l b (Cert.Spec.col hd 3 d) := by
  unfold RefRun.res_main_v30
  refine (transpose_apply _ _ _ (ix4 b hd l d) (ix4 l b hd d) ?_).trans (v5_at a0 a1 a2 a3 a4 a5 l b hd d)
  intro a
  match a with
  | ⟨0, _⟩ => rfl
  | ⟨1, _⟩ => rfl
  | ⟨2, _⟩ => rfl
  | ⟨3, _⟩ => rfl

end Cert.ReferenceIdeal.RefRead
-- ==== Proof.RefReadFeat.lean ====
import proofs.«168379_j15891378995467_2_alg».proof.Proof.RefRun
import proofs.«168379_j15891378995467_2_alg».proof.Proof.Spec
import proofs.«168379_j15891378995467_2_alg».proof.Proof.RefReadProj
import Idealize.ShloMosaic.Lib.ValueIdx
import Idealize.ShloMosaic.Lib.IdealHost
import Idealize.ShloMosaic.Lib.Pipeline.Value
import Idealize.ShloMosaic.PureOps.Ideal.Laws

noncomputable section

open scoped BigOperators

/-!
# The reference read at an index, part 2: the feature map and its normalisation

Each of the query and the two keys passes the map `elu u + 1` entry by entry, is summed over its 128 features, and is
divided by that sum.
-/

namespace Cert.ReferenceIdeal.RefRead

open Cert.ReferenceIdeal Cert.ReferenceIdeal.Gen Idealize.ShloMosaic Idealize.ShloMosaic.ValueIdx

variable (a0 : (⟨S256x64x1024, .f32⟩ : BufTy).Contents (Elt Ideal)) (a1 : (⟨S4096x1024, .f32⟩ : BufTy).Contents (Elt Ideal))
  (a2 : (⟨S1024x1024, .f32⟩ : BufTy).Contents (Elt Ideal)) (a3 : (⟨S8x256, .f32⟩ : BufTy).Contents (Elt Ideal))
  (a4 a5 : (⟨S1024, .f32⟩ : BufTy).Contents (Elt Ideal))

/-- A comparison "greater than" selecting between two values is the `if` on the order. -/
theorem select_ogt (u z A B : EReal) :
    Scalar.select (FloatOps.cmpf (F := Ideal) (φ := .f32) .ogt u z) A B = if z < u then A else B := by
  show (if BitVec.ofBool (decide (z < u)) = 1 then A else B) = _
  by_cases h : z < u <;> simp [h]

/-- The ELU written with two selects, a scalar one times the exponential minus one, plus a scalar one, at an entry. -/
theorem elu_at (x : FVec Ideal S64x8x256x128 .f32) (i : S64x8x256x128.Idx) :
    (addf (F := Ideal)
      (select (cmpf .ogt x (broadcastInDim S64x8x256x128 ![] bcast_S_S64x8x256x128 (constant S_ .f32 0x00000000#32))) x
        (mulf (broadcastInDim S64x8x256x128 ![] bcast_S_S64x8x256x128 (constant S_ .f32 0x3F800000#32))
          (Host.expm1 (select (cmpf .ogt x (broadcastInDim S64x8x256x128 ![] bcast_S_S64x8x256x128 (constant S_ .f32 0x00000000#32)))
            (broadcastInDim S64x8x256x128 ![] bcast_S_S64x8x256x128 (id (constant S_ .f32 0x00000000#32))) x))))
      (broadcastInDim S64x8x256x128 ![] bcast_S_S64x8x256x128 (constant S_ .f32 0x3F800000#32))) i = Cert.Spec.featR (x i) := by
  show Scalar.select (FloatOps.cmpf (F := Ideal) (φ := .f32) .ogt (x i) Cert.Spec.c0) (x i)
      (Cert.Spec.c1 * (Ideal.exp (Scalar.select (FloatOps.cmpf (F := Ideal) (φ := .f32) .ogt (x i) Cert.Spec.c0) Cert.Spec.c0 (x i)) - 1))
      + Cert.Spec.c1 = _
  rw [select_ogt, select_ogt]
  rfl

/-- The host's sum over the last axis from the scalar zero: the sum over the 128 features. -/
theorem reduce_last_at (x : (⟨S64x8x256x128, .f32⟩ : BufTy).Contents (Elt Ideal)) (b : Fin 64) (hd : Fin 8) (l : Fin 256) :
    Host.reduceAdd x (constant (F := Ideal) S_ .f32 0x00000000#32) reducesTo_S64x8x256x128_S64x8x256_d3 h_S_ (ix3 b hd l)
      = ∑ d : Fin 128, x (ix4 b hd l d) := by
  refine (hostReduceAdd_apply _ _ _ _ _).trans ?_
  refine (Ideal.hostReduceAdd_single reducesTo_S64x8x256x128_S64x8x256_d3 (by decide) x _ (ix3 b hd l)).trans ?_
  rw [show constant (F := Ideal) S_ .f32 0x00000000#32 (Shape.Idx.first h_S_) = 0 from Ideal.ofBits_zero_f32, zero_add]
  refine Finset.sum_congr rfl fun d _ => congrArg x (funext fun a => Fin.ext ?_)
  match a with
  | ⟨0, _⟩ => rfl
  | ⟨1, _⟩ => rfl
  | ⟨2, _⟩ => rfl
  | ⟨3, _⟩ => rfl

/-- A [64,8,256] array broadcast along a new last axis, first of extent one and then 128, reads the array. -/
theorem bcast_last_at (y : (⟨S64x8x256, .f32⟩ : BufTy).Contents (Elt Ideal)) (b : Fin 64) (hd : Fin 8) (l : Fin 256) (d : Fin 128) :
    broadcastInDim S64x8x256x128 ![0, 1, 2, 3] bcast_S64x8x256x1_S64x8x256x128_0_1_2_3
      (broadcastInDim S64x8x256x1 ![0, 1, 2] bcast_S64x8x256_S64x8x256x1_0_1_2 y) (ix4 b hd l d) = y (ix3 b hd l) := by
  refine (broadcastInDim_apply _ _ _ (ix4 b hd l d) (ix4 b hd l (0 : Fin 1)) ?_).trans ?_
  · intro a
    match a with
    | ⟨0, _⟩ => rfl
    | ⟨1, _⟩ => rfl
    | ⟨2, _⟩ => rfl
    | ⟨3, _⟩ => rfl
  · refine broadcastInDim_apply _ _ _ (ix4 b hd l (0 : Fin 1)) (ix3 b hd l) ?_
    intro a
    match a with
    | ⟨0, _⟩ => rfl
    | ⟨1, _⟩ => rfl
    | ⟨2, _⟩ => rfl

/-- The feature map of part 0: the ELU of the projected entry, plus one. -/
theorem v9_at (b : Fin 64) (hd : Fin 8) (l : Fin 256) (d : Fin 128) :
    RefRun.res_main_v9 (F := Ideal) a0 a1 a2 a3 a4 a5 (ix4 b hd l d)
      = Cert.Spec.featR (Cert.Spec.proj (hF a0) (wqF a1) l b (Cert.Spec.col hd 0 d)) := by
  unfold RefRun.res_main_v9 RefRun.res_main_v7 RefRun.res_main_v8 RefRun.res_main_cst RefRun.res_main_call0_v1 RefRun.res_main_call0_v0 RefRun.res_main_call0_cst RefRun.res_main_call0_v7 RefRun.res_main_call0_v6 RefRun.res_main_call0_cst_2 RefRun.res_main_call0_v5 RefRun.res_main_call0_v4 RefRun.res_main_call0_v3 RefRun.res_main_call0_v2 RefRun.res_main_call0_cst_0 RefRun.res_main_call0_call0_v1 RefRun.res_main_call0_call0_v0 RefRun.res_main_call0_cst_1
  exact (elu_at _ _).trans (congrArg Cert.Spec.featR (v6_at a0 a1 a2 a3 a4 a5 b hd l d))

/-- The sum of part 0's features over the 128 features. -/
theorem v10_at (b : Fin 64) (hd : Fin 8) (l : Fin 256) :
    RefRun.res_main_v10 (F := Ideal) a0 a1 a2 a3 a4 a5 (ix3 b hd l)
      = ∑ d : Fin 128, Cert.Spec.featR (Cert.Spec.proj (hF a0) (wqF a1) l b (Cert.Spec.col hd 0 d)) := by
  unfold RefRun.res_main_v10 RefRun.res_main_cst_0
  refine (reduce_last_at _ b hd l).trans ?_
  exact Finset.sum_congr rfl fun d _ => v9_at a0 a1 a2 a3 a4 a5 b hd l d

/-- Part 0 through the feature map, normalised over the features. -/
theorem v13_at (b : Fin 64) (hd : Fin 8) (l : Fin 256) (d : Fin 128) :
    RefRun.res_main_v13 (F := Ideal) a0 a1 a2 a3 a4 a5 (ix4 b hd l d)
      = Cert.Spec.phiP Cert.Spec.featR (hF a0) (wqF a1) 0 l b hd d := by
  unfold RefRun.res_main_v13 RefRun.res_main_v12 RefRun.res_main_v11
  refine (hostDivf_apply _ _ _).trans ?_
  unfold Cert.Spec.phiP
  refine congrArg₂ Ideal.div (v9_at a0 a1 a2 a3 a4 a5 b hd l d) ?_
  refine (bcast_last_at _ b hd l d).trans (v10_at a0 a1 a2 a3 a4 a5 b hd l)

/-- The feature map of part 1: the ELU of the projected entry, plus one. -/
theorem v17_at (b : Fin 64) (hd : Fin 8) (l : Fin 256) (d : Fin 128) :
    RefRun.res_main_v17 (F := Ideal) a0 a1 a2 a3 a4 a5 (ix4 b hd l d)
      = Cert.Spec.featR (Cert.Spec.proj (hF a0) (wqF a1) l b (Cert.Spec.col hd 1 d)) := by
  unfold RefRun.res_main_v17 RefRun.res_main_v15 RefRun.res_main_v16 RefRun.res_main_cst_1 RefRun.res_main_call1_v1 RefRun.res_main_call1_v0 RefRun.res_main_call1_cst RefRun.res_main_call1_v7 RefRun.res_main_call1_v6 RefRun.res_main_call1_cst_2 RefRun.res_main_call1_v5 RefRun.res_main_call1_v4 RefRun.res_main_call1_v3 RefRun.res_main_call1_v2 RefRun.res_main_call1_cst_0 RefRun.res_main_call1_call0_v1 RefRun.res_main_call1_call0_v0 RefRun.res_main_call1_cst_1
  exact (elu_at _ _).trans (congrArg Cert.Spec.featR (v14_at a0 a1 a2 a3 a4 a5 b hd l d))

/-- The sum of part 1's features over the 128 features. -/
theorem v18_at (b : Fin 64) (hd : Fin 8) (l : Fin 256) :
    RefRun.res_main_v18 (F := Ideal) a0 a1 a2 a3 a4 a5 (ix3 b hd l)
      = ∑ d : Fin 128, Cert.Spec.featR (Cert.Spec.proj (hF a0) (wqF a1) l b (Cert.Spec.col hd 1 d)) := by
  unfold RefRun.res_main_v18 RefRun.res_main_cst_2
  refine (reduce_last_at _ b hd l).trans ?_
  exact Finset.sum_congr rfl fun d _ => v17_at a0 a1 a2 a3 a4 a5 b hd l d

/-- Part 1 through the feature map, normalised over the features. -/
theorem v21_at (b : Fin 64) (hd : Fin 8) (l : Fin 256) (d : Fin 128) :
    RefRun.res_main_v21 (F := Ideal) a0 a1 a2 a3 a4 a5 (ix4 b hd l d)
      = Cert.Spec.phiP Cert.Spec.featR (hF a0) (wqF a1) 1 l b hd d := by
  unfold RefRun.res_main_v21 RefRun.res_main_v20 RefRun.res_main_v19
  refine (hostDivf_apply _ _ _).trans ?_
  unfold Cert.Spec.phiP
  refine congrArg₂ Ideal.div (v17_at a0 a1 a2 a3 a4 a5 b hd l d) ?_
  refine (bcast_last_at _ b hd l d).trans (v18_at a0 a1 a2 a3 a4 a5 b hd l)

/-- The feature map of part 2: the ELU of the projected entry, plus one. -/
theorem v25_at (b : Fin 64) (hd : Fin 8) (l : Fin 256) (d : Fin 128) :
    RefRun.res_main_v25 (F := Ideal) a0 a1 a2 a3 a4 a5 (ix4 b hd l d)
      = Cert.Spec.featR (Cert.Spec.proj (hF a0) (wqF a1) l b (Cert.Spec.col hd 2 d)) := by
  unfold RefRun.res_main_v25 RefRun.res_main_v23 RefRun.res_main_v24 RefRun.res_main_cst_3 RefRun.res_main_call2_v1 RefRun.res_main_call2_v0 RefRun.res_main_call2_cst RefRun.res_main_call2_v7 RefRun.res_main_call2_v6 RefRun.res_main_call2_cst_2 RefRun.res_main_call2_v5 RefRun.res_main_call2_v4 RefRun.res_main_call2_v3 RefRun.res_main_call2_v2 RefRun.res_main_call2_cst_0 RefRun.res_main_call2_call0_v1 RefRun.res_main_call2_call0_v0 RefRun.res_main_call2_cst_1
  exact (elu_at _ _).trans (congrArg Cert.Spec.featR (v22_at a0 a1 a2 a3 a4 a5 b hd l d))

/-- The sum of part 2's features over the 128 features. -/
theorem v26_at (b : Fin 64) (hd : Fin 8) (l : Fin 256) :
    RefRun.res_main_v26 (F := Ideal) a0 a1 a2 a3 a4 a5 (ix3 b hd l)
      = ∑ d : Fin 128, Cert.Spec.featR (Cert.Spec.proj (hF a0) (wqF a1) l b (Cert.Spec.col hd 2 d)) := by
  unfold RefRun.res_main_v26 RefRun.res_main_cst_4
  refine (reduce_last_at _ b hd l).trans ?_
  exact Finset.sum_congr rfl fun d _ => v25_at a0 a1 a2 a3 a4 a5 b hd l d

/-- Part 2 through the feature map, normalised over the features. -/
theorem v29_at (b : Fin 64) (hd : Fin 8) (l : Fin 256) (d : Fin 128) :
    RefRun.res_main_v29 (F := Ideal) a0 a1 a2 a3 a4 a5 (ix4 b hd l d)
      = Cert.Spec.phiP Cert.Spec.featR (hF a0) (wqF a1) 2 l b hd d := by
  unfold RefRun.res_main_v29 RefRun.res_main_v28 RefRun.res_main_v27
  refine (hostDivf_apply _ _ _).trans ?_
  unfold Cert.Spec.phiP
  refine congrArg₂ Ideal.div (v25_at a0 a1 a2 a3 a4 a5 b hd l d) ?_
  refine (bcast_last_at _ b hd l d).trans (v26_at a0 a1 a2 a3 a4 a5 b hd l)

end Cert.ReferenceIdeal.RefRead
-- ==== Proof.RefReadScore.lean ====
import proofs.«168379_j15891378995467_2_alg».proof.Proof.RefRun
import proofs.«168379_j15891378995467_2_alg».proof.Proof.Spec
import proofs.«168379_j15891378995467_2_alg».proof.Proof.RefReadProj
import proofs.«168379_j15891378995467_2_alg».proof.Proof.RefReadFeat
import Idealize.ShloMosaic.Lib.ValueIdx
import Idealize.ShloMosaic.Lib.IdealHost
import Idealize.ShloMosaic.Lib.Pipeline.Value
import Idealize.ShloMosaic.PureOps.Ideal.Laws

noncomputable section

open scoped BigOperators

/-!
# The reference read at an index, part 3: the scores, the causal mask and the attentions

For one batch row and one head, the query's normalised features at position `l` are contracted with each key's at
position `s`; the lower-triangular mask (a row index compared with a column index) keeps `s ≤ l`; the masked
scores are contracted with the values over `s`.
-/

namespace Cert.ReferenceIdeal.RefRead

open Cert.ReferenceIdeal Cert.ReferenceIdeal.Gen Idealize.ShloMosaic Idealize.ShloMosaic.ValueIdx

variable (a0 : (⟨S256x64x1024, .f32⟩ : BufTy).Contents (Elt Ideal)) (a1 : (⟨S4096x1024, .f32⟩ : BufTy).Contents (Elt Ideal))
  (a2 : (⟨S1024x1024, .f32⟩ : BufTy).Contents (Elt Ideal)) (a3 : (⟨S8x256, .f32⟩ : BufTy).Contents (Elt Ideal))
  (a4 a5 : (⟨S1024, .f32⟩ : BufTy).Contents (Elt Ideal))

/-- A batched contraction over the last axis of both operands, as the sum over that axis. -/
theorem dot_qk_at (x : FVec Ideal S64x8x256x128 .f32) (y : FVec Ideal S64x8x256x128 .f32) (b : Fin 64) (hd : Fin 8) (l s : Fin 256) :
    Host.dotGeneral dot_S64x8x256x128_S64x8x256x128_S64x8x256x256_3_3_2_2_01_01 none x y (ix4 b hd l s)
      = ∑ d : Fin 128, x (ix4 b hd l d) * y (ix4 b hd s d) := by
  refine (Ideal.dotGeneral_apply _ none .single x y (ix4 b hd l s)).trans ?_
  rw [← Equiv.sum_comp (contrEquiv1 dot_S64x8x256x128_S64x8x256x128_S64x8x256x256_3_3_2_2_01_01 128 rfl rfl).symm]
  refine Finset.sum_congr rfl fun d _ => ?_
  congr 1
  · refine congrArg x (funext fun a => Fin.ext ?_)
    match a with
    | ⟨0, _⟩ => rfl
    | ⟨1, _⟩ => rfl
    | ⟨2, _⟩ => rfl
    | ⟨3, _⟩ => exact (DotDims.lhsIdx_val_of_single _ rfl _ _).trans (contrEquiv1_symm_val _ 128 rfl rfl d)
  · refine congrArg y (funext fun a => Fin.ext ?_)
    match a with
    | ⟨0, _⟩ => rfl
    | ⟨1, _⟩ => rfl
    | ⟨2, _⟩ => rfl
    | ⟨3, _⟩ => exact (DotDims.rhsIdx_val_of_single _ rfl _ _).trans (contrEquiv1_symm_val _ 128 rfl rfl d)

/-- A batched contraction of the left operand's last axis with the right operand's third, as the sum over that axis. -/
theorem dot_av_at (x : FVec Ideal S64x8x256x256 .f32) (y : FVec Ideal S64x8x256x128 .f32) (b : Fin 64) (hd : Fin 8) (l : Fin 256) (d : Fin 128) :
    Host.dotGeneral dot_S64x8x256x256_S64x8x256x128_S64x8x256x128_3_2_2_3_01_01 none x y (ix4 b hd l d)
      = ∑ s : Fin 256, x (ix4 b hd l s) * y (ix4 b hd s d) := by
  refine (Ideal.dotGeneral_apply _ none .single x y (ix4 b hd l d)).trans ?_
  rw [← Equiv.sum_comp (contrEquiv1 dot_S64x8x256x256_S64x8x256x128_S64x8x256x128_3_2_2_3_01_01 256 rfl rfl).symm]
  refine Finset.sum_congr rfl fun s _ => ?_
  congr 1
  · refine congrArg x (funext fun a => Fin.ext ?_)
    match a with
    | ⟨0, _⟩ => rfl
    | ⟨1, _⟩ => rfl
    | ⟨2, _⟩ => rfl
    | ⟨3, _⟩ => exact (DotDims.lhsIdx_val_of_single _ rfl _ _).trans (contrEquiv1_symm_val _ 256 rfl rfl s)
  · refine congrArg y (funext fun a => Fin.ext ?_)
    match a with
    | ⟨0, _⟩ => rfl
    | ⟨1, _⟩ => rfl
    | ⟨2, _⟩ => exact (DotDims.rhsIdx_val_of_single _ rfl _ _).trans (contrEquiv1_symm_val _ 256 rfl rfl s)
    | ⟨3, _⟩ => rfl

/-- A natural number below 256 as a 32-bit word, read signed, is that number. -/
theorem toInt_ofNat_small (n : Nat) (h : n < 256) : (BitVec.ofNat 32 n).toInt = (n : Int) := by
  unfold BitVec.toInt
  rw [BitVec.toNat_ofNat]
  have hn : n % 2 ^ 32 = n := Nat.mod_eq_of_lt (by omega)
  rw [hn, if_pos (by omega)]

/-- The word comparison "row plus zero is at least column", selecting between the bits one and zero. -/
theorem tril_word (l s : Fin 256) :
    Scalar.select (IntOp.cmpi .sge (IntOp.addi (BitVec.ofNat 32 l.val) 0#32) (BitVec.ofNat 32 s.val)) (1#1) (0#1)
      = if s.val ≤ l.val then (1#1 : BitVec 1) else 0#1 := by
  have hl := toInt_ofNat_small l.val l.isLt
  have hs := toInt_ofNat_small s.val s.isLt
  have ha : IntOp.addi (BitVec.ofNat 32 l.val) 0#32 = BitVec.ofNat 32 l.val := BitVec.add_zero _
  rw [ha]
  by_cases h : s.val ≤ l.val
  · rw [if_pos h, IntOp.cmpi_sge.mpr (by rw [hl, hs]; exact_mod_cast h), select_one]
  · rw [if_neg h, eq_zero_of_ne_one (mt IntOp.cmpi_sge.mp (by rw [hl, hs]; exact_mod_cast h)), select_zero]

/-- The lower-triangular mask at row `l`, column `s`. -/
theorem tril_at (l s : Fin 256) :
    (select (cmpi .sge (addi (iotaInDim S256x256 32 0) (broadcastInDim S256x256 ![] bcast_S_S256x256 (constantI S_ 32 0#32))) (iotaInDim S256x256 32 1))
      (broadcastInDim S256x256 ![] bcast_S_S256x256 (constantI S_ 1 1#1)) (broadcastInDim S256x256 ![] bcast_S_S256x256 (constantI S_ 1 0#1)) : IVec S256x256 1) (ix2 l s)
      = if s.val ≤ l.val then (1#1 : BitVec 1) else 0#1 :=
  tril_word l s

/-- The select of an array against the scalar zero under the lower-triangular mask broadcast over batch rows and heads. -/
theorem where_tril_at (sc : FVec Ideal S64x8x256x256 .f32) (b : Fin 64) (hd : Fin 8) (l s : Fin 256) :
    select (broadcastInDim S64x8x256x256 ![2, 3] bcast_S256x256_S64x8x256x256_2_3
        (select (cmpi .sge (addi (iotaInDim S256x256 32 0) (broadcastInDim S256x256 ![] bcast_S_S256x256 (constantI S_ 32 0#32))) (iotaInDim S256x256 32 1))
          (broadcastInDim S256x256 ![] bcast_S_S256x256 (constantI S_ 1 1#1)) (broadcastInDim S256x256 ![] bcast_S_S256x256 (constantI S_ 1 0#1)) : IVec S256x256 1))
      sc (broadcastInDim S64x8x256x256 ![] bcast_S_S64x8x256x256 (constant (F := Ideal) S_ .f32 0x00000000#32)) (ix4 b hd l s)
      = if s.val ≤ l.val then sc (ix4 b hd l s) else Cert.Spec.c0 := by
  refine (select_apply _ _ _ _).trans ?_
  rw [broadcastInDim_apply _ bcast_S256x256_S64x8x256x256_2_3 _ (ix4 b hd l s) (ix2 l s) (fun a => by
    match a with
    | ⟨0, _⟩ => rfl
    | ⟨1, _⟩ => rfl), tril_at l s]
  by_cases h : s.val ≤ l.val
  · rw [if_pos h, if_pos h, select_one]
  · rw [if_neg h, if_neg h, select_zero]; rfl

/-- The scores of key 1: the inner product of the query at `l` with the key at `s`. -/
theorem v31_at (b : Fin 64) (hd : Fin 8) (l s : Fin 256) :
    RefRun.res_main_v31 (F := Ideal) a0 a1 a2 a3 a4 a5 (ix4 b hd l s)
      = Cert.Spec.score Cert.Spec.featR (hF a0) (wqF a1) 1 b hd l s := by
  unfold RefRun.res_main_v31
  refine (dot_qk_at _ _ b hd l s).trans ?_
  unfold Cert.Spec.score
  exact Finset.sum_congr rfl fun d _ => congrArg₂ (· * ·) (v13_at a0 a1 a2 a3 a4 a5 b hd l d) (v21_at a0 a1 a2 a3 a4 a5 b hd s d)

/-- The causal mask on key 1's scores: kept at `s ≤ l`, zero after. -/
theorem v34_at (b : Fin 64) (hd : Fin 8) (l s : Fin 256) :
    RefRun.res_main_v34 (F := Ideal) a0 a1 a2 a3 a4 a5 (ix4 b hd l s)
      = if s.val ≤ l.val then Cert.Spec.score Cert.Spec.featR (hF a0) (wqF a1) 1 b hd l s else Cert.Spec.c0 := by
  unfold RefRun.res_main_v34 RefRun.res_main_call4_v1 RefRun.res_main_call4_v0 RefRun.res_main_cst_5 RefRun.res_main_v33 RefRun.res_main_call3_v5 RefRun.res_main_call3_c_0 RefRun.res_main_call3_v4 RefRun.res_main_call3_v3 RefRun.res_main_call3_v2 RefRun.res_main_call3_v1 RefRun.res_main_call3_c RefRun.res_main_call3_v0 RefRun.res_main_v32 RefRun.res_main_c
  refine (where_tril_at _ b hd l s).trans ?_
  rw [v31_at a0 a1 a2 a3 a4 a5 b hd l s]

/-- The causal attention for key 1: the masked scores times the values, summed over the positions. -/
theorem v35_at (b : Fin 64) (hd : Fin 8) (l : Fin 256) (d : Fin 128) :
    RefRun.res_main_v35 (F := Ideal) a0 a1 a2 a3 a4 a5 (ix4 b hd l d)
      = Cert.Spec.att Cert.Spec.featR (hF a0) (wqF a1) 1 l b hd d := by
  unfold RefRun.res_main_v35
  refine (dot_av_at _ _ b hd l d).trans ?_
  unfold Cert.Spec.att Cert.Spec.val
  exact Finset.sum_congr rfl fun s _ => congrArg₂ (· * ·) (v34_at a0 a1 a2 a3 a4 a5 b hd l s) (v30_at a0 a1 a2 a3 a4 a5 b hd s d)

/-- The scores of key 2: the inner product of the query at `l` with the key at `s`. -/
theorem v36_at (b : Fin 64) (hd : Fin 8) (l s : Fin 256) :
    RefRun.res_main_v36 (F := Ideal) a0 a1 a2 a3 a4 a5 (ix4 b hd l s)
      = Cert.Spec.score Cert.Spec.featR (hF a0) (wqF a1) 2 b hd l s := by
  unfold RefRun.res_main_v36
  refine (dot_qk_at _ _ b hd l s).trans ?_
  unfold Cert.Spec.score
  exact Finset.sum_congr rfl fun d _ => congrArg₂ (· * ·) (v13_at a0 a1 a2 a3 a4 a5 b hd l d) (v29_at a0 a1 a2 a3 a4 a5 b hd s d)

/-- The causal mask on key 2's scores: kept at `s ≤ l`, zero after. -/
theorem v39_at (b : Fin 64) (hd : Fin 8) (l s : Fin 256) :
    RefRun.res_main_v39 (F := Ideal) a0 a1 a2 a3 a4 a5 (ix4 b hd l s)
      = if s.val ≤ l.val then Cert.Spec.score Cert.Spec.featR (hF a0) (wqF a1) 2 b hd l s else Cert.Spec.c0 := by
  unfold RefRun.res_main_v39 RefRun.res_main_call6_v1 RefRun.res_main_call6_v0 RefRun.res_main_cst_7 RefRun.res_main_v38 RefRun.res_main_call5_v5 RefRun.res_main_call5_c_0 RefRun.res_main_call5_v4 RefRun.res_main_call5_v3 RefRun.res_main_call5_v2 RefRun.res_main_call5_v1 RefRun.res_main_call5_c RefRun.res_main_call5_v0 RefRun.res_main_v37 RefRun.res_main_c_6
  refine (where_tril_at _ b hd l s).trans ?_
  rw [v36_at a0 a1 a2 a3 a4 a5 b hd l s]

/-- The causal attention for key 2: the masked scores times the values, summed over the positions. -/
theorem v40_at (b : Fin 64) (hd : Fin 8) (l : Fin 256) (d : Fin 128) :
    RefRun.res_main_v40 (F := Ideal) a0 a1 a2 a3 a4 a5 (ix4 b hd l d)
      = Cert.Spec.att Cert.Spec.featR (hF a0) (wqF a1) 2 l b hd d := by
  unfold RefRun.res_main_v40
  refine (dot_av_at _ _ b hd l d).trans ?_
  unfold Cert.Spec.att Cert.Spec.val
  exact Finset.sum_congr rfl fun s _ => congrArg₂ (· * ·) (v39_at a0 a1 a2 a3 a4 a5 b hd l s) (v30_at a0 a1 a2 a3 a4 a5 b hd s d)

end Cert.ReferenceIdeal.RefRead
-- ==== Proof.RefReadLo.lean ====
import proofs.«168379_j15891378995467_2_alg».proof.Proof.RefRun
import proofs.«168379_j15891378995467_2_alg».proof.Proof.Spec
import proofs.«168379_j15891378995467_2_alg».proof.Proof.RefReadProj
import proofs.«168379_j15891378995467_2_alg».proof.Proof.RefReadFeat
import proofs.«168379_j15891378995467_2_alg».proof.Proof.RefReadScore
import Idealize.ShloMosaic.Lib.ValueIdx
import Idealize.ShloMosaic.Lib.IdealHost
import Idealize.ShloMosaic.Lib.Pipeline.Value
import Idealize.ShloMosaic.PureOps.Ideal.Laws

noncomputable section

open scoped BigOperators

/-!
# The reference read at an index, part 4: the clipped mixing weight and the head's scaled mix

The mixing weight is clipped to [0, 1] and broadcast over batch rows and features; the two attentions are mixed with
it, scaled, moved back to position-major order and their heads laid side by side in 1024 columns.
-/

namespace Cert.ReferenceIdeal.RefRead

open Cert.ReferenceIdeal Cert.ReferenceIdeal.Gen Idealize.ShloMosaic Idealize.ShloMosaic.ValueIdx

variable (a0 : (⟨S256x64x1024, .f32⟩ : BufTy).Contents (Elt Ideal)) (a1 : (⟨S4096x1024, .f32⟩ : BufTy).Contents (Elt Ideal))
  (a2 : (⟨S1024x1024, .f32⟩ : BufTy).Contents (Elt Ideal)) (a3 : (⟨S8x256, .f32⟩ : BufTy).Contents (Elt Ideal))
  (a4 a5 : (⟨S1024, .f32⟩ : BufTy).Contents (Elt Ideal))

/-- The mixing weight clipped to [0, 1]. -/
theorem v41_at (hd : Fin 8) (l : Fin 256) :
    RefRun.res_main_v41 (F := Ideal) a0 a1 a2 a3 a4 a5 (ix2 hd l) = Cert.Spec.pic (pF a3) hd l := by
  unfold RefRun.res_main_v41 RefRun.res_main_call7_v4 RefRun.res_main_call7_v3 RefRun.res_main_cst_9 RefRun.res_main_call7_v2 RefRun.res_main_call7_v1 RefRun.res_main_call7_v0 RefRun.res_main_cst_8
  rfl

/-- A [8,256] array broadcast to [1,8,256,1] and then over batch rows and features reads the array. -/
theorem bcast_hl_at (y : (⟨S1x8x256x1, .f32⟩ : BufTy).Contents (Elt Ideal)) (b : Fin 64) (hd : Fin 8) (l : Fin 256) (d : Fin 128) :
    broadcastInDim S64x8x256x128 ![0, 1, 2, 3] bcast_S1x8x256x1_S64x8x256x128_0_1_2_3 y (ix4 b hd l d)
      = y (ix4 (0 : Fin 1) hd l (0 : Fin 1)) := by
  refine broadcastInDim_apply _ _ _ (ix4 b hd l d) (ix4 (0 : Fin 1) hd l (0 : Fin 1)) ?_
  intro a
  match a with
    | ⟨0, _⟩ => rfl
    | ⟨1, _⟩ => rfl
    | ⟨2, _⟩ => rfl
    | ⟨3, _⟩ => rfl

theorem v42_at (hd : Fin 8) (l : Fin 256) :
    RefRun.res_main_v42 (F := Ideal) a0 a1 a2 a3 a4 a5 (ix4 (0 : Fin 1) hd l (0 : Fin 1)) = Cert.Spec.pic (pF a3) hd l := by
  unfold RefRun.res_main_v42
  refine (broadcastInDim_apply _ _ _ (ix4 (0 : Fin 1) hd l (0 : Fin 1)) (ix2 hd l) ?_).trans (v41_at a0 a1 a2 a3 a4 a5 hd l)
  intro a
  match a with
  | ⟨0, _⟩ => rfl
  | ⟨1, _⟩ => rfl

theorem v43_at (b : Fin 64) (hd : Fin 8) (l : Fin 256) (d : Fin 128) :
    RefRun.res_main_v43 (F := Ideal) a0 a1 a2 a3 a4 a5 (ix4 b hd l d) = Cert.Spec.pic (pF a3) hd l := by
  unfold RefRun.res_main_v43
  exact (bcast_hl_at _ b hd l d).trans (v42_at a0 a1 a2 a3 a4 a5 hd l)

/-- One minus the clipped weight. -/
theorem v47_at (b : Fin 64) (hd : Fin 8) (l : Fin 256) (d : Fin 128) :
    RefRun.res_main_v47 (F := Ideal) a0 a1 a2 a3 a4 a5 (ix4 b hd l d) = Cert.Spec.c1 - Cert.Spec.pic (pF a3) hd l := by
  unfold RefRun.res_main_v47
  refine (bcast_hl_at _ b hd l d).trans ?_
  unfold RefRun.res_main_v46 RefRun.res_main_v45 RefRun.res_main_cst_10
  refine (subf_apply _ _ _).trans ?_
  exact congrArg₂ (· - ·) rfl (v42_at a0 a1 a2 a3 a4 a5 hd l)

/-- The head's scaled mix of its two attentions. -/
theorem v51_at (b : Fin 64) (hd : Fin 8) (l : Fin 256) (d : Fin 128) :
    RefRun.res_main_v51 (F := Ideal) a0 a1 a2 a3 a4 a5 (ix4 b hd l d)
      = Cert.Spec.lo Cert.Spec.featR (hF a0) (wqF a1) (pF a3) l b hd d := by
  unfold RefRun.res_main_v51 RefRun.res_main_v50 RefRun.res_main_cst_11 RefRun.res_main_v49 RefRun.res_main_v44 RefRun.res_main_v48
  show Cert.Spec.cs * (RefRun.res_main_v35 (F := Ideal) a0 a1 a2 a3 a4 a5 (ix4 b hd l d) * RefRun.res_main_v43 (F := Ideal) a0 a1 a2 a3 a4 a5 (ix4 b hd l d)
      + RefRun.res_main_v40 (F := Ideal) a0 a1 a2 a3 a4 a5 (ix4 b hd l d) * RefRun.res_main_v47 (F := Ideal) a0 a1 a2 a3 a4 a5 (ix4 b hd l d)) = _
  rw [v35_at, v40_at, v43_at, v47_at]
  rfl

/-- Back to position-major order. -/
theorem v52_at (l : Fin 256) (b : Fin 64) (hd : Fin 8) (d : Fin 128) :
    RefRun.res_main_v52 (F := Ideal) a0 a1 a2 a3 a4 a5 (ix4 l b hd d)
      = Cert.Spec.lo Cert.Spec.featR (hF a0) (wqF a1) (pF a3) l b hd d := by
  unfold RefRun.res_main_v52
  refine (transpose_apply _ _ _ (ix4 l b hd d) (ix4 b hd l d) ?_).trans (v51_at a0 a1 a2 a3 a4 a5 b hd l d)
  intro a
  match a with
    | ⟨0, _⟩ => rfl
    | ⟨1, _⟩ => rfl
    | ⟨2, _⟩ => rfl
    | ⟨3, _⟩ => rfl

/-- The heads side by side: column `n` is feature `n % 128` of head `n / 128`. -/
theorem v53_at (l : Fin 256) (b : Fin 64) (n : Fin 1024) :
    RefRun.res_main_v53 (F := Ideal) a0 a1 a2 a3 a4 a5 (ix3 l b n)
      = Cert.Spec.lo Cert.Spec.featR (hF a0) (wqF a1) (pF a3) l b ⟨n.val / 128, by omega⟩ ⟨n.val % 128, Nat.mod_lt _ (by omega)⟩ := by
  unfold RefRun.res_main_v53
  refine (shapeCast_apply _ _ (ix3 l b n) (ix4 l b (⟨n.val / 128, by omega⟩ : Fin 8) (⟨n.val % 128, Nat.mod_lt _ (by omega)⟩ : Fin 128)) ?_).trans (v52_at a0 a1 a2 a3 a4 a5 l b _ _)
  rw [Shape.rowMajor_val_three, Shape.rowMajor_val_four]
  show ((l.val * 64 + b.val) * 8 + n.val / 128) * 128 + n.val % 128 = (l.val * 64 + b.val) * 1024 + n.val
  omega

end Cert.ReferenceIdeal.RefRead
-- ==== Proof.RefReadOut.lean ====
import proofs.«168379_j15891378995467_2_alg».proof.Proof.RefRun
import proofs.«168379_j15891378995467_2_alg».proof.Proof.Spec
import proofs.«168379_j15891378995467_2_alg».proof.Proof.RefReadProj
import proofs.«168379_j15891378995467_2_alg».proof.Proof.RefReadFeat
import proofs.«168379_j15891378995467_2_alg».proof.Proof.RefReadScore
import proofs.«168379_j15891378995467_2_alg».proof.Proof.RefReadLo
import Idealize.ShloMosaic.Lib.ValueIdx
import Idealize.ShloMosaic.Lib.IdealHost
import Idealize.ShloMosaic.Lib.Pipeline.Value
import Idealize.ShloMosaic.PureOps.Ideal.Laws

noncomputable section

open scoped BigOperators

/-!
# The reference read at an index, part 5: the output projection, the residual and the LayerNorm

The laid-out heads are contracted with the output projection's weights, the input is added, and each row of 1024
features is normalised: mean and variance as sums divided by 1024, the centred entry scaled and divided by the square
root of the variance plus ε, the shift added.
-/

namespace Cert.ReferenceIdeal.RefRead

open Cert.ReferenceIdeal Cert.ReferenceIdeal.Gen Idealize.ShloMosaic Idealize.ShloMosaic.ValueIdx

variable (a0 : (⟨S256x64x1024, .f32⟩ : BufTy).Contents (Elt Ideal)) (a1 : (⟨S4096x1024, .f32⟩ : BufTy).Contents (Elt Ideal))
  (a2 : (⟨S1024x1024, .f32⟩ : BufTy).Contents (Elt Ideal)) (a3 : (⟨S8x256, .f32⟩ : BufTy).Contents (Elt Ideal))
  (a4 a5 : (⟨S1024, .f32⟩ : BufTy).Contents (Elt Ideal))

/-- A contraction of the left operand's last axis with the right operand's second, as the sum over that axis. -/
theorem dot_o_at (x : FVec Ideal S256x64x1024 .f32) (y : FVec Ideal S1024x1024 .f32) (l : Fin 256) (b : Fin 64) (m : Fin 1024) :
    Host.dotGeneral dot_S256x64x1024_S1024x1024_S256x64x1024_2_1_01_0_n_n none x y (ix3 l b m)
      = ∑ n : Fin 1024, x (ix3 l b n) * y (ix2 m n) := by
  refine (Ideal.dotGeneral_apply _ none .single x y (ix3 l b m)).trans ?_
  rw [← Equiv.sum_comp (contrEquiv1 dot_S256x64x1024_S1024x1024_S256x64x1024_2_1_01_0_n_n 1024 rfl rfl).symm]
  refine Finset.sum_congr rfl fun n _ => ?_
  congr 1
  · refine congrArg x (funext fun a => Fin.ext ?_)
    match a with
    | ⟨0, _⟩ => rfl
    | ⟨1, _⟩ => rfl
    | ⟨2, _⟩ => exact (DotDims.lhsIdx_val_of_single _ rfl _ _).trans (contrEquiv1_symm_val _ 1024 rfl rfl n)
  · refine congrArg y (funext fun a => Fin.ext ?_)
    match a with
    | ⟨0, _⟩ => rfl
    | ⟨1, _⟩ => exact (DotDims.rhsIdx_val_of_single _ rfl _ _).trans (contrEquiv1_symm_val _ 1024 rfl rfl n)

/-- The output projection over all 1024 laid-out features. -/
theorem v54_at (l : Fin 256) (b : Fin 64) (m : Fin 1024) :
    RefRun.res_main_v54 (F := Ideal) a0 a1 a2 a3 a4 a5 (ix3 l b m)
      = Cert.Spec.attnAll Cert.Spec.featR (hF a0) (wqF a1) (woF a2) (pF a3) l b m := by
  unfold RefRun.res_main_v54
  refine (dot_o_at _ _ l b m).trans ?_
  unfold Cert.Spec.attnAll
  exact Finset.sum_congr rfl fun n _ => congrArg₂ (· * ·) (v53_at a0 a1 a2 a3 a4 a5 l b n) rfl

/-- The row the LayerNorm normalises: the input plus the attention's projection. -/
abbrev xrow (a0 : (⟨S256x64x1024, .f32⟩ : BufTy).Contents (Elt Ideal)) (a1 : (⟨S4096x1024, .f32⟩ : BufTy).Contents (Elt Ideal))
    (a2 : (⟨S1024x1024, .f32⟩ : BufTy).Contents (Elt Ideal)) (a3 : (⟨S8x256, .f32⟩ : BufTy).Contents (Elt Ideal))
    (l : Fin 256) (b : Fin 64) : Fin 1024 → EReal :=
  fun m' => hF a0 l b m' + Cert.Spec.attnAll Cert.Spec.featR (hF a0) (wqF a1) (woF a2) (pF a3) l b m'

theorem v55_at (l : Fin 256) (b : Fin 64) (m : Fin 1024) :
    RefRun.res_main_v55 (F := Ideal) a0 a1 a2 a3 a4 a5 (ix3 l b m) = xrow a0 a1 a2 a3 l b m := by
  unfold RefRun.res_main_v55
  exact (addf_apply _ _ _).trans (congrArg₂ (· + ·) rfl (v54_at a0 a1 a2 a3 a4 a5 l b m))

/-- The host's sum over the last axis from the scalar zero: the sum over the 1024 features. -/
theorem reduce_row_at (x : FVec Ideal S256x64x1024 .f32) (l : Fin 256) (b : Fin 64) :
    Host.reduceAdd x (constant (F := Ideal) S_ .f32 0x00000000#32) reducesTo_S256x64x1024_S256x64_d2 h_S_ (ix2 l b)
      = ∑ m : Fin 1024, x (ix3 l b m) := by
  refine (hostReduceAdd_apply _ _ _ _ _).trans ?_
  refine (Ideal.hostReduceAdd_single reducesTo_S256x64x1024_S256x64_d2 (by decide) x _ (ix2 l b)).trans ?_
  rw [show constant (F := Ideal) S_ .f32 0x00000000#32 (Shape.Idx.first h_S_) = 0 from Ideal.ofBits_zero_f32, zero_add]
  refine Finset.sum_congr rfl fun m _ => congrArg x (funext fun a => Fin.ext ?_)
  match a with
  | ⟨0, _⟩ => rfl
  | ⟨1, _⟩ => rfl
  | ⟨2, _⟩ => rfl

/-- A [256,64] array with a unit last axis added reads the array. -/
theorem bcast_unit_at (y : (⟨S256x64, .f32⟩ : BufTy).Contents (Elt Ideal)) (l : Fin 256) (b : Fin 64) :
    broadcastInDim S256x64x1 ![0, 1] bcast_S256x64_S256x64x1_0_1 y (ix3 l b (0 : Fin 1)) = y (ix2 l b) := by
  refine broadcastInDim_apply _ _ _ (ix3 l b (0 : Fin 1)) (ix2 l b) ?_
  intro a
  match a with
  | ⟨0, _⟩ => rfl
  | ⟨1, _⟩ => rfl

/-- A [256,64,1] array broadcast over the 1024 features reads the array. -/
theorem bcast_row_at (y : (⟨S256x64x1, .f32⟩ : BufTy).Contents (Elt Ideal)) (l : Fin 256) (b : Fin 64) (m : Fin 1024) :
    broadcastInDim S256x64x1024 ![0, 1, 2] bcast_S256x64x1_S256x64x1024_0_1_2 y (ix3 l b m) = y (ix3 l b (0 : Fin 1)) := by
  refine broadcastInDim_apply _ _ _ (ix3 l b m) (ix3 l b (0 : Fin 1)) ?_
  intro a
  match a with
  | ⟨0, _⟩ => rfl
  | ⟨1, _⟩ => rfl
  | ⟨2, _⟩ => rfl

/-- A [1024] array broadcast over positions and batch rows reads the array. -/
theorem bcast_feat_at (y : (⟨S1024, .f32⟩ : BufTy).Contents (Elt Ideal)) (l : Fin 256) (b : Fin 64) (m : Fin 1024) :
    broadcastInDim S256x64x1024 ![0, 1, 2] bcast_S1x1x1024_S256x64x1024_0_1_2
      (broadcastInDim S1x1x1024 ![2] bcast_S1024_S1x1x1024_2 y) (ix3 l b m) = y (ix1 m) := by
  refine (broadcastInDim_apply _ _ _ (ix3 l b m) (ix3 (0 : Fin 1) (0 : Fin 1) m) ?_).trans ?_
  · intro a
    match a with
    | ⟨0, _⟩ => rfl
    | ⟨1, _⟩ => rfl
    | ⟨2, _⟩ => rfl
  · refine broadcastInDim_apply _ _ _ (ix3 (0 : Fin 1) (0 : Fin 1) m) (ix1 m) ?_
    intro a
    match a with
    | ⟨0, _⟩ => rfl

theorem v56_at (l : Fin 256) (b : Fin 64) :
    RefRun.res_main_v56 (F := Ideal) a0 a1 a2 a3 a4 a5 (ix2 l b) = ∑ m : Fin 1024, xrow a0 a1 a2 a3 l b m := by
  unfold RefRun.res_main_v56 RefRun.res_main_cst_12
  refine (reduce_row_at _ l b).trans ?_
  exact Finset.sum_congr rfl fun m _ => v55_at a0 a1 a2 a3 a4 a5 l b m

/-- The row's mean. -/
theorem v59_at (l : Fin 256) (b : Fin 64) :
    RefRun.res_main_v59 (F := Ideal) a0 a1 a2 a3 a4 a5 (ix3 l b (0 : Fin 1)) = Cert.Spec.mean (xrow a0 a1 a2 a3 l b) := by
  unfold RefRun.res_main_v59 RefRun.res_main_v58 RefRun.res_main_cst_13 RefRun.res_main_v57
  refine (hostDivf_apply _ _ _).trans ?_
  unfold Cert.Spec.mean
  exact congrArg₂ Ideal.div ((bcast_unit_at _ l b).trans (v56_at a0 a1 a2 a3 a4 a5 l b)) rfl

theorem v61_at (l : Fin 256) (b : Fin 64) (m : Fin 1024) :
    RefRun.res_main_v61 (F := Ideal) a0 a1 a2 a3 a4 a5 (ix3 l b m) = xrow a0 a1 a2 a3 l b m - Cert.Spec.mean (xrow a0 a1 a2 a3 l b) := by
  unfold RefRun.res_main_v61 RefRun.res_main_v60
  exact (subf_apply _ _ _).trans (congrArg₂ (· - ·) (v55_at a0 a1 a2 a3 a4 a5 l b m) ((bcast_row_at _ l b m).trans (v59_at a0 a1 a2 a3 a4 a5 l b)))

theorem v63_at (l : Fin 256) (b : Fin 64) :
    RefRun.res_main_v63 (F := Ideal) a0 a1 a2 a3 a4 a5 (ix2 l b)
      = ∑ m : Fin 1024, (xrow a0 a1 a2 a3 l b m - Cert.Spec.mean (xrow a0 a1 a2 a3 l b)) * (xrow a0 a1 a2 a3 l b m - Cert.Spec.mean (xrow a0 a1 a2 a3 l b)) := by
  unfold RefRun.res_main_v63 RefRun.res_main_cst_14 RefRun.res_main_v62
  refine (reduce_row_at _ l b).trans ?_
  exact Finset.sum_congr rfl fun m _ => (mulf_apply _ _ _).trans (congrArg₂ (· * ·) (v61_at a0 a1 a2 a3 a4 a5 l b m) (v61_at a0 a1 a2 a3 a4 a5 l b m))

/-- The row's variance. -/
theorem v66_at (l : Fin 256) (b : Fin 64) :
    RefRun.res_main_v66 (F := Ideal) a0 a1 a2 a3 a4 a5 (ix3 l b (0 : Fin 1)) = Cert.Spec.var (xrow a0 a1 a2 a3 l b) := by
  unfold RefRun.res_main_v66 RefRun.res_main_v65 RefRun.res_main_cst_15 RefRun.res_main_v64
  refine (hostDivf_apply _ _ _).trans ?_
  unfold Cert.Spec.var
  exact congrArg₂ Ideal.div ((bcast_unit_at _ l b).trans (v63_at a0 a1 a2 a3 a4 a5 l b)) rfl

theorem v68_at (l : Fin 256) (b : Fin 64) (m : Fin 1024) :
    RefRun.res_main_v68 (F := Ideal) a0 a1 a2 a3 a4 a5 (ix3 l b m) = xrow a0 a1 a2 a3 l b m - Cert.Spec.mean (xrow a0 a1 a2 a3 l b) := by
  unfold RefRun.res_main_v68 RefRun.res_main_v67
  exact (subf_apply _ _ _).trans (congrArg₂ (· - ·) (v55_at a0 a1 a2 a3 a4 a5 l b m) ((bcast_row_at _ l b m).trans (v59_at a0 a1 a2 a3 a4 a5 l b)))

theorem v71_at (l : Fin 256) (b : Fin 64) (m : Fin 1024) :
    RefRun.res_main_v71 (F := Ideal) a0 a1 a2 a3 a4 a5 (ix3 l b m) = gF a4 m * (xrow a0 a1 a2 a3 l b m - Cert.Spec.mean (xrow a0 a1 a2 a3 l b)) := by
  unfold RefRun.res_main_v71 RefRun.res_main_v70 RefRun.res_main_v69
  exact (mulf_apply _ _ _).trans (congrArg₂ (· * ·) (bcast_feat_at a4 l b m) (v68_at a0 a1 a2 a3 a4 a5 l b m))

/-- The square root of the variance plus ε. -/
theorem v74_at (l : Fin 256) (b : Fin 64) :
    RefRun.res_main_v74 (F := Ideal) a0 a1 a2 a3 a4 a5 (ix3 l b (0 : Fin 1)) = Ideal.sqrt (Cert.Spec.var (xrow a0 a1 a2 a3 l b) + Cert.Spec.ce) := by
  unfold RefRun.res_main_v74 RefRun.res_main_v73 RefRun.res_main_v72 RefRun.res_main_cst_16
  show Ideal.sqrt (RefRun.res_main_v66 (F := Ideal) a0 a1 a2 a3 a4 a5 (ix3 l b (0 : Fin 1)) + Cert.Spec.ce) = _
  rw [v66_at]

theorem v76_at (l : Fin 256) (b : Fin 64) (m : Fin 1024) :
    RefRun.res_main_v76 (F := Ideal) a0 a1 a2 a3 a4 a5 (ix3 l b m)
      = Ideal.div (gF a4 m * (xrow a0 a1 a2 a3 l b m - Cert.Spec.mean (xrow a0 a1 a2 a3 l b))) (Ideal.sqrt (Cert.Spec.var (xrow a0 a1 a2 a3 l b) + Cert.Spec.ce)) := by
  unfold RefRun.res_main_v76 RefRun.res_main_v75
  exact (hostDivf_apply _ _ _).trans (congrArg₂ Ideal.div (v71_at a0 a1 a2 a3 a4 a5 l b m) ((bcast_row_at _ l b m).trans (v74_at a0 a1 a2 a3 a4 a5 l b)))

/-- The LayerNorm of the row, at feature `m`. -/
theorem v79_at (l : Fin 256) (b : Fin 64) (m : Fin 1024) :
    RefRun.res_main_v79 (F := Ideal) a0 a1 a2 a3 a4 a5 (ix3 l b m) = Cert.Spec.lnR (gF a4) (btF a5) (xrow a0 a1 a2 a3 l b) m := by
  unfold RefRun.res_main_v79 RefRun.res_main_v78 RefRun.res_main_v77
  unfold Cert.Spec.lnR
  exact (addf_apply _ _ _).trans (congrArg₂ (· + ·) (v76_at a0 a1 a2 a3 a4 a5 l b m) (bcast_feat_at a5 l b m))

/-- The reference's result at position `l`, batch row `b`, feature `m` is the layer's second spelling there. -/
theorem res_eq (a0 : (⟨S256x64x1024, .f32⟩ : BufTy).Contents (Elt Ideal)) (a1 : (⟨S4096x1024, .f32⟩ : BufTy).Contents (Elt Ideal)) (a2 : (⟨S1024x1024, .f32⟩ : BufTy).Contents (Elt Ideal)) (a3 : (⟨S8x256, .f32⟩ : BufTy).Contents (Elt Ideal)) (a4 a5 : (⟨S1024, .f32⟩ : BufTy).Contents (Elt Ideal)) (l : Fin 256) (b : Fin 64) (m : Fin 1024) :
    RefRun.res_main_v79 (F := Ideal) a0 a1 a2 a3 a4 a5 (ValueIdx.ix3 l b m)
      = Cert.Spec.outR (fun l b m => a0 (ValueIdx.ix3 l b m)) (fun n m => a1 (ValueIdx.ix2 n m)) (fun m n => a2 (ValueIdx.ix2 m n)) (fun hd l => a3 (ValueIdx.ix2 hd l)) (fun m => a4 (ValueIdx.ix1 m)) (fun m => a5 (ValueIdx.ix1 m)) l b m :=
  v79_at a0 a1 a2 a3 a4 a5 l b m

end Cert.ReferenceIdeal.RefRead
-- ==== Proof.lean ====
import proofs.«168379_j15891378995467_2_alg».proof.Defs
import proofs.«168379_j15891378995467_2_alg».proof.Proof.Gen.Kernel
import proofs.«168379_j15891378995467_2_alg».proof.Proof.Gen.Kernel.Frame
import proofs.«168379_j15891378995467_2_alg».proof.Proof.Gen.KernelIdeal
import proofs.«168379_j15891378995467_2_alg».proof.Proof.Gen.KernelIdeal.Frame
import proofs.«168379_j15891378995467_2_alg».proof.Proof.Gen.ReferenceIdeal
import proofs.«168379_j15891378995467_2_alg».proof.Proof.Gen.Pre_finite_inputs
import proofs.«168379_j15891378995467_2_alg».proof.Proof.RefRun
import proofs.«168379_j15891378995467_2_alg».proof.Proof.SpecBridge
import proofs.«168379_j15891378995467_2_alg».proof.Proof.PreFinite
import proofs.«168379_j15891378995467_2_alg».proof.Proof.KernelFinalC
import proofs.«168379_j15891378995467_2_alg».proof.Proof.RefReadOut
import Idealize.ShloMosaic.Adequacy
import Idealize.ShloMosaic.Init

/-!
# The certificate

The kernel computes a two-key causal linear-attention layer with a post-LayerNorm residual, one (batch group,
head) grid point at a time: it accumulates the heads' output projections in the output block and LayerNorms
the block's rows at the last head.  The reference computes the same layer with whole-array operations.

Over the extended reals both results are one function of the six argument arrays, entry by entry:
the kernel's output array is `Spec.outK` of the arguments (the grid walk: the block after head `hh` holds
the sum of the first `hh + 1` heads' projections, and after the last head the LayerNorm of input plus that
sum), the reference's is `Spec.outR` (each host operation read at an entry), and for finite arguments — the
precondition — the two spellings agree: `elu u + 1` is `u + 1` above zero and `exp u` below, the sum over the
1024 projected features is the sum over heads of the sums over each head's 128 features, and dividing by the
square root of a positive real is multiplying by its reciprocal square root.

The three frames: the kernel's two are their generated frame certificates; the reference's is its run with the
result forgotten.  The idealization rewrote no operation, so there is nothing to preserve.
-/

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2)
    (Cert.ReferenceIdeal.RefRun.run (F := Ideal) m ρ)

/-- From memories agreeing on the arguments both programs end with the layer of the arguments in their result
    arrays: the kernel's in its first spelling, the reference's in its second, equal because the arguments are
    finite. -/
theorem algebraic : Cert.algebraic_KernelIdeal_ReferenceIdeal := by
  intro m ρ m' ρ' hpre hagree
  refine ⟨fun c => Cert.KernelIdeal.Final.outOf m c, Cert.KernelIdeal.Final.run m ρ, ?_⟩
  refine (θ_run Cert.ReferenceIdeal.defs _ _).mono (fun r h c => ⟨?_, (h c).2⟩)
    (Cert.ReferenceIdeal.RefRun.run (F := Ideal) m' ρ')
  rw [(h c).1, (hagree c).1, (hagree c).2.1, (hagree c).2.2.1, (hagree c).2.2.2.1, (hagree c).2.2.2.2.1,
    (hagree c).2.2.2.2.2]
  obtain ⟨hf0, hf1, hf2, hf3, hf4, hf5⟩ := Cert.Proof.PreFinite.finite_of_pre _ _ _ _ _ _ (hpre c)
  funext i
  obtain ⟨l, b, k, rfl⟩ : ∃ (l : Fin 256) (b : Fin 64) (k : Fin 1024), i = ix3 l b k := ⟨i 0, i 1, i 2, eq_ix3 i⟩
  refine (Cert.ReferenceIdeal.RefRead.res_eq _ _ _ _ _ _ l b k).trans ?_
  exact Cert.Spec.outR_eq_outK _ _ _ _ _ _ (fun _ _ _ => hf0 _) (fun _ _ => hf1 _) (fun _ _ => hf2 _)
    (fun _ _ => hf3 _) (fun _ => hf4 _) (fun _ => hf5 _) l b k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
